-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x3200000 : Shape := ⟨2, ![2, 3200000]⟩
abbrev S100000 : Shape := ⟨1, ![100000]⟩
abbrev S256x20 : Shape := ⟨2, ![256, 20]⟩
abbrev S2x15x15 : Shape := ⟨3, ![2, 15, 15]⟩
abbrev S45x15 : Shape := ⟨2, ![45, 15]⟩
abbrev S45 : Shape := ⟨1, ![45]⟩
abbrev S20x35 : Shape := ⟨2, ![20, 35]⟩
abbrev S20 : Shape := ⟨1, ![20]⟩
abbrev S6x20 : Shape := ⟨2, ![6, 20]⟩
abbrev S6 : Shape := ⟨1, ![6]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S256x20 : S_.BroadcastsInDim S256x20 (![] : Fin 0 → Fin S256x20.rank)
  reducesTo_S256x20_S_d0_1 : S256x20.ReducesTo [0, 1] S_
  bcast_S_S2x15x15 : S_.BroadcastsInDim S2x15x15 (![] : Fin 0 → Fin S2x15x15.rank)
  reducesTo_S2x15x15_S_d0_1_2 : S2x15x15.ReducesTo [0, 1, 2] S_
  bcast_S_S45x15 : S_.BroadcastsInDim S45x15 (![] : Fin 0 → Fin S45x15.rank)
  reducesTo_S45x15_S_d0_1 : S45x15.ReducesTo [0, 1] S_
  bcast_S_S45 : S_.BroadcastsInDim S45 (![] : Fin 0 → Fin S45.rank)
  reducesTo_S45_S_d0 : S45.ReducesTo [0] S_
  bcast_S_S20x35 : S_.BroadcastsInDim S20x35 (![] : Fin 0 → Fin S20x35.rank)
  reducesTo_S20x35_S_d0_1 : S20x35.ReducesTo [0, 1] S_
  bcast_S_S20 : S_.BroadcastsInDim S20 (![] : Fin 0 → Fin S20.rank)
  reducesTo_S20_S_d0 : S20.ReducesTo [0] S_
  bcast_S_S6x20 : S_.BroadcastsInDim S6x20 (![] : Fin 0 → Fin S6x20.rank)
  reducesTo_S6x20_S_d0_1 : S6x20.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg9 : FVec F S20x35 .f32) (main_arg10 : FVec F S20 .f32) (main_arg11 : FVec F S6x20 .f32) (main_arg12 : FVec F S6 .f32) (main_v33 : IVec S_ 1) : IVec S_ 1 :=
  let main_v34 : FVec F S20x35 .f32 := Host.absf main_arg9
  let main_cst_12 : FVec F S_ .f32 := constant S_ .f32 0x7F800000#32
  let main_v35 : FVec F S20x35 .f32 := broadcastInDim S20x35 ![] bcast_S_S20x35 main_cst_12
  let main_v36 : IVec S20x35 1 := cmpf .olt main_v34 main_v35
  let main_c_13 : IVec S_ 1 := constantI S_ 1 1#1
  let main_v37 : IVec S_ 1 := (fun x v => Host.reduce IntOp.andi x v reducesTo_S20x35_S_d0_1 h_S_) main_v36 main_c_13
  let main_v38 : IVec S_ 1 := andi main_v33 main_v37
  let main_v39 : FVec F S20 .f32 := Host.absf main_arg10
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S6x20 .f32 := Host.absf main_arg11
  let main_cst_16 : FVec F S_ .f32 := constant S_ .f32 0x7F800000#32
  let main_v45 : FVec F S6x20 .f32 := broadcastInDim S6x20 ![] bcast_S_S6x20 main_cst_16
  let main_v46 : IVec S6x20 1 := cmpf .olt main_v44 main_v45
  let main_c_17 : IVec S_ 1 := constantI S_ 1 1#1
  let main_v47 : IVec S_ 1 := (fun x v => Host.reduce IntOp.andi x v reducesTo_S6x20_S_d0_1 h_S_) main_v46 main_c_17
  let main_v48 : IVec S_ 1 := andi main_v43 main_v47
  let main_v49 : FVec F S6 .f32 := Host.absf main_arg12
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg6 : FVec F S45x15 .f32) (main_arg7 : FVec F S45 .f32) (main_arg8 : FVec F S45 .f32) (main_arg9 : FVec F S20x35 .f32) (main_arg10 : FVec F S20 .f32) (main_arg11 : FVec F S6x20 .f32) (main_arg12 : FVec F S6 .f32) (main_v13 : IVec S_ 1) (main_v16 : IVec S45x15 1) : IVec S_ 1 :=
  let main_c_5 : IVec S_ 1 := constantI S_ 1 1#1
  let main_v17 : IVec S_ 1 := (fun x v => Host.reduce IntOp.andi x v reducesTo_S45x15_S_d0_1 h_S_) main_v16 main_c_5
  let main_v18 : IVec S_ 1 := andi main_v13 main_v17
  let main_v19 : FVec F S45x15 .f32 := Host.absf main_arg6
  let main_cst_6 : FVec F S_ .f32 := constant S_ .f32 0x7F800000#32
  let main_v20 : FVec F S45x15 .f32 := broadcastInDim S45x15 ![] bcast_S_S45x15 main_cst_6
  let main_v21 : IVec S45x15 1 := cmpf .olt main_v19 main_v20
  let main_c_7 : IVec S_ 1 := constantI S_ 1 1#1
  let main_v22 : IVec S_ 1 := (fun x v => Host.reduce IntOp.andi x v reducesTo_S45x15_S_d0_1 h_S_) main_v21 main_c_7
  let main_v23 : IVec S_ 1 := andi main_v18 main_v22
  let main_v24 : FVec F S45 .f32 := Host.absf main_arg7
  let main_cst_8 : FVec F S_ .f32 := constant S_ .f32 0x7F800000#32
  let main_v25 : FVec F S45 .f32 := broadcastInDim S45 ![] bcast_S_S45 main_cst_8
  let main_v26 : IVec S45 1 := cmpf .olt main_v24 main_v25
  let main_c_9 : IVec S_ 1 := constantI S_ 1 1#1
  let main_v27 : IVec S_ 1 := (fun x v => Host.reduce IntOp.andi x v reducesTo_S45_S_d0 h_S_) main_v26 main_c_9
  let main_v28 : IVec S_ 1 := andi main_v23 main_v27
  let main_v29 : FVec F S45 .f32 := Host.absf main_arg8
  let main_cst_10 : FVec F S_ .f32 := constant S_ .f32 0x7F800000#32
  let main_v30 : FVec F S45 .f32 := broadcastInDim S45 ![] bcast_S_S45 main_cst_10
  let main_v31 : IVec S45 1 := cmpf .olt main_v29 main_v30
  let main_c_11 : IVec S_ 1 := constantI S_ 1 1#1
  let main_v32 : IVec S_ 1 := (fun x v => Host.reduce IntOp.andi x v reducesTo_S45_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x15 .f32) (main_arg1 : IVec S2x3200000 32) (main_arg2 : IVec S100000 32) (main_arg3 : FVec F S256x20 .f32) (main_arg4 : FVec F S2x15x15 .f32) (main_arg5 : FVec F S45x15 .f32) (main_arg6 : FVec F S45x15 .f32) (main_arg7 : FVec F S45 .f32) (main_arg8 : FVec F S45 .f32) (main_arg9 : FVec F S20x35 .f32) (main_arg10 : FVec F S20 .f32) (main_arg11 : FVec F S6x20 .f32) (main_arg12 : FVec F S6 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S256x20 .f32 := Host.absf main_arg3
  let main_cst_0 : FVec F S_ .f32 := constant S_ .f32 0x7F800000#32
  let main_v5 : FVec F S256x20 .f32 := broadcastInDim S256x20 ![] bcast_S_S256x20 main_cst_0
  let main_v6 : IVec S256x20 1 := cmpf .olt main_v4 main_v5
  let main_c_1 : IVec S_ 1 := constantI S_ 1 1#1
  let main_v7 : IVec S_ 1 := (fun x v => Host.reduce IntOp.andi x v reducesTo_S256x20_S_d0_1 h_S_) main_v6 main_c_1
  let main_v8 : IVec S_ 1 := andi main_v3 main_v7
  let main_v9 : FVec F S2x15x15 .f32 := Host.absf main_arg4
  let main_cst_2 : FVec F S_ .f32 := constant S_ .f32 0x7F800000#32
  let main_v10 : FVec F S2x15x15 .f32 := broadcastInDim S2x15x15 ![] bcast_S_S2x15x15 main_cst_2
  let main_v11 : IVec S2x15x15 1 := cmpf .olt main_v9 main_v10
  let main_c_3 : IVec S_ 1 := constantI S_ 1 1#1
  let main_v12 : IVec S_ 1 := (fun x v => Host.reduce IntOp.andi x v reducesTo_S2x15x15_S_d0_1_2 h_S_) main_v11 main_c_3
  let main_v13 : IVec S_ 1 := andi main_v8 main_v12
  let main_v14 : FVec F S45x15 .f32 := Host.absf main_arg5
  let main_cst_4 : FVec F S_ .f32 := constant S_ .f32 0x7F800000#32
  let main_v15 : FVec F S45x15 .f32 := broadcastInDim S45x15 ![] bcast_S_S45x15 main_cst_4
  let main_v16 : IVec S45x15 1 := cmpf .olt main_v14 main_v15
  fn_part1 (F := F) main_arg6 main_arg7 main_arg8 main_arg9 main_arg10 main_arg11 main_arg12 main_v13 main_v16
-- ==== Kernel.lean ====
abbrev S100000x15 : Shape := ⟨2, ![100000, 15]⟩
abbrev S2x3200000 : Shape := ⟨2, ![2, 3200000]⟩
abbrev S100000 : Shape := ⟨1, ![100000]⟩
abbrev S256x20 : Shape := ⟨2, ![256, 20]⟩
abbrev S2x15x15 : Shape := ⟨3, ![2, 15, 15]⟩
abbrev S45x15 : Shape := ⟨2, ![45, 15]⟩
abbrev S45 : Shape := ⟨1, ![45]⟩
abbrev S20x35 : Shape := ⟨2, ![20, 35]⟩
abbrev S20 : Shape := ⟨1, ![20]⟩
abbrev S6x20 : Shape := ⟨2, ![6, 20]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S1x45 : Shape := ⟨2, ![1, 45]⟩
abbrev S1x15x15 : Shape := ⟨3, ![1, 15, 15]⟩
abbrev S15x15 : Shape := ⟨2, ![15, 15]⟩
abbrev S2000x15 : Shape := ⟨2, ![2000, 15]⟩
abbrev S3200000x15 : Shape := ⟨2, ![3200000, 15]⟩
abbrev S2000x45 : Shape := ⟨2, ![2000, 45]⟩
abbrev S256 : Shape := ⟨1, ![256]⟩
abbrev S256x15 : Shape := ⟨2, ![256, 15]⟩
abbrev S256x1 : Shape := ⟨2, ![256, 1]⟩
abbrev S256x35 : Shape := ⟨2, ![256, 35]⟩
abbrev S1x20 : Shape := ⟨2, ![1, 20]⟩
abbrev S1x6 : Shape := ⟨2, ![1, 6]⟩
abbrev S256x6 : Shape := ⟨2, ![256, 6]⟩

abbrev nBuf : Space → Nat
  | .hbm => 90
  | .vmem => 36
  | .smem => 0
  | _ => 0

abbrev bufTy : (tb : Table) → Fin (tcTables nBuf tb) → BufTy
  | .hbm, ⟨0, _⟩ => ⟨S100000x15, .f32⟩
  | .hbm, ⟨1, _⟩ => ⟨S2x3200000, .i32⟩
  | .hbm, ⟨2, _⟩ => ⟨S100000, .i32⟩
  | .hbm, ⟨3, _⟩ => ⟨S256x20, .f32⟩
  | .hbm, ⟨4, _⟩ => ⟨S2x15x15, .f32⟩
  | .hbm, ⟨5, _⟩ => ⟨S45x15, .f32⟩
  | .hbm, ⟨6, _⟩ => ⟨S45x15, .f32⟩
  | .hbm, ⟨7, _⟩ => ⟨S45, .f32⟩
  | .hbm, ⟨8, _⟩ => ⟨S45, .f32⟩
  | .hbm, ⟨9, _⟩ => ⟨S20x35, .f32⟩
  | .hbm, ⟨10, _⟩ => ⟨S20, .f32⟩
  | .hbm, ⟨11, _⟩ => ⟨S6x20, .f32⟩
  | .hbm, ⟨12, _⟩ => ⟨S6, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x45, .f32⟩
  | .hbm, ⟨28, _⟩ => ⟨S1x45, .f32⟩
  | .hbm, ⟨29, _⟩ => ⟨S1x15x15, .f32⟩
  | .hbm, ⟨30, _⟩ => ⟨S15x15, .f32⟩
  | .hbm, ⟨31, _⟩ => ⟨S100000x15, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x15, .f32⟩
  | .hbm, ⟨41, _⟩ => ⟨S_, .f32⟩
  | .hbm, ⟨42, _⟩ => ⟨S100000x15, .f32⟩
  | .hbm, ⟨43, _⟩ => ⟨S3200000x1, .i32⟩
  | .hbm, ⟨44, _⟩ => ⟨S100000x15, .f32⟩
  | .hbm, ⟨45, _⟩ => ⟨S100000x15, .f32⟩
  | .hbm, ⟨46, _⟩ => ⟨S100000x15, .f32⟩
  | .hbm, ⟨47, _⟩ => ⟨S100000x15, .f32⟩
  | .hbm, ⟨48, _⟩ => ⟨S1x15x15, .f32⟩
  | .hbm, ⟨49, _⟩ => ⟨S15x15, .f32⟩
  | .hbm, ⟨50, _⟩ => ⟨S100000x15, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x15, .f32⟩
  | .hbm, ⟨60, _⟩ => ⟨S_, .f32⟩
  | .hbm, ⟨61, _⟩ => ⟨S100000x15, .f32⟩
  | .hbm, ⟨62, _⟩ => ⟨S3200000x1, .i32⟩
  | .hbm, ⟨63, _⟩ => ⟨S100000x15, .f32⟩
  | .hbm, ⟨64, _⟩ => ⟨S100000x15, .f32⟩
  | .hbm, ⟨65, _⟩ => ⟨S100000x15, .f32⟩
  | .hbm, ⟨66, _⟩ => ⟨S100000x15, .f32⟩
  | .hbm, ⟨67, _⟩ => ⟨S_, .f32⟩
  | .hbm, ⟨68, _⟩ => ⟨S100000x15, .f32⟩
  | .hbm, ⟨69, _⟩ => ⟨S100000x15, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S256, .f32⟩
  | .hbm, ⟨74, _⟩ => ⟨S100000x1, .i32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S_, .f32⟩
  | .hbm, ⟨80, _⟩ => ⟨S256x15, .f32⟩
  | .hbm, ⟨81, _⟩ => ⟨S100000x1, .i32⟩
  | .hbm, ⟨82, _⟩ => ⟨S256x15, .f32⟩
  | .hbm, ⟨83, _⟩ => ⟨S256x1, .f32⟩
  | .hbm, ⟨84, _⟩ => ⟨S256x15, .f32⟩
  | .hbm, ⟨85, _⟩ => ⟨S256x15, .f32⟩
  | .hbm, ⟨86, _⟩ => ⟨S256x35, .f32⟩
  | .hbm, ⟨87, _⟩ => ⟨S1x20, .f32⟩
  | .hbm, ⟨88, _⟩ => ⟨S1x6, .f32⟩
  | .hbm, ⟨89, _⟩ => ⟨S256x6, .f32⟩
  | .local _ .vmem, ⟨0, _⟩ => ⟨S2000x15, .f32⟩
  | .local _ .vmem, ⟨1, _⟩ => ⟨S2000x15, .f32⟩
  | .local _ .vmem, ⟨2, _⟩ => ⟨S15x15, .f32⟩
  | .local _ .vmem, ⟨3, _⟩ => ⟨S2000x15, .f32⟩
  | .local _ .vmem, ⟨4, _⟩ => ⟨S2000x15, .f32⟩
  | .local _ .vmem, ⟨5, _⟩ => ⟨S2000x15, .f32⟩
  | .local _ .vmem, ⟨6, _⟩ => ⟨S2000x15, .f32⟩
  | .local _ .vmem, ⟨7, _⟩ => ⟨S2000x15, .f32⟩
  | .local _ .vmem, ⟨8, _⟩ => ⟨S2000x15, .f32⟩
  | .local _ .vmem, ⟨9, _⟩ => ⟨S45x15, .f32⟩
  | .local _ .vmem, ⟨10, _⟩ => ⟨S45x15, .f32⟩
  | .local _ .vmem, ⟨11, _⟩ => ⟨S1x45, .f32⟩
  | .local _ .vmem, ⟨12, _⟩ => ⟨S1x45, .f32⟩
  | .local _ .vmem, ⟨13, _⟩ => ⟨S2000x15, .f32⟩
  | .local _ .vmem, ⟨14, _⟩ => ⟨S2000x15, .f32⟩
  | .local _ .vmem, ⟨15, _⟩ => ⟨S2000x15, .f32⟩
  | .local _ .vmem, ⟨16, _⟩ => ⟨S2000x15, .f32⟩
  | .local _ .vmem, ⟨17, _⟩ => ⟨S15x15, .f32⟩
  | .local _ .vmem, ⟨18, _⟩ => ⟨S2000x15, .f32⟩
  | .local _ .vmem, ⟨19, _⟩ => ⟨S2000x15, .f32⟩
  | .local _ .vmem, ⟨20, _⟩ => ⟨S2000x15, .f32⟩
  | .local _ .vmem, ⟨21, _⟩ => ⟨S2000x15, .f32⟩
  | .local _ .vmem, ⟨22, _⟩ => ⟨S2000x15, .f32⟩
  | .local _ .vmem, ⟨23, _⟩ => ⟨S2000x15, .f32⟩
  | .local _ .vmem, ⟨24, _⟩ => ⟨S45x15, .f32⟩
  | .local _ .vmem, ⟨25, _⟩ => ⟨S45x15, .f32⟩
  | .local _ .vmem, ⟨26, _⟩ => ⟨S1x45, .f32⟩
  | .local _ .vmem, ⟨27, _⟩ => ⟨S1x45, .f32⟩
  | .local _ .vmem, ⟨28, _⟩ => ⟨S2000x15, .f32⟩
  | .local _ .vmem, ⟨29, _⟩ => ⟨S2000x15, .f32⟩
  | .local _ .vmem, ⟨30, _⟩ => ⟨S256x35, .f32⟩
  | .local _ .vmem, ⟨31, _⟩ => ⟨S20x35, .f32⟩
  | .local _ .vmem, ⟨32, _⟩ => ⟨S1x20, .f32⟩
  | .local _ .vmem, ⟨33, _⟩ => ⟨S6x20, .f32⟩
  | .local _ .vmem, ⟨34, _⟩ => ⟨S1x6, .f32⟩
  | .local _ .vmem, ⟨35, _⟩ => ⟨S256x6, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_cst : Ref sig .tc := ⟨.hbm, 67, rfl⟩
abbrev main_call0_v0 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x15 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x15 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S45x15 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S45x15 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x45 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x45 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x15 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x15 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S15x15 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x15 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x15 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x15 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S45x15 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S45x15 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x45 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x45 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x15 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x35 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S20x35 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x20 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S6x20 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x6 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x6 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  shapeCasts_S45_S1x45 : S45.ShapeCasts S1x45
  slices_S2x15x15_S1x15x15_0_0_0 : S2x15x15.Slices ![0, 0, 0] S1x15x15
  shapeCasts_S1x15x15_S15x15 : S1x15x15.ShapeCasts S15x15
  inb_S2000x15_S2000x15_0_0 : ∀ a, (![0, 0] : Fin 2 → Nat) a + S2000x15.size a ≤ S2000x15.size a
  h_S2000x15 : 0 < S2000x15.numel
  inb_S15x15_S15x15_0_0 : ∀ a, (![0, 0] : Fin 2 → Nat) a + S15x15.size a ≤ S15x15.size a
  h_S15x15 : 0 < S15x15.numel
  shapeCasts_S15x15_S15x15 : S15x15.ShapeCasts S15x15
  bcast_S_S100000x15 : S_.BroadcastsInDim S100000x15 (![] : Fin 0 → Fin S100000x15.rank)
  bcast_S100000x1_S100000x15_0_1 : S100000x1.BroadcastsInDim S100000x15 (![0, 1] : Fin 2 → Fin S100000x15.rank)
  shapeCasts_S2000x15_S2000x15 : S2000x15.ShapeCasts S2000x15
  inb_S45x15_S45x15_0_0 : ∀ a, (![0, 0] : Fin 2 → Nat) a + S45x15.size a ≤ S45x15.size a
  h_S45x15 : 0 < S45x15.numel
  inb_S1x45_S1x45_0_0 : ∀ a, (![0, 0] : Fin 2 → Nat) a + S1x45.size a ≤ S1x45.size a
  h_S1x45 : 0 < S1x45.numel
  shapeCasts_S1x45_S1x45 : S1x45.ShapeCasts S1x45
  broadcasts_S1x45_S2000x45 : S1x45.Broadcasts S2000x45
  slices_S2000x45_o0_0_S2000x15 : S2000x45.Slices ![0, 0] S2000x15
  slices_S2000x45_o0_15_S2000x15 : S2000x45.Slices ![0, 15] S2000x15
  slices_S2000x45_o0_30_S2000x15 : S2000x45.Slices ![0, 30] S2000x15
  slices_S2x15x15_S1x15x15_1_0_0 : S2x15x15.Slices ![1, 0, 0] S1x15x15
  bcast_S_S256 : S_.BroadcastsInDim S256 (![] : Fin 0 → Fin S256.rank)
  bcast_S_S256x15 : S_.BroadcastsInDim S256x15 (![] : Fin 0 → Fin S256x15.rank)
  bcast_S256_S256x1_0 : S256.BroadcastsInDim S256x1 (![0] : Fin 1 → Fin S256x1.rank)
  bcast_S256x1_S256x15_0_1 : S256x1.BroadcastsInDim S256x15 (![0, 1] : Fin 2 → Fin S256x15.rank)
  concatenates_S256x15_S256x20_S256x35_d1 : Shape.Concatenates [S256x15, S256x20] S256x35 1
  shapeCasts_S20_S1x20 : S20.ShapeCasts S1x20
  shapeCasts_S6_S1x6 : S6.ShapeCasts S1x6
  inb_S256x35_S256x35_0_0 : ∀ a, (![0, 0] : Fin 2 → Nat) a + S256x35.size a ≤ S256x35.size a
  h_S256x35 : 0 < S256x35.numel
  shapeCasts_S256x35_S256x35 : S256x35.ShapeCasts S256x35
  inb_S20x35_S20x35_0_0 : ∀ a, (![0, 0] : Fin 2 → Nat) a + S20x35.size a ≤ S20x35.size a
  h_S20x35 : 0 < S20x35.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S6x20_S6x20_0_0 : ∀ a, (![0, 0] : Fin 2 → Nat) a + S6x20.size a ≤ S6x20.size a
  h_S6x20 : 0 < S6x20.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x20_S256x20 : S1x20.Broadcasts S256x20
  broadcasts_S1x6_S256x6 : S1x6.Broadcasts S256x6
  reduces_S256x6_S256 : S256x6.Reduces [1] S256
  shapeCasts_S256_S256x1 : S256.ShapeCasts S256x1
  broadcasts_S256x1_S256x6 : S256x1.Broadcasts S256x6
  inb_S256x6_S256x6_0_0 : ∀ a, (![0, 0] : Fin 2 → Nat) a + S256x6.size a ≤ S256x6.size a
  h_S256x6 : 0 < S256x6.numel
  scatter_S100000_S3200000x1_S3200000_n_0_0_1_wf : ScatterDims.WF S100000 S3200000x1 S3200000 [] [0] [0] 1
  dot_S2000x15_S15x15_S2000x15_1_0_0_1_n_n_wf : DotDims.WF S2000x15 S15x15 S2000x15 [1] [0] [0] [1] [] []
  gather_S100000x15_S3200000x1_S3200000x15_1_0_n_n_0_1_115_wf : GatherDims.WF S100000x15 S3200000x1 S3200000x15 [1] [0] [] [0] [] 1 ![1, 15]
  scatter_S100000x15_S3200000x1_S3200000x15_1_0_0_1_wf : ScatterDims.WF S100000x15 S3200000x1 S3200000x15 [1] [0] [0] 1
  dot_S2000x15_S45x15_S2000x45_1_1_0_0_n_n_wf : DotDims.WF S2000x15 S45x15 S2000x45 [1] [1] [0] [0] [] []
  scatter_S256_S100000x1_S100000_n_0_0_1_wf : ScatterDims.WF S256 S100000x1 S100000 [] [0] [0] 1
  scatter_S256x15_S100000x1_S100000x15_1_0_0_1_wf : ScatterDims.WF S256x15 S100000x1 S100000x15 [1] [0] [0] 1
  dot_S256x35_S20x35_S256x20_1_1_0_0_n_n_wf : DotDims.WF S256x35 S20x35 S256x20 [1] [1] [0] [0] [] []
  dot_S256x20_S6x20_S256x6_1_1_0_0_n_n_wf : DotDims.WF S256x20 S6x20 S256x6 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x15.size a ≤ S100000x15.size a
  hwx0_0 : ∀ i : grid0.Coords, EltTy.bits .f32 = 32 ∨ (Rect.block (s := S100000x15) S2000x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x15.size a ≤ S15x15.size a
  hwx0_1 : ∀ i : grid0.Coords, EltTy.bits .f32 = 32 ∨ (Rect.block (s := S15x15) S15x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x15.size a ≤ S100000x15.size a
  hwx0_2 : ∀ i : grid0.Coords, EltTy.bits .f32 = 32 ∨ (Rect.block (s := S100000x15) S2000x15.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x15.size a ≤ S100000x15.size a
  hwx1_0 : ∀ i : grid1.Coords, EltTy.bits .f32 = 32 ∨ (Rect.block (s := S100000x15) S2000x15.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x15.size a ≤ S100000x15.size a
  hwx1_1 : ∀ i : grid1.Coords, EltTy.bits .f32 = 32 ∨ (Rect.block (s := S100000x15) S2000x15.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S45x15.size a ≤ S45x15.size a
  hwx1_2 : ∀ i : grid1.Coords, EltTy.bits .f32 = 32 ∨ (Rect.block (s := S45x15) S45x15.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S45x15.size a ≤ S45x15.size a
  hwx1_3 : ∀ i : grid1.Coords, EltTy.bits .f32 = 32 ∨ (Rect.block (s := S45x15) S45x15.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x45.size a ≤ S1x45.size a
  hwx1_4 : ∀ i : grid1.Coords, EltTy.bits .f32 = 32 ∨ (Rect.block (s := S1x45) S1x45.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x45.size a ≤ S1x45.size a
  hwx1_5 : ∀ i : grid1.Coords, EltTy.bits .f32 = 32 ∨ (Rect.block (s := S1x45) S1x45.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x15.size a ≤ S100000x15.size a
  hwx1_6 : ∀ i : grid1.Coords, EltTy.bits .f32 = 32 ∨ (Rect.block (s := S100000x15) S2000x15.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x15.size a ≤ S100000x15.size a
  hwx2_0 : ∀ i : grid2.Coords, EltTy.bits .f32 = 32 ∨ (Rect.block (s := S100000x15) S2000x15.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S15x15.size a ≤ S15x15.size a
  hwx2_1 : ∀ i : grid2.Coords, EltTy.bits .f32 = 32 ∨ (Rect.block (s := S15x15) S15x15.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x15.size a ≤ S100000x15.size a
  hwx2_2 : ∀ i : grid2.Coords, EltTy.bits .f32 = 32 ∨ (Rect.block (s := S100000x15) S2000x15.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x15.size a ≤ S100000x15.size a
  hwx3_0 : ∀ i : grid3.Coords, EltTy.bits .f32 = 32 ∨ (Rect.block (s := S100000x15) S2000x15.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x15.size a ≤ S100000x15.size a
  hwx3_1 : ∀ i : grid3.Coords, EltTy.bits .f32 = 32 ∨ (Rect.block (s := S100000x15) S2000x15.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S45x15.size a ≤ S45x15.size a
  hwx3_2 : ∀ i : grid3.Coords, EltTy.bits .f32 = 32 ∨ (Rect.block (s := S45x15) S45x15.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S45x15.size a ≤ S45x15.size a
  hwx3_3 : ∀ i : grid3.Coords, EltTy.bits .f32 = 32 ∨ (Rect.block (s := S45x15) S45x15.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x45.size a ≤ S1x45.size a
  hwx3_4 : ∀ i : grid3.Coords, EltTy.bits .f32 = 32 ∨ (Rect.block (s := S1x45) S1x45.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x45.size a ≤ S1x45.size a
  hwx3_5 : ∀ i : grid3.Coords, EltTy.bits .f32 = 32 ∨ (Rect.block (s := S1x45) S1x45.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x15.size a ≤ S100000x15.size a
  hwx3_6 : ∀ i : grid3.Coords, EltTy.bits .f32 = 32 ∨ (Rect.block (s := S100000x15) S2000x15.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x35.size a ≤ S256x35.size a
  hwx4_0 : ∀ i : grid4.Coords, EltTy.bits .f32 = 32 ∨ (Rect.block (s := S256x35) S256x35.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S20x35.size a ≤ S20x35.size a
  hwx4_1 : ∀ i : grid4.Coords, EltTy.bits .f32 = 32 ∨ (Rect.block (s := S20x35) S20x35.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x20.size a ≤ S1x20.size a
  hwx4_2 : ∀ i : grid4.Coords, EltTy.bits .f32 = 32 ∨ (Rect.block (s := S1x20) S1x20.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S6x20.size a ≤ S6x20.size a
  hwx4_3 : ∀ i : grid4.Coords, EltTy.bits .f32 = 32 ∨ (Rect.block (s := S6x20) S6x20.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x6.size a ≤ S1x6.size a
  hwx4_4 : ∀ i : grid4.Coords, EltTy.bits .f32 = 32 ∨ (Rect.block (s := S1x6) S1x6.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x6.size a ≤ S256x6.size a
  hwx4_5 : ∀ i : grid4.Coords, EltTy.bits .f32 = 32 ∨ (Rect.block (s := S256x6) S256x6.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x15_S15x15_S2000x15_1_0_0_1_n_n : DotDims S2000x15 S15x15 S2000x15 where
  lhsContracting := [1]
  rhsContracting := [0]
  lhsNonContracting := [0]
  rhsNonContracting := [1]
  lhsBatch := []
  rhsBatch := []
  wf := dot_S2000x15_S15x15_S2000x15_1_0_0_1_n_n_wf
def gather_S100000x15_S3200000x1_S3200000x15_1_0_n_n_0_1_115 : GatherDims S100000x15 S3200000x1 S3200000x15 where
  offsetDims := [1]
  collapsedSliceDims := [0]
  operandBatchingDims := []
  startIndicesBatchingDims := []
  startIndexMap := [0]
  indexVectorDim := 1
  sliceSizes := ![1, 15]
  wf := gather_S100000x15_S3200000x1_S3200000x15_1_0_n_n_0_1_115_wf
def scatter_S100000x15_S3200000x1_S3200000x15_1_0_0_1 : ScatterDims S100000x15 S3200000x1 S3200000x15 where
  updateWindowDims := [1]
  insertedWindowDims := [0]
  scatterDimsToOperandDims := [0]
  indexVectorDim := 1
  wf := scatter_S100000x15_S3200000x1_S3200000x15_1_0_0_1_wf
def dot_S2000x15_S45x15_S2000x45_1_1_0_0_n_n : DotDims S2000x15 S45x15 S2000x45 where
  lhsContracting := [1]
  rhsContracting := [1]
  lhsNonContracting := [0]
  rhsNonContracting := [0]
  lhsBatch := []
  rhsBatch := []
  wf := dot_S2000x15_S45x15_S2000x45_1_1_0_0_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x15_S100000x1_S100000x15_1_0_0_1 : ScatterDims S256x15 S100000x1 S100000x15 where
  updateWindowDims := [1]
  insertedWindowDims := [0]
  scatterDimsToOperandDims := [0]
  indexVectorDim := 1
  wf := scatter_S256x15_S100000x1_S100000x15_1_0_0_1_wf
def dot_S256x35_S20x35_S256x20_1_1_0_0_n_n : DotDims S256x35 S20x35 S256x20 where
  lhsContracting := [1]
  rhsContracting := [1]
  lhsNonContracting := [0]
  rhsNonContracting := [0]
  lhsBatch := []
  rhsBatch := []
  wf := dot_S256x35_S20x35_S256x20_1_1_0_0_n_n_wf
def dot_S256x20_S6x20_S256x6_1_1_0_0_n_n : DotDims S256x20 S6x20 S256x6 where
  lhsContracting := [1]
  rhsContracting := [1]
  lhsNonContracting := [0]
  rhsNonContracting := [0]
  lhsBatch := []
  rhsBatch := []
  wf := dot_S256x20_S6x20_S256x6_1_1_0_0_n_n_wf

abbrev win0_0 : Pipeline.Window sig grid0 :=
  Pipeline.Window.ofSpec (Memref.whole main_arg0) S2000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S15x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x15.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x15.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x15.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S45x15.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S45x15.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x45.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x45.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x15.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S2000x15.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S15x15.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x15.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S2000x15.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2000x15.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S45x15.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S45x15.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x45.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v12) S1x45.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S2000x15.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v58) S256x35.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S20x35.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x20.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S6x20.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x6.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S256x6.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x15 : Shape := ⟨2, ![100000, 15]⟩
abbrev S2x3200000 : Shape := ⟨2, ![2, 3200000]⟩
abbrev S100000 : Shape := ⟨1, ![100000]⟩
abbrev S256x20 : Shape := ⟨2, ![256, 20]⟩
abbrev S2x15x15 : Shape := ⟨3, ![2, 15, 15]⟩
abbrev S45x15 : Shape := ⟨2, ![45, 15]⟩
abbrev S45 : Shape := ⟨1, ![45]⟩
abbrev S20x35 : Shape := ⟨2, ![20, 35]⟩
abbrev S20 : Shape := ⟨1, ![20]⟩
abbrev S6x20 : Shape := ⟨2, ![6, 20]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S1x15x15 : Shape := ⟨3, ![1, 15, 15]⟩
abbrev S15x15 : Shape := ⟨2, ![15, 15]⟩
abbrev S3200000x15 : Shape := ⟨2, ![3200000, 15]⟩
abbrev S15x45 : Shape := ⟨2, ![15, 45]⟩
abbrev S100000x45 : Shape := ⟨2, ![100000, 45]⟩
abbrev S1x45 : Shape := ⟨2, ![1, 45]⟩
abbrev S256 : Shape := ⟨1, ![256]⟩
abbrev S256x15 : Shape := ⟨2, ![256, 15]⟩
abbrev S256x1 : Shape := ⟨2, ![256, 1]⟩
abbrev S256x35 : Shape := ⟨2, ![256, 35]⟩
abbrev S35x20 : Shape := ⟨2, ![35, 20]⟩
abbrev S1x20 : Shape := ⟨2, ![1, 20]⟩
abbrev S20x6 : Shape := ⟨2, ![20, 6]⟩
abbrev S256x6 : Shape := ⟨2, ![256, 6]⟩
abbrev S1x6 : Shape := ⟨2, ![1, 6]⟩

abbrev nBuf : Space → Nat
  | .hbm => 197
  | .vmem => 0
  | .smem => 0
  | _ => 0

abbrev hbmTy0_0 (i : Nat) : BufTy := match i % 128 with
  | 0 => ⟨S100000x15, .f32⟩
  | 1 => ⟨S2x3200000, .i32⟩
  | 2 => ⟨S100000, .i32⟩
  | 3 => ⟨S256x20, .f32⟩
  | 4 => ⟨S2x15x15, .f32⟩
  | 5 => ⟨S45x15, .f32⟩
  | 6 => ⟨S45x15, .f32⟩
  | 7 => ⟨S45, .f32⟩
  | 8 => ⟨S45, .f32⟩
  | 9 => ⟨S20x35, .f32⟩
  | 10 => ⟨S20, .f32⟩
  | 11 => ⟨S6x20, .f32⟩
  | 12 => ⟨S6, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S1x15x15, .f32⟩
  | 28 => ⟨S15x15, .f32⟩
  | 29 => ⟨S100000x15, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x15, .f32⟩
  | 39 => ⟨S_, .f32⟩
  | 40 => ⟨S100000x15, .f32⟩
  | 41 => ⟨S3200000x1, .i32⟩
  | 42 => ⟨S100000x15, .f32⟩
  | 43 => ⟨S100000x15, .f32⟩
  | 44 => ⟨S100000x15, .f32⟩
  | 45 => ⟨S15x45, .f32⟩
  | 46 => ⟨S100000x45, .f32⟩
  | 47 => ⟨S1x45, .f32⟩
  | 48 => ⟨S100000x45, .f32⟩
  | 49 => ⟨S100000x45, .f32⟩
  | 50 => ⟨S15x45, .f32⟩
  | 51 => ⟨S100000x45, .f32⟩
  | 52 => ⟨S1x45, .f32⟩
  | 53 => ⟨S100000x45, .f32⟩
  | 54 => ⟨S100000x45, .f32⟩
  | 55 => ⟨S100000x15, .f32⟩
  | 56 => ⟨S100000x15, .f32⟩
  | 57 => ⟨S100000x15, .f32⟩
  | 58 => ⟨S100000x15, .f32⟩
  | 59 => ⟨S100000x15, .f32⟩
  | 60 => ⟨S100000x15, .f32⟩
  | 61 => ⟨S100000x15, .f32⟩
  | 62 => ⟨S100000x15, .f32⟩
  | 63 => ⟨S100000x15, .f32⟩
  | 64 => ⟨S_, .f32⟩
  | 65 => ⟨S100000x15, .f32⟩
  | 66 => ⟨S100000x15, .f32⟩
  | 67 => ⟨S_, .f32⟩
  | 68 => ⟨S100000x15, .f32⟩
  | 69 => ⟨S100000x15, .f32⟩
  | 70 => ⟨S100000x15, .f32⟩
  | 71 => ⟨S100000x15, .f32⟩
  | 72 => ⟨S100000x15, .f32⟩
  | 73 => ⟨S_, .f32⟩
  | 74 => ⟨S100000x15, .f32⟩
  | 75 => ⟨S100000x15, .f32⟩
  | 76 => ⟨S_, .f32⟩
  | 77 => ⟨S100000x15, .f32⟩
  | 78 => ⟨S100000x15, .f32⟩
  | 79 => ⟨S100000x15, .f32⟩
  | 80 => ⟨S100000x15, .f32⟩
  | 81 => ⟨S100000x15, .f32⟩
  | 82 => ⟨S_, .f32⟩
  | 83 => ⟨S100000x15, .f32⟩
  | 84 => ⟨S100000x15, .f32⟩
  | 85 => ⟨S100000x15, .f32⟩
  | 86 => ⟨S100000x15, .f32⟩
  | 87 => ⟨S100000x15, .f32⟩
  | 88 => ⟨S1x15x15, .f32⟩
  | 89 => ⟨S15x15, .f32⟩
  | 90 => ⟨S100000x15, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x15, .f32⟩
  | 100 => ⟨S_, .f32⟩
  | 101 => ⟨S100000x15, .f32⟩
  | 102 => ⟨S3200000x1, .i32⟩
  | 103 => ⟨S100000x15, .f32⟩
  | 104 => ⟨S100000x15, .f32⟩
  | 105 => ⟨S100000x15, .f32⟩
  | 106 => ⟨S15x45, .f32⟩
  | 107 => ⟨S100000x45, .f32⟩
  | 108 => ⟨S1x45, .f32⟩
  | 109 => ⟨S100000x45, .f32⟩
  | 110 => ⟨S100000x45, .f32⟩
  | 111 => ⟨S15x45, .f32⟩
  | 112 => ⟨S100000x45, .f32⟩
  | 113 => ⟨S1x45, .f32⟩
  | 114 => ⟨S100000x45, .f32⟩
  | 115 => ⟨S100000x45, .f32⟩
  | 116 => ⟨S100000x15, .f32⟩
  | 117 => ⟨S100000x15, .f32⟩
  | 118 => ⟨S100000x15, .f32⟩
  | 119 => ⟨S100000x15, .f32⟩
  | 120 => ⟨S100000x15, .f32⟩
  | 121 => ⟨S100000x15, .f32⟩
  | 122 => ⟨S100000x15, .f32⟩
  | 123 => ⟨S100000x15, .f32⟩
  | 124 => ⟨S100000x15, .f32⟩
  | 125 => ⟨S_, .f32⟩
  | 126 => ⟨S100000x15, .f32⟩
  | 127 => ⟨S100000x15, .f32⟩
  | _ => ⟨S100000x15, .f32⟩

abbrev hbmTy0_1 (i : Nat) : BufTy := match i % 128 with
  | 0 => ⟨S_, .f32⟩
  | 1 => ⟨S100000x15, .f32⟩
  | 2 => ⟨S100000x15, .f32⟩
  | 3 => ⟨S100000x15, .f32⟩
  | 4 => ⟨S100000x15, .f32⟩
  | 5 => ⟨S100000x15, .f32⟩
  | 6 => ⟨S_, .f32⟩
  | 7 => ⟨S100000x15, .f32⟩
  | 8 => ⟨S100000x15, .f32⟩
  | 9 => ⟨S_, .f32⟩
  | 10 => ⟨S100000x15, .f32⟩
  | 11 => ⟨S100000x15, .f32⟩
  | 12 => ⟨S100000x15, .f32⟩
  | 13 => ⟨S100000x15, .f32⟩
  | 14 => ⟨S100000x15, .f32⟩
  | 15 => ⟨S_, .f32⟩
  | 16 => ⟨S100000x15, .f32⟩
  | 17 => ⟨S100000x15, .f32⟩
  | 18 => ⟨S100000x15, .f32⟩
  | 19 => ⟨S100000x15, .f32⟩
  | 20 => ⟨S100000x15, .f32⟩
  | 21 => ⟨S_, .f32⟩
  | 22 => ⟨S100000x15, .f32⟩
  | 23 => ⟨S100000x15, .f32⟩
  | 24 => ⟨S_, .f32⟩
  | 25 => ⟨S100000, .f32⟩
  | 26 => ⟨S_, .f32⟩
  | 27 => ⟨S256, .f32⟩
  | 28 => ⟨S100000x1, .i32⟩
  | 29 => ⟨S256, .f32⟩
  | 30 => ⟨S_, .f32⟩
  | 31 => ⟨S256, .f32⟩
  | 32 => ⟨S256, .f32⟩
  | 33 => ⟨S_, .f32⟩
  | 34 => ⟨S256x15, .f32⟩
  | 35 => ⟨S100000x1, .i32⟩
  | 36 => ⟨S256x15, .f32⟩
  | 37 => ⟨S256x1, .f32⟩
  | 38 => ⟨S256x15, .f32⟩
  | 39 => ⟨S256x15, .f32⟩
  | 40 => ⟨S256x35, .f32⟩
  | 41 => ⟨S35x20, .f32⟩
  | 42 => ⟨S256x20, .f32⟩
  | 43 => ⟨S1x20, .f32⟩
  | 44 => ⟨S256x20, .f32⟩
  | 45 => ⟨S256x20, .f32⟩
  | 46 => ⟨S_, .f32⟩
  | 47 => ⟨S256x20, .f32⟩
  | 48 => ⟨S256x20, .f32⟩
  | 49 => ⟨S20x6, .f32⟩
  | 50 => ⟨S256x6, .f32⟩
  | 51 => ⟨S1x6, .f32⟩
  | 52 => ⟨S256x6, .f32⟩
  | 53 => ⟨S256x6, .f32⟩
  | 54 => ⟨S_, .f32⟩
  | 55 => ⟨S256, .f32⟩
  | 56 => ⟨S_, .f32⟩
  | 57 => ⟨S256, .f32⟩
  | 58 => ⟨S256, .f32⟩
  | 59 => ⟨S256x1, .f32⟩
  | 60 => ⟨S256x6, .f32⟩
  | 61 => ⟨S256x6, .f32⟩
  | 62 => ⟨S256x6, .f32⟩
  | 63 => ⟨S_, .f32⟩
  | 64 => ⟨S256, .f32⟩
  | 65 => ⟨S256x1, .f32⟩
  | 66 => ⟨S256x1, .f32⟩
  | 67 => ⟨S256x6, .f32⟩
  | 68 => ⟨S256x6, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_9 : Ref sig .tc := ⟨.hbm, 91, rfl⟩
abbrev main_v67 : Ref sig .tc := ⟨.hbm, 92, rfl⟩
abbrev main_v68 : Ref sig .tc := ⟨.hbm, 93, rfl⟩
abbrev main_c_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_12 : Ref sig .tc := ⟨.hbm, 125, rfl⟩
abbrev main_v98 : Ref sig .tc := ⟨.hbm, 126, rfl⟩
abbrev main_v99 : Ref sig .tc := ⟨.hbm, 127, rfl⟩
abbrev main_cst_13 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_14 : Ref sig .tc := ⟨.hbm, 134, rfl⟩
abbrev main_v105 : Ref sig .tc := ⟨.hbm, 135, rfl⟩
abbrev main_v106 : Ref sig .tc := ⟨.hbm, 136, rfl⟩
abbrev main_cst_15 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_16 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_call0_cst : Ref sig .tc := ⟨.hbm, 149, rfl⟩
abbrev main_call0_v0 : Ref sig .tc := ⟨.hbm, 150, rfl⟩
abbrev main_v117 : Ref sig .tc := ⟨.hbm, 151, rfl⟩
abbrev main_cst_17 : Ref sig .tc := ⟨.hbm, 152, rfl⟩
abbrev main_v118 : Ref sig .tc := ⟨.hbm, 153, rfl⟩
abbrev main_cst_18 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_19 : Ref sig .tc := ⟨.hbm, 158, rfl⟩
abbrev main_v122 : Ref sig .tc := ⟨.hbm, 159, rfl⟩
abbrev main_v123 : Ref sig .tc := ⟨.hbm, 160, rfl⟩
abbrev main_cst_20 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_call1_cst : Ref sig .tc := ⟨.hbm, 174, rfl⟩
abbrev main_call1_v0 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_call2_cst : Ref sig .tc := ⟨.hbm, 182, rfl⟩
abbrev main_call2_v0 : Ref sig .tc := ⟨.hbm, 183, rfl⟩
abbrev main_call2_cst_0 : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_cst_1 : Ref sig .tc := ⟨.hbm, 191, rfl⟩
abbrev main_call2_v7 : Ref sig .tc := ⟨.hbm, 192, rfl⟩
abbrev main_call2_v8 : Ref sig .tc := ⟨.hbm, 193, rfl⟩
abbrev main_call2_v9 : Ref sig .tc := ⟨.hbm, 194, rfl⟩
abbrev main_call2_v10 : Ref sig .tc := ⟨.hbm, 195, rfl⟩
abbrev main_v142 : Ref sig .tc := ⟨.hbm, 196, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  slices_S2x15x15_S1x15x15_0_0_0 : S2x15x15.Slices ![0, 0, 0] S1x15x15
  shapeCasts_S1x15x15_S15x15 : S1x15x15.ShapeCasts S15x15
  bcast_S_S100000x15 : S_.BroadcastsInDim S100000x15 (![] : Fin 0 → Fin S100000x15.rank)
  bcast_S100000x1_S100000x15_0_1 : S100000x1.BroadcastsInDim S100000x15 (![0, 1] : Fin 2 → Fin S100000x15.rank)
  transposes_S45x15_S15x45_1_0 : S45x15.Transposes [1, 0] S15x45
  bcast_S45_S1x45_1 : S45.BroadcastsInDim S1x45 (![1] : Fin 1 → Fin S1x45.rank)
  bcast_S1x45_S100000x45_0_1 : S1x45.BroadcastsInDim S100000x45 (![0, 1] : Fin 2 → Fin S100000x45.rank)
  slices_S100000x45_S100000x15_0_0 : S100000x45.Slices ![0, 0] S100000x15
  slices_S100000x45_S100000x15_0_15 : S100000x45.Slices ![0, 15] S100000x15
  slices_S100000x45_S100000x15_0_30 : S100000x45.Slices ![0, 30] S100000x15
  slices_S2x15x15_S1x15x15_1_0_0 : S2x15x15.Slices ![1, 0, 0] S1x15x15
  bcast_S_S256 : S_.BroadcastsInDim S256 (![] : Fin 0 → Fin S256.rank)
  bcast_S_S256x15 : S_.BroadcastsInDim S256x15 (![] : Fin 0 → Fin S256x15.rank)
  bcast_S256_S256x1_0 : S256.BroadcastsInDim S256x1 (![0] : Fin 1 → Fin S256x1.rank)
  bcast_S256x1_S256x15_0_1 : S256x1.BroadcastsInDim S256x15 (![0, 1] : Fin 2 → Fin S256x15.rank)
  concatenates_S256x15_S256x20_S256x35_d1 : Shape.Concatenates [S256x15, S256x20] S256x35 1
  transposes_S20x35_S35x20_1_0 : S20x35.Transposes [1, 0] S35x20
  bcast_S20_S1x20_1 : S20.BroadcastsInDim S1x20 (![1] : Fin 1 → Fin S1x20.rank)
  bcast_S1x20_S256x20_0_1 : S1x20.BroadcastsInDim S256x20 (![0, 1] : Fin 2 → Fin S256x20.rank)
  bcast_S_S256x20 : S_.BroadcastsInDim S256x20 (![] : Fin 0 → Fin S256x20.rank)
  transposes_S6x20_S20x6_1_0 : S6x20.Transposes [1, 0] S20x6
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  reducesTo_S256x6_S256_d1 : S256x6.ReducesTo [1] S256
  h_S_ : 0 < S_.numel
  bcast_S256x1_S256x6_0_1 : S256x1.BroadcastsInDim S256x6 (![0, 1] : Fin 2 → Fin S256x6.rank)
  scatter_S100000_S3200000x1_S3200000_n_0_0_1_wf : ScatterDims.WF S100000 S3200000x1 S3200000 [] [0] [0] 1
  dot_S100000x15_S15x15_S100000x15_1_0_0_1_n_n_wf : DotDims.WF S100000x15 S15x15 S100000x15 [1] [0] [0] [1] [] []
  gather_S100000x15_S3200000x1_S3200000x15_1_0_n_n_0_1_115_wf : GatherDims.WF S100000x15 S3200000x1 S3200000x15 [1] [0] [] [0] [] 1 ![1, 15]
  scatter_S100000x15_S3200000x1_S3200000x15_1_0_0_1_wf : ScatterDims.WF S100000x15 S3200000x1 S3200000x15 [1] [0] [0] 1
  dot_S100000x15_S15x45_S100000x45_1_0_0_1_n_n_wf : DotDims.WF S100000x15 S15x45 S100000x45 [1] [0] [0] [1] [] []
  scatter_S256_S100000x1_S100000_n_0_0_1_wf : ScatterDims.WF S256 S100000x1 S100000 [] [0] [0] 1
  scatter_S256x15_S100000x1_S100000x15_1_0_0_1_wf : ScatterDims.WF S256x15 S100000x1 S100000x15 [1] [0] [0] 1
  dot_S256x35_S35x20_S256x20_1_0_0_1_n_n_wf : DotDims.WF S256x35 S35x20 S256x20 [1] [0] [0] [1] [] []
  dot_S256x20_S20x6_S256x6_1_0_0_1_n_n_wf : DotDims.WF S256x20 S20x6 S256x6 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x15_S15x15_S100000x15_1_0_0_1_n_n : DotDims S100000x15 S15x15 S100000x15 where
  lhsContracting := [1]
  rhsContracting := [0]
  lhsNonContracting := [0]
  rhsNonContracting := [1]
  lhsBatch := []
  rhsBatch := []
  wf := dot_S100000x15_S15x15_S100000x15_1_0_0_1_n_n_wf
def gather_S100000x15_S3200000x1_S3200000x15_1_0_n_n_0_1_115 : GatherDims S100000x15 S3200000x1 S3200000x15 where
  offsetDims := [1]
  collapsedSliceDims := [0]
  operandBatchingDims := []
  startIndicesBatchingDims := []
  startIndexMap := [0]
  indexVectorDim := 1
  sliceSizes := ![1, 15]
  wf := gather_S100000x15_S3200000x1_S3200000x15_1_0_n_n_0_1_115_wf
def scatter_S100000x15_S3200000x1_S3200000x15_1_0_0_1 : ScatterDims S100000x15 S3200000x1 S3200000x15 where
  updateWindowDims := [1]
  insertedWindowDims := [0]
  scatterDimsToOperandDims := [0]
  indexVectorDim := 1
  wf := scatter_S100000x15_S3200000x1_S3200000x15_1_0_0_1_wf
def dot_S100000x15_S15x45_S100000x45_1_0_0_1_n_n : DotDims S100000x15 S15x45 S100000x45 where
  lhsContracting := [1]
  rhsContracting := [0]
  lhsNonContracting := [0]
  rhsNonContracting := [1]
  lhsBatch := []
  rhsBatch := []
  wf := dot_S100000x15_S15x45_S100000x45_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x15_S100000x1_S100000x15_1_0_0_1 : ScatterDims S256x15 S100000x1 S100000x15 where
  updateWindowDims := [1]
  insertedWindowDims := [0]
  scatterDimsToOperandDims := [0]
  indexVectorDim := 1
  wf := scatter_S256x15_S100000x1_S100000x15_1_0_0_1_wf
def dot_S256x35_S35x20_S256x20_1_0_0_1_n_n : DotDims S256x35 S35x20 S256x20 where
  lhsContracting := [1]
  rhsContracting := [0]
  lhsNonContracting := [0]
  rhsNonContracting := [1]
  lhsBatch := []
  rhsBatch := []
  wf := dot_S256x35_S35x20_S256x20_1_0_0_1_n_n_wf
def dot_S256x20_S20x6_S256x6_1_0_0_1_n_n : DotDims S256x20 S20x6 S256x6 where
  lhsContracting := [1]
  rhsContracting := [0]
  lhsNonContracting := [0]
  rhsNonContracting := [1]
  lhsBatch := []
  rhsBatch := []
  wf := dot_S256x20_S20x6_S256x6_1_0_0_1_n_n_wf

class Facts : Prop extends Facts₀ where

variable [Facts]
-- ==== Proof.RunValue.lean ====
/-
  The idealized program's run with its result named: every weakly fair execution of @main ends with the result
  buffer holding what the last segment boundary's contents assign it — the fold of the host stretches' results and of
  what each pallas_call's write-backs leave, from the launch memory — and with the argument arrays as launched.
-/
import proofs.«164312_j77764677862200_1_alg».proof.Defs
import proofs.«164312_j77764677862200_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's eleven segments: the last thread state holds every unscoped buffer at the last
    boundary's contents, read here at the result and at the thirteen arguments. -/
theorem run : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v61 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.RunValue

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«164312_j77764677862200_1_alg».proof.Proof.LibContract
import proofs.«164312_j77764677862200_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLogSoftmaxRows.lean ====
/-
  The shifted log-softmax of the rows of a matrix, read at an entry, in the two spellings a program gives it.

  For a : [n, N] and a row r let M r be the fold of max from −∞ over the row's N entries. The shifted log-softmax of
  row r at column j is (a (r, j) − M r) − log (∑ j', exp (a (r, j') − M r)). A vector program computes it with a lane
  maximum and a lane sum over the columns, each kept as an [n, 1] column and broadcast back along the rows; a host
  program with a reduce by max from −∞ (and one more max with −∞, which changes nothing), a reduce by add from
  zero, and broadcasts through [n, 1]. Both are that expression at every entry, on every extended real.
-/
import Idealize.ShloMosaic.Lib.ValueIdx
import Idealize.ShloMosaic.Lib.Pipeline.Value
import Idealize.ShloMosaic.PureOps.Ideal.Laws
import proofs.«164312_j77764677862200_1_alg».proof.Proof.LibGram
import proofs.«164312_j77764677862200_1_alg».proof.Proof.LibRowSum
import proofs.«164312_j77764677862200_1_alg».proof.Proof.LibHostRows
import proofs.«164312_j77764677862200_1_alg».proof.Proof.LibColumn
import proofs.«164312_j77764677862200_1_alg».proof.Proof.LibKeepdims

noncomputable section

open scoped BigOperators

namespace Idealize.ShloMosaic.LogSoftmaxRows

open Idealize.ShloMosaic Idealize.ShloMosaic.ValueIdx

variable {n n' N : ℕ}

/-- The largest entry of row r, folded from −∞. -/
def rowTop (a : (⟨2, ![n, N]⟩ : Shape).Idx → EReal) (r : Fin n) : EReal :=
  (Finset.univ : Finset (Fin N)).fold max (Ideal.ofBits .f32 0xFF800000#32) (fun c => a (ix2 r c))

/-- Entry (r, j) of the shifted log-softmax of the rows of a. -/
def shifted (a : (⟨2, ![n, N]⟩ : Shape).Idx → EReal) (r : Fin n) (j : Fin N) : EReal :=
  (a (ix2 r j) - rowTop a r) - Ideal.log (∑ c : Fin N, Ideal.exp (a (ix2 r c) - rowTop a r))

/-- Row r of the result depends on row r of the operand only. -/
theorem shifted_congr (a : (⟨2, ![n, N]⟩ : Shape).Idx → EReal) (a' : (⟨2, ![n', N]⟩ : Shape).Idx → EReal)
    (r : Fin n) (r' : Fin n') (j : Fin N) (h : ∀ c, a (ix2 r c) = a' (ix2 r' c)) :
    shifted a r j = shifted a' r' j := by
  have hm : rowTop a r = rowTop a' r' := by
    unfold rowTop
    exact Finset.fold_congr fun c _ => h c
  unfold shifted
  rw [hm, h j]
  exact congrArg (fun s => a' (ix2 r' j) - rowTop a' r' - Ideal.log s) (Finset.sum_congr rfl fun c _ => by rw [h c])

theorem log_apply {s : Shape} (v : FVec Ideal s .f32) (i : s.Idx) : log v i = Ideal.log (v i) := rfl
theorem exp_apply {s : Shape} (v : FVec Ideal s .f32) (i : s.Idx) : exp v i = Ideal.exp (v i) := rfl
theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl

/-- The row maximum as a vector program keeps it: a lane maximum, viewed as a column, broadcast along the row. -/
theorem kernel_top_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, N]⟩)
    (r : Fin n) (c : Fin N) :
    broadcastTo ⟨2, ![n, N]⟩ (shapeCast ⟨2, ![n, 1]⟩ (multiReduction .maximumf [1] ⟨1, ![n]⟩ a 0xFF800000#32 h hφ hmax) hc) hb (ix2 r c)
      = rowTop a r := by
  rw [broadcastTo_a1_ab_apply, shapeCast_a_a1_apply, Gram.multiReduction_max_rows_apply]
  rfl

/-- The shifted log-softmax as a vector program computes it. -/
theorem kernel_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, N]⟩)
    (r : Fin n) (j : Fin N) :
    subf (subf a (broadcastTo ⟨2, ![n, N]⟩ (shapeCast ⟨2, ![n, 1]⟩ (multiReduction .maximumf [1] ⟨1, ![n]⟩ a 0xFF800000#32 h hφ hmax) hc) hb))
      (broadcastTo ⟨2, ![n, N]⟩ (log (shapeCast ⟨2, ![n, 1]⟩ (multiReduction .add [1] ⟨1, ![n]⟩
        (exp (subf a (broadcastTo ⟨2, ![n, N]⟩ (shapeCast ⟨2, ![n, 1]⟩ (multiReduction .maximumf [1] ⟨1, ![n]⟩ a 0xFF800000#32 h hφ hmax) hc) hb)))
        0x00000000#32 h hφ hadd) hc)) hb) (ix2 r j)
      = shifted a r j := by
  rw [subf_apply, subf_apply, kernel_top_apply a h hφ hmax hc hb r j, broadcastTo_a1_ab_apply, log_apply,
    shapeCast_a_a1_apply, multiReduction_add_rows_apply]
  unfold shifted
  refine congrArg (fun s => a (ix2 r j) - rowTop a r - Ideal.log s) (Finset.sum_congr rfl fun c _ => ?_)
  rw [exp_apply, subf_apply, kernel_top_apply a h hφ hmax hc hb r c]

/-- The row maximum as a host program keeps it: a reduce by max from −∞, one more max with −∞, stood up as a column
    and spread along the row. -/
theorem host_top_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (c : Fin N) :
    broadcastInDim (⟨2, ![n, N]⟩ : Shape) ![0, 1] g2 (broadcastInDim (⟨2, ![n, 1]⟩ : Shape) ![0] g1
      (maximumf (broadcastInDim (⟨1, ![n]⟩ : Shape) ![] g0 (constant (F := Ideal) (⟨0, ![]⟩ : Shape) .f32 0xFF800000#32))
        (Host.reduce (FloatOps.maximumf (F := Ideal) (φ := .f32)) a (constant (F := Ideal) (⟨0, ![]⟩ : Shape) .f32 0xFF800000#32) h' hu))) (ix2 r c)
      = rowTop a r := by
  rw [Keepdims.rows_apply g1 g2 _ r c, maximumf_apply,
    broadcastInDim_apply _ g0 _ (ix1 r) (fun x => x.elim0) (fun x => x.elim0), constant_apply,
    HostRows.maximumf_eq_max, HostRows.reduce_max_rows_apply a _ h' h hu r, constant_apply]
  exact max_eq_right ((Finset.le_fold_max _).mpr (Or.inl le_rfl))

/-- The shifted log-softmax as a host program computes it. -/
theorem host_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (j : Fin N) :
    subf (subf a (broadcastInDim (⟨2, ![n, N]⟩ : Shape) ![0, 1] g2 (broadcastInDim (⟨2, ![n, 1]⟩ : Shape) ![0] g1
        (maximumf (broadcastInDim (⟨1, ![n]⟩ : Shape) ![] g0 (constant (F := Ideal) (⟨0, ![]⟩ : Shape) .f32 0xFF800000#32))
          (Host.reduce (FloatOps.maximumf (F := Ideal) (φ := .f32)) a (constant (F := Ideal) (⟨0, ![]⟩ : Shape) .f32 0xFF800000#32) h' hu)))))
      (broadcastInDim (⟨2, ![n, N]⟩ : Shape) ![0, 1] g2 (Host.log (broadcastInDim (⟨2, ![n, 1]⟩ : Shape) ![0] g1
        (Host.reduceAdd (F := Ideal) (φ := .f32)
          (Host.exp (subf a (broadcastInDim (⟨2, ![n, N]⟩ : Shape) ![0, 1] g2 (broadcastInDim (⟨2, ![n, 1]⟩ : Shape) ![0] g1
            (maximumf (broadcastInDim (⟨1, ![n]⟩ : Shape) ![] g0 (constant (F := Ideal) (⟨0, ![]⟩ : Shape) .f32 0xFF800000#32))
              (Host.reduce (FloatOps.maximumf (F := Ideal) (φ := .f32)) a (constant (F := Ideal) (⟨0, ![]⟩ : Shape) .f32 0xFF800000#32) h' hu))))))
          (constant (F := Ideal) (⟨0, ![]⟩ : Shape) .f32 0x00000000#32) h' hu)))) (ix2 r j)
      = shifted a r j := by
  rw [subf_apply, subf_apply, host_top_apply a h' h hu g0 g1 g2 r j]
  rw [broadcastInDim_apply _ g2 _ (ix2 r j) (ix2 r (0 : Fin 1)) (fun x => by
    match x with
    | ⟨0, _⟩ =>
      show r.val = if n = 1 then 0 else r.val
      split_ifs with hn
      · have := r.isLt; omega
      · rfl
    | ⟨1, _⟩ =>
      show 0 = if (1 : Nat) = 1 then 0 else j.val
      rw [if_pos rfl])]
  rw [host_log_apply, Keepdims.column_apply g1 _ r, HostRows.reduceAdd_rows_apply _ _ h' h hu r, constant_apply, Ideal.ofBits_zero_f32, zero_add]
  unfold shifted
  refine congrArg (fun s => a (ix2 r j) - rowTop a r - Ideal.log s) (Finset.sum_congr rfl fun c _ => ?_)
  rw [host_exp_apply, subf_apply, host_top_apply a h' h hu g0 g1 g2 r c]

end Idealize.ShloMosaic.LogSoftmaxRows

end
-- ==== Proof.LibGatedCell.lean ====
/-
  The dense stages of a gated graph network read at one entry, on the extended reals.

  A node's row x (K numbers) meets an output-major weight matrix w : [N, K] and a bias b : [N]:
      affT x w b j = (∑ k, x k · w (j, k)) + b j                     (x · wᵀ + b at column j),
  and an input-major weight w : [K, N]:   lin x w j = ∑ k, x k · w (k, j).
  A gated recurrent cell with 15 features and the three gates stacked in 45 columns (reset, update, candidate):
      r = σ(gi₀ + gh₀),  z = σ(gi₁ + gh₁),  n = tanh(gi₂ + r · gh₂),  out = (1 − z) · n + z · h,
  where gi = affT a w_ih b_ih, gh = affT h w_hh b_hh, a the aggregated message row and h the node's state row.
  Each formula is proved to be what a vector program computes at entry (p, q) of a row block (a product into the zero
  accumulator contracting the last axis of both operands, a [1, N] bias row broadcast down the rows, column slices,
  the logistic function) and what a host program computes at entry (r, q) of the whole array (a dot_general against
  the transposed weight, the bias spread in two steps, the same slices, the logistic spelt 1 / (1 + exp (−x))).
  All of it holds on every extended real: no step uses more than the definitions.
-/
import Idealize.ShloMosaic.Lib.ValueIdx
import Idealize.ShloMosaic.Lib.Pipeline.Value
import Idealize.ShloMosaic.Lib.ValueLayout
import Idealize.ShloMosaic.PureOps.Ideal.Laws
import proofs.«164312_j77764677862200_1_alg».proof.Proof.LibGram
import proofs.«164312_j77764677862200_1_alg».proof.Proof.LibDenseVec
import proofs.«164312_j77764677862200_1_alg».proof.Proof.LibLogSoftmaxRows

noncomputable section

open scoped BigOperators

namespace Gnn

open Idealize.ShloMosaic Idealize.ShloMosaic.ValueIdx

/-- The f32 word of 1.0 as an extended real (never evaluated: the same word stands on both sides). -/
abbrev oneW : EReal := Ideal.ofBits .f32 0x3F800000#32
/-- The f32 word of +0.0. -/
abbrev zeroW : EReal := Ideal.ofBits .f32 0x00000000#32

/-! ## The formulas -/

/-- x · wᵀ + b at column j, the weight output-major. -/
def affT {N K : ℕ} (x : Fin K → EReal) (w : (⟨2, ![N, K]⟩ : Shape).Idx → EReal) (b : Fin N → EReal) (j : Fin N) : EReal :=
  (∑ k : Fin K, x k * w (ix2 j k)) + b j

/-- x · w at column j, the weight input-major. -/
def lin {K N : ℕ} (x : Fin K → EReal) (w : (⟨2, ![K, N]⟩ : Shape).Idx → EReal) (j : Fin N) : EReal :=
  ∑ k : Fin K, x k * w (ix2 k j)

/-- Column q of the reset, update and candidate gate among the 45 stacked columns. -/
def g0 (q : Fin 15) : Fin 45 := ⟨q.val, by have := q.isLt; omega⟩
def g1 (q : Fin 15) : Fin 45 := ⟨15 + q.val, by have := q.isLt; omega⟩
def g2 (q : Fin 15) : Fin 45 := ⟨30 + q.val, by have := q.isLt; omega⟩

/-- The cell's output at feature q from the two gate rows and the state's entry. -/
def gruOut (gi gh : Fin 45 → EReal) (hq : EReal) (q : Fin 15) : EReal :=
  (oneW - Ideal.logistic (gi (g1 q) + gh (g1 q)))
      * Ideal.tanh (gi (g2 q) + Ideal.logistic (gi (g0 q) + gh (g0 q)) * gh (g2 q))
    + Ideal.logistic (gi (g1 q) + gh (g1 q)) * hq

/-- The cell at feature q from the message row a and the state row h. -/
def gruEntry (a h : Fin 15 → EReal) (wih whh : (⟨2, ![45, 15]⟩ : Shape).Idx → EReal) (bih bhh : Fin 45 → EReal)
    (q : Fin 15) : EReal :=
  gruOut (affT a wih bih) (affT h whh bhh) (h q) q

/-! ## Pointwise operations at an entry -/

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl
theorem host_tanh_apply {s : Shape} (v : FVec Ideal s .f32) (i : s.Idx) : Host.tanh v i = Ideal.tanh (v i) := rfl
theorem host_exp_apply {s : Shape} (v : FVec Ideal s .f32) (i : s.Idx) : Host.exp v i = Ideal.exp (v i) := rfl
theorem host_negf_apply {s : Shape} (v : FVec Ideal s .f32) (i : s.Idx) : Host.negf v i = -(v i) := rfl
theorem host_divf_apply {s : Shape} (a b : FVec Ideal s .f32) (i : s.Idx) : Host.divf a b i = Ideal.div (a i) (b i) := rfl
theorem scalar_ofBits (b : BitVec 32) : (Scalar.ofBits (F := Ideal) .f32 b : EReal) = Ideal.ofBits .f32 b := rfl

/-- The logistic function is the quotient a host program spells with one-words. -/
theorem logistic_eq (x : EReal) : Ideal.logistic x = Ideal.div oneW (oneW + Ideal.exp (-x)) := by
  rw [show oneW = 1 from DenseVec.ofBits_one_f32]; rfl

/-! ## x · wᵀ + b at an entry, in the two spellings -/

/-- What a dimension record of an [n, K] · [N, K] product contracting the last axis of both operands owes for its
    contraction to be the plain sum over the shared axis. -/
structure LastLast {n N K : ℕ} (D : DotDims (⟨2, ![n, K]⟩ : Shape) (⟨2, ![N, K]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [1]
  row : ∀ j q, (D.lhsIdx j q 0).val = (j 0).val
  col : ∀ j q, (D.rhsIdx j q 0).val = (j 1).val

/-- A vector program: the product into the zero accumulator plus the [1, N] bias row broadcast down the rows. -/
theorem vec_affT_apply {n N K : ℕ} {D : DotDims (⟨2, ![n, K]⟩ : Shape) (⟨2, ![N, K]⟩ : Shape) (⟨2, ![n, N]⟩ : Shape)}
    (hD : LastLast D) (prec : Option ContractPrecision) (x : FVec Ideal (⟨2, ![n, K]⟩ : Shape) .f32)
    (w : FVec Ideal (⟨2, ![N, K]⟩ : Shape) .f32) (b : FVec Ideal (⟨2, ![1, N]⟩ : Shape) .f32)
    (hb : (⟨2, ![1, N]⟩ : Shape).Broadcasts ⟨2, ![n, N]⟩) (r : Fin n) (j : Fin N) :
    addf (matmul D prec x w (constant (F := Ideal) (⟨2, ![n, N]⟩ : Shape) .f32 0x00000000#32))
        (broadcastTo (⟨2, ![n, N]⟩ : Shape) b hb) (ix2 r j)
      = affT (fun k => x (ix2 r k)) w (fun j => b (ix2 (0 : Fin 1) j)) j := by
  rw [addf_apply, broadcastTo_1b_ab_apply]
  unfold affT
  refine congrArg (· + b (ix2 (0 : Fin 1) j)) ?_
  exact (Ideal.matmul_constant_zero_apply D prec x w (ix2 r j)).trans
    (Gram.sum_contr_last (M := EReal) D hD.rank (hD.size _) hD.lhs hD.rhs hD.row hD.col x w (ix2 r j))

/-- A host program: a dot_general against the transposed weight plus the bias vector spread in two steps. -/
theorem host_affT_apply {n N K : ℕ} {D : DotDims (⟨2, ![n, K]⟩ : Shape) (⟨2, ![K, N]⟩ : Shape) (⟨2, ![n, N]⟩ : Shape)}
    (hD : DenseVec.Plain D) (prec : Option ContractPrecision) (x : FVec Ideal (⟨2, ![n, K]⟩ : Shape) .f32)
    (w : FVec Ideal (⟨2, ![N, K]⟩ : Shape) .f32) (ht : (⟨2, ![N, K]⟩ : Shape).Transposes [1, 0] ⟨2, ![K, N]⟩)
    (b : FVec Ideal (⟨1, ![N]⟩ : Shape) .f32) (h1 : (⟨1, ![N]⟩ : Shape).BroadcastsInDim ⟨2, ![1, N]⟩ ![1])
    (h2 : (⟨2, ![1, N]⟩ : Shape).BroadcastsInDim ⟨2, ![n, N]⟩ ![0, 1]) (r : Fin n) (j : Fin N) :
    addf (Host.dotGeneral D prec x (transpose (⟨2, ![K, N]⟩ : Shape) [1, 0] w ht))
        (broadcastInDim (⟨2, ![n, N]⟩ : Shape) ![0, 1] h2 (broadcastInDim (⟨2, ![1, N]⟩ : Shape) ![1] h1 b)) (ix2 r j)
      = affT (fun k => x (ix2 r k)) w (fun j => b (ix1 j)) j := by
  rw [addf_apply, DenseVec.dotGeneral_ix2 hD, Keepdims.cols_apply h1 h2 b r j]
  unfold affT
  refine congrArg (· + b (ix1 j)) (Finset.sum_congr rfl fun k _ => ?_)
  rw [transpose_ix2_apply]

/-! ## The gates at an entry, in the two spellings -/

/-- A vector program: column slices of the two gate matrices, the logistic function, a splat of the one-word. -/
theorem vec_gates_apply {n : ℕ} (gi gh : FVec Ideal (⟨2, ![n, 45]⟩ : Shape) .f32) (h : FVec Ideal (⟨2, ![n, 15]⟩ : Shape) .f32)
    (s0 : (⟨2, ![n, 45]⟩ : Shape).Slices ![0, 0] ⟨2, ![n, 15]⟩) (s1 : (⟨2, ![n, 45]⟩ : Shape).Slices ![0, 15] ⟨2, ![n, 15]⟩)
    (s2 : (⟨2, ![n, 45]⟩ : Shape).Slices ![0, 30] ⟨2, ![n, 15]⟩) (p : Fin n) (q : Fin 15) :
    addf (mulf (subf (broadcast (⟨2, ![n, 15]⟩ : Shape) (Scalar.ofBits (F := Ideal) .f32 0x3F800000#32))
          (logistic (addf (extractStridedSlice (⟨2, ![n, 15]⟩ : Shape) ![0, 15] gi s1) (extractStridedSlice (⟨2, ![n, 15]⟩ : Shape) ![0, 15] gh s1))))
        (tanh (addf (extractStridedSlice (⟨2, ![n, 15]⟩ : Shape) ![0, 30] gi s2)
          (mulf (logistic (addf (extractStridedSlice (⟨2, ![n, 15]⟩ : Shape) ![0, 0] gi s0) (extractStridedSlice (⟨2, ![n, 15]⟩ : Shape) ![0, 0] gh s0)))
            (extractStridedSlice (⟨2, ![n, 15]⟩ : Shape) ![0, 30] gh s2)))))
      (mulf (logistic (addf (extractStridedSlice (⟨2, ![n, 15]⟩ : Shape) ![0, 15] gi s1) (extractStridedSlice (⟨2, ![n, 15]⟩ : Shape) ![0, 15] gh s1))) h)
      (ix2 p q)
      = gruOut (fun j => gi (ix2 p j)) (fun j => gh (ix2 p j)) (h (ix2 p q)) q := by
  have e0 : ∀ g : FVec Ideal (⟨2, ![n, 45]⟩ : Shape) .f32, extractStridedSlice (⟨2, ![n, 15]⟩ : Shape) ![0, 0] g s0 (ix2 p q) = g (ix2 p (g0 q)) :=
    fun g => slice2_axis1_apply 0 g s0 p q (g0 q) (Nat.zero_add _).symm
  have e1 : ∀ g : FVec Ideal (⟨2, ![n, 45]⟩ : Shape) .f32, extractStridedSlice (⟨2, ![n, 15]⟩ : Shape) ![0, 15] g s1 (ix2 p q) = g (ix2 p (g1 q)) :=
    fun g => slice2_axis1_apply 15 g s1 p q (g1 q) rfl
  have e2 : ∀ g : FVec Ideal (⟨2, ![n, 45]⟩ : Shape) .f32, extractStridedSlice (⟨2, ![n, 15]⟩ : Shape) ![0, 30] g s2 (ix2 p q) = g (ix2 p (g2 q)) :=
    fun g => slice2_axis1_apply 30 g s2 p q (g2 q) rfl
  simp only [addf_apply, mulf_apply, subf_apply, logistic_apply, tanh_apply, broadcast_apply, scalar_ofBits, e0, e1, e2]
  rfl

/-- A host program: the same slices, the logistic function spelt 1 / (1 + exp (−x)) over splats of the one-word. -/
theorem host_gates_apply {n : ℕ} (gi gh : FVec Ideal (⟨2, ![n, 45]⟩ : Shape) .f32) (h : FVec Ideal (⟨2, ![n, 15]⟩ : Shape) .f32)
    (s0 : (⟨2, ![n, 45]⟩ : Shape).Slices ![0, 0] ⟨2, ![n, 15]⟩) (s1 : (⟨2, ![n, 45]⟩ : Shape).Slices ![0, 15] ⟨2, ![n, 15]⟩)
    (s2 : (⟨2, ![n, 45]⟩ : Shape).Slices ![0, 30] ⟨2, ![n, 15]⟩)
    (hs : (⟨0, ![]⟩ : Shape).BroadcastsInDim (⟨2, ![n, 15]⟩ : Shape) ![]) (p : Fin n) (q : Fin 15) :
    addf (mulf (subf (DenseVec.splat (F := Ideal) hs (0x3F800000#32 : BitVec 32))
          (Host.divf (DenseVec.splat (F := Ideal) hs (0x3F800000#32 : BitVec 32)) (addf (DenseVec.splat (F := Ideal) hs (0x3F800000#32 : BitVec 32))
            (Host.exp (Host.negf (addf (extractStridedSlice (⟨2, ![n, 15]⟩ : Shape) ![0, 15] gi s1) (extractStridedSlice (⟨2, ![n, 15]⟩ : Shape) ![0, 15] gh s1)))))))
        (Host.tanh (addf (extractStridedSlice (⟨2, ![n, 15]⟩ : Shape) ![0, 30] gi s2)
          (mulf (Host.divf (DenseVec.splat (F := Ideal) hs (0x3F800000#32 : BitVec 32)) (addf (DenseVec.splat (F := Ideal) hs (0x3F800000#32 : BitVec 32))
              (Host.exp (Host.negf (addf (extractStridedSlice (⟨2, ![n, 15]⟩ : Shape) ![0, 0] gi s0) (extractStridedSlice (⟨2, ![n, 15]⟩ : Shape) ![0, 0] gh s0))))))
            (extractStridedSlice (⟨2, ![n, 15]⟩ : Shape) ![0, 30] gh s2)))))
      (mulf (Host.divf (DenseVec.splat (F := Ideal) hs (0x3F800000#32 : BitVec 32)) (addf (DenseVec.splat (F := Ideal) hs (0x3F800000#32 : BitVec 32))
          (Host.exp (Host.negf (addf (extractStridedSlice (⟨2, ![n, 15]⟩ : Shape) ![0, 15] gi s1) (extractStridedSlice (⟨2, ![n, 15]⟩ : Shape) ![0, 15] gh s1)))))) h)
      (ix2 p q)
      = gruOut (fun j => gi (ix2 p j)) (fun j => gh (ix2 p j)) (h (ix2 p q)) q := by
  have e0 : ∀ g : FVec Ideal (⟨2, ![n, 45]⟩ : Shape) .f32, extractStridedSlice (⟨2, ![n, 15]⟩ : Shape) ![0, 0] g s0 (ix2 p q) = g (ix2 p (g0 q)) :=
    fun g => slice2_axis1_apply 0 g s0 p q (g0 q) (Nat.zero_add _).symm
  have e1 : ∀ g : FVec Ideal (⟨2, ![n, 45]⟩ : Shape) .f32, extractStridedSlice (⟨2, ![n, 15]⟩ : Shape) ![0, 15] g s1 (ix2 p q) = g (ix2 p (g1 q)) :=
    fun g => slice2_axis1_apply 15 g s1 p q (g1 q) rfl
  have e2 : ∀ g : FVec Ideal (⟨2, ![n, 45]⟩ : Shape) .f32, extractStridedSlice (⟨2, ![n, 15]⟩ : Shape) ![0, 30] g s2 (ix2 p q) = g (ix2 p (g2 q)) :=
    fun g => slice2_axis1_apply 30 g s2 p q (g2 q) rfl
  unfold gruOut
  simp only [logistic_eq, addf_apply, mulf_apply, subf_apply, host_divf_apply, host_exp_apply, host_negf_apply, host_tanh_apply,
    DenseVec.splat_apply, e0, e1, e2]

/-! ## The classifier head: two affine layers with a rectifier between, then the shifted log-softmax of the row -/

/-- The hidden layer's unit j: max(x · w₁ᵀ + b₁, 0). -/
def hidden {K H : ℕ} (x : Fin K → EReal) (w1 : (⟨2, ![H, K]⟩ : Shape).Idx → EReal) (b1 : Fin H → EReal) (j : Fin H) : EReal :=
  max (affT x w1 b1 j) zeroW

/-- The logit of class c. -/
def logit {K H C : ℕ} (x : Fin K → EReal) (w1 : (⟨2, ![H, K]⟩ : Shape).Idx → EReal) (b1 : Fin H → EReal)
    (w2 : (⟨2, ![C, H]⟩ : Shape).Idx → EReal) (b2 : Fin C → EReal) (c : Fin C) : EReal :=
  affT (hidden x w1 b1) w2 b2 c

/-- The shifted log-softmax of a row z at class c: (z c − M) − log ∑ exp (z c' − M), M the fold of max from −∞. -/
def lsm {C : ℕ} (z : Fin C → EReal) (c : Fin C) : EReal :=
  (z c - (Finset.univ : Finset (Fin C)).fold max (Ideal.ofBits .f32 0xFF800000#32) z)
    - Ideal.log (∑ c' : Fin C, Ideal.exp (z c' - (Finset.univ : Finset (Fin C)).fold max (Ideal.ofBits .f32 0xFF800000#32) z))

theorem shifted_eq_lsm {n C : ℕ} (a : (⟨2, ![n, C]⟩ : Shape).Idx → EReal) (r : Fin n) (c : Fin C) :
    LogSoftmaxRows.shifted a r c = lsm (fun c' => a (ix2 r c')) c := rfl

/-- One more maximum with −∞ after a lane maximum from −∞ changes nothing. -/
theorem max_ninf_laneMax {n C : ℕ} (z : FVec Ideal (⟨2, ![n, C]⟩ : Shape) .f32)
    (h : (⟨2, ![n, C]⟩ : Shape).Reduces [1] ⟨1, ![n]⟩) (hφ : FKind.Formats .f32)
    (hmax : (0xFF800000#32 : BitVec 32) = FKind.maximumf.neutral .f32 hφ) :
    maximumf (broadcast (⟨1, ![n]⟩ : Shape) (Scalar.ofBits (F := Ideal) .f32 0xFF800000#32))
        (multiReduction .maximumf [1] (⟨1, ![n]⟩ : Shape) z 0xFF800000#32 h hφ hmax)
      = multiReduction .maximumf [1] (⟨1, ![n]⟩ : Shape) z 0xFF800000#32 h hφ hmax := by
  funext i
  obtain ⟨r, rfl⟩ : ∃ r : Fin n, i = ix1 r := ⟨i 0, eq_ix1 i⟩
  rw [maximumf_apply, broadcast_apply, scalar_ofBits, Gram.multiReduction_max_rows_apply]
  exact max_eq_right ((Finset.le_fold_max _).mpr (Or.inl le_rfl))

/-- A vector program's head at an entry. -/
theorem vec_head_apply {n K H C : ℕ}
    {D1 : DotDims (⟨2, ![n, K]⟩ : Shape) (⟨2, ![H, K]⟩ : Shape) (⟨2, ![n, H]⟩ : Shape)} (hD1 : LastLast D1)
    {D2 : DotDims (⟨2, ![n, H]⟩ : Shape) (⟨2, ![C, H]⟩ : Shape) (⟨2, ![n, C]⟩ : Shape)} (hD2 : LastLast D2)
    (p1 p2 : Option ContractPrecision)
    (x : FVec Ideal (⟨2, ![n, K]⟩ : Shape) .f32) (w1 : FVec Ideal (⟨2, ![H, K]⟩ : Shape) .f32) (b1 : FVec Ideal (⟨2, ![1, H]⟩ : Shape) .f32)
    (w2 : FVec Ideal (⟨2, ![C, H]⟩ : Shape) .f32) (b2 : FVec Ideal (⟨2, ![1, C]⟩ : Shape) .f32)
    (hb1 : (⟨2, ![1, H]⟩ : Shape).Broadcasts ⟨2, ![n, H]⟩) (hb2 : (⟨2, ![1, C]⟩ : Shape).Broadcasts ⟨2, ![n, C]⟩)
    (h : (⟨2, ![n, C]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hbc : (⟨2, ![n, 1]⟩ : Shape).Broadcasts ⟨2, ![n, C]⟩)
    (z : FVec Ideal (⟨2, ![n, C]⟩ : Shape) .f32)
    (hz : z = addf (matmul D2 p2 (maximumf (addf (matmul D1 p1 x w1 (constant (F := Ideal) (⟨2, ![n, H]⟩ : Shape) .f32 0x00000000#32))
              (broadcastTo (⟨2, ![n, H]⟩ : Shape) b1 hb1)) (broadcast (⟨2, ![n, H]⟩ : Shape) (Scalar.ofBits (F := Ideal) .f32 0x00000000#32)))
            w2 (constant (F := Ideal) (⟨2, ![n, C]⟩ : Shape) .f32 0x00000000#32)) (broadcastTo (⟨2, ![n, C]⟩ : Shape) b2 hb2))
    (r : Fin n) (c : Fin C) :
    subf (subf z (broadcastTo (⟨2, ![n, C]⟩ : Shape) (shapeCast (⟨2, ![n, 1]⟩ : Shape)
            (maximumf (broadcast (⟨1, ![n]⟩ : Shape) (Scalar.ofBits (F := Ideal) .f32 0xFF800000#32))
              (multiReduction .maximumf [1] (⟨1, ![n]⟩ : Shape) z 0xFF800000#32 h hφ hmax)) hc) hbc))
        (broadcastTo (⟨2, ![n, C]⟩ : Shape) (log (shapeCast (⟨2, ![n, 1]⟩ : Shape) (multiReduction .add [1] (⟨1, ![n]⟩ : Shape)
          (exp (subf z (broadcastTo (⟨2, ![n, C]⟩ : Shape) (shapeCast (⟨2, ![n, 1]⟩ : Shape)
            (maximumf (broadcast (⟨1, ![n]⟩ : Shape) (Scalar.ofBits (F := Ideal) .f32 0xFF800000#32))
              (multiReduction .maximumf [1] (⟨1, ![n]⟩ : Shape) z 0xFF800000#32 h hφ hmax)) hc) hbc)))
          0x00000000#32 h hφ hadd) hc)) hbc) (ix2 r c)
      = lsm (logit (fun k => x (ix2 r k)) w1 (fun j => b1 (ix2 (0 : Fin 1) j)) w2 (fun j => b2 (ix2 (0 : Fin 1) j))) c := by
  rw [max_ninf_laneMax z h hφ hmax, LogSoftmaxRows.kernel_apply z h hφ hmax hadd hc hbc r c, shifted_eq_lsm]
  refine congrArg (fun f => lsm f c) (funext fun c' => ?_)
  rw [hz, vec_affT_apply hD2]
  unfold logit
  refine congrArg (fun f => affT f w2 (fun j => b2 (ix2 (0 : Fin 1) j)) c') (funext fun j => ?_)
  rw [maximumf_apply, vec_affT_apply hD1, broadcast_apply, scalar_ofBits]
  rfl

end Gnn

end
-- ==== Proof.KernelPay.lean ====
/-
  What each kernel body stores, read at one entry of its block.

  The linear kernel stores its input block times the 15 × 15 weight: entry (p, q) is the row p of the block against
  column q of the weight. The recurrent kernel stores the gated cell of the message block and the state block: entry
  (p, q) is the cell at feature q of their rows p. The classifier kernel stores the shifted log-softmax of the two-layer
  head's logits: entry (r, c) is that of row r at class c. First the four products' dimension records are shown to
  contract one shared axis of extent K with the free axes reading the result's coordinates.
-/
import proofs.«164312_j77764677862200_1_alg».proof.Proof.Gen.KernelIdeal.Skeleton
import proofs.«164312_j77764677862200_1_alg».proof.Proof.LibGatedCell

noncomputable section

open scoped BigOperators

namespace Cert.KernelIdeal.Pay

open Cert.KernelIdeal Cert.KernelIdeal.Gen Idealize.ShloMosaic Idealize.ShloMosaic.ValueIdx Gnn

/-- The linear kernel's product contracts the block's columns with the weight's rows. -/
theorem plain_lin : DenseVec.Plain dot_S2000x15_S15x15_S2000x15_1_0_0_1_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The recurrent kernel's two products contract the last axis of the block and of the output-major weight. -/
theorem ll_gru : LastLast dot_S2000x15_S45x15_S2000x45_1_1_0_0_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The head's first product. -/
theorem ll_fc1 : LastLast dot_S256x35_S20x35_S256x20_1_1_0_0_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The head's second product. -/
theorem ll_fc2 : LastLast dot_S256x20_S6x20_S256x6_1_1_0_0_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The first linear kernel's stored value at (p, q). -/
theorem k0_pay1_apply (x0 : Vec Ideal S2000x15 .f32) (x1 : Vec Ideal S15x15 .f32) (p : Fin 2000) (q : Fin 15) :
    k0_pay1 x0 x1 (ix2 p q) = lin (fun k => x0 (ix2 p k)) x1 q := by
  unfold k0_pay1
  simp only [shapeCast_self]
  exact DenseVec.matmul_zero_ix2 plain_lin _ x0 x1 p q

/-- The second linear kernel's stored value at (p, q). -/
theorem k2_pay1_apply (x0 : Vec Ideal S2000x15 .f32) (x2 : Vec Ideal S15x15 .f32) (p : Fin 2000) (q : Fin 15) :
    k2_pay1 x0 x2 (ix2 p q) = lin (fun k => x0 (ix2 p k)) x2 q := by
  unfold k2_pay1
  simp only [shapeCast_self]
  exact DenseVec.matmul_zero_ix2 plain_lin _ x0 x2 p q

/-- The first recurrent kernel's stored value at (p, q). -/
theorem k1_pay1_apply (x0 x2 : Vec Ideal S2000x15 .f32) (x3 x4 : Vec Ideal S45x15 .f32) (x5 x7 : Vec Ideal S1x45 .f32)
    (p : Fin 2000) (q : Fin 15) :
    k1_pay1 x0 x2 x3 x4 x5 x7 (ix2 p q)
      = gruEntry (fun k => x0 (ix2 p k)) (fun k => x2 (ix2 p k)) x3 x4 (fun j => x5 (ix2 (0 : Fin 1) j))
          (fun j => x7 (ix2 (0 : Fin 1) j)) q := by
  unfold k1_pay1
  simp only [shapeCast_self]
  refine (vec_gates_apply _ _ _ _ _ _ p q).trans ?_
  unfold gruEntry
  refine congrArg₂ (fun a b => gruOut a b (x2 (ix2 p q)) q) (funext fun j => ?_) (funext fun j => ?_)
  · exact vec_affT_apply ll_gru _ x0 x3 x5 _ p j
  · exact vec_affT_apply ll_gru _ x2 x4 x7 _ p j

/-- The second recurrent kernel's stored value at (p, q). -/
theorem k3_pay1_apply (x0 x2 : Vec Ideal S2000x15 .f32) (x4 x5 : Vec Ideal S45x15 .f32) (x6 x8 : Vec Ideal S1x45 .f32)
    (p : Fin 2000) (q : Fin 15) :
    k3_pay1 x0 x2 x4 x5 x6 x8 (ix2 p q)
      = gruEntry (fun k => x0 (ix2 p k)) (fun k => x2 (ix2 p k)) x4 x5 (fun j => x6 (ix2 (0 : Fin 1) j))
          (fun j => x8 (ix2 (0 : Fin 1) j)) q := by
  unfold k3_pay1
  simp only [shapeCast_self]
  refine (vec_gates_apply _ _ _ _ _ _ p q).trans ?_
  unfold gruEntry
  refine congrArg₂ (fun a b => gruOut a b (x2 (ix2 p q)) q) (funext fun j => ?_) (funext fun j => ?_)
  · exact vec_affT_apply ll_gru _ x0 x4 x6 _ p j
  · exact vec_affT_apply ll_gru _ x2 x5 x8 _ p j

/-- The classifier kernel's stored value at (r, c). -/
theorem k4_pay1_apply (x0 : Vec Ideal S256x35 .f32) (x2 : Vec Ideal S20x35 .f32) (x3 : Vec Ideal S1x20 .f32)
    (x5 : Vec Ideal S6x20 .f32) (x6 : Vec Ideal S1x6 .f32) (r : Fin 256) (c : Fin 6) :
    k4_pay1 x0 x2 x3 x5 x6 (ix2 r c)
      = lsm (logit (fun k => x0 (ix2 r k)) x2 (fun j => x3 (ix2 (0 : Fin 1) j)) x5 (fun j => x6 (ix2 (0 : Fin 1) j))) c := by
  unfold k4_pay1
  simp only [shapeCast_self]
  exact vec_head_apply ll_fc1 ll_fc2 _ _ x0 x2 x3 x5 x6 _ _ _ _ _ _ _ _ _ rfl r c

end Cert.KernelIdeal.Pay

end
-- ==== Proof.Spec.lean ====
/-
  The dense stages as whole arrays.

  linArr x w is the [100000, 15] array x · w; gruArr a h … the gated cell applied to every node's message row and state
  row; headArr x … the shifted log-softmax of the two-layer head applied to every graph's feature row. Entry (r, q) of
  each depends on row r of the row-indexed operands only, through the entry formulas.
-/
import proofs.«164312_j77764677862200_1_alg».proof.KernelIdeal
import proofs.«164312_j77764677862200_1_alg».proof.Proof.LibGatedCell

noncomputable section

namespace Gnn

open Cert.KernelIdeal Idealize.ShloMosaic Idealize.ShloMosaic.ValueIdx

/-- Every node's row times the input-major 15 × 15 weight. -/
def linArr (x : S100000x15.Idx → EReal) (w : S15x15.Idx → EReal) : S100000x15.Idx → EReal :=
  fun i => lin (fun k => x (ix2 (i 0) k)) w (i 1)

/-- The gated cell of every node: message row of a, state row of h, the biases as [1, 45] rows. -/
def gruArr (a h : S100000x15.Idx → EReal) (wih whh : S45x15.Idx → EReal) (b1 b2 : S1x45.Idx → EReal) :
    S100000x15.Idx → EReal :=
  fun i => gruEntry (fun k => a (ix2 (i 0) k)) (fun k => h (ix2 (i 0) k)) wih whh (fun j => b1 (ix2 (0 : Fin 1) j))
    (fun j => b2 (ix2 (0 : Fin 1) j)) (i 1)

/-- The head of every graph: feature row of x, the biases as [1, 20] and [1, 6] rows. -/
def headArr (x : S256x35.Idx → EReal) (w1 : S20x35.Idx → EReal) (b1 : S1x20.Idx → EReal) (w2 : S6x20.Idx → EReal)
    (b2 : S1x6.Idx → EReal) : S256x6.Idx → EReal :=
  fun i => lsm (logit (fun k => x (ix2 (i 0) k)) w1 (fun j => b1 (ix2 (0 : Fin 1) j)) w2 (fun j => b2 (ix2 (0 : Fin 1) j))) (i 1)

end Gnn

end
-- ==== Proof.Blocks.lean ====
/-
  From blocks to arrays: what each pallas_call leaves in its output array.

  Each gridded call cuts its row-indexed operands and its output into 50 blocks of 2000 rows, block t at rows
  2000·t … 2000·t + 1999, and reads its weights and bias rows whole at every point; the classifier call has one point
  and reads everything whole. A stored entry depends on the same row of the row-indexed operands only, so block t of
  the output is block t of the whole-array function, the blocks tile the output, and the output array ends holding that
  function of the operand arrays as the call found them.
-/
import proofs.«164312_j77764677862200_1_alg».proof.Proof.Gen.KernelIdeal.Frame
import proofs.«164312_j77764677862200_1_alg».proof.Proof.KernelPay
import proofs.«164312_j77764677862200_1_alg».proof.Proof.Spec
import Idealize.ShloMosaic.Lib.Pipeline.Value

set_option maxRecDepth 16384

noncomputable section

namespace Cert.KernelIdeal.Blocks

open Cert.KernelIdeal Cert.KernelIdeal.Gen Cert.KernelIdeal.Pay Gnn
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## One stored entry against the whole-array function, over variables -/

/-- The linear kernel of call 0: its entry is the whole-array product's, when the block's row is the array's row. -/
theorem lin_point0 (x0 : Vec Ideal S2000x15 .f32) (x1 : Vec Ideal S15x15 .f32) (a : S100000x15.Idx → EReal)
    (w : S15x15.Idx → EReal) (y : S2000x15.Idx) (i : S100000x15.Idx)
    (hx : ∀ k : Fin 15, x0 (ix2 (y 0) k) = a (ix2 (i 0) k)) (hw : x1 = w) (hq : (y 1).val = (i 1).val) :
    k0_pay1 x0 x1 y = linArr a w i := by
  subst hw
  obtain ⟨p, q, rfl⟩ : ∃ (p : Fin 2000) (q : Fin 15), y = ix2 p q := ⟨y 0, y 1, eq_ix2 y⟩
  obtain ⟨r, s, rfl⟩ : ∃ (r : Fin 100000) (s : Fin 15), i = ix2 r s := ⟨i 0, i 1, eq_ix2 i⟩
  have hqs : q = s := Fin.ext hq
  subst hqs
  rw [k0_pay1_apply]
  exact congrArg (fun f => lin f x1 q) (funext fun k => hx k)

/-- The linear kernel of call 2: its entry is the whole-array product's, when the block's row is the array's row. -/
theorem lin_point2 (x0 : Vec Ideal S2000x15 .f32) (x1 : Vec Ideal S15x15 .f32) (a : S100000x15.Idx → EReal)
    (w : S15x15.Idx → EReal) (y : S2000x15.Idx) (i : S100000x15.Idx)
    (hx : ∀ k : Fin 15, x0 (ix2 (y 0) k) = a (ix2 (i 0) k)) (hw : x1 = w) (hq : (y 1).val = (i 1).val) :
    k2_pay1 x0 x1 y = linArr a w i := by
  subst hw
  obtain ⟨p, q, rfl⟩ : ∃ (p : Fin 2000) (q : Fin 15), y = ix2 p q := ⟨y 0, y 1, eq_ix2 y⟩
  obtain ⟨r, s, rfl⟩ : ∃ (r : Fin 100000) (s : Fin 15), i = ix2 r s := ⟨i 0, i 1, eq_ix2 i⟩
  have hqs : q = s := Fin.ext hq
  subst hqs
  rw [k2_pay1_apply]
  exact congrArg (fun f => lin f x1 q) (funext fun k => hx k)

/-- The recurrent kernel of call 1: its entry is the whole-array cell's, when the blocks' rows are the arrays' rows. -/
theorem gru_point1 (x0 x1 : Vec Ideal S2000x15 .f32) (x2 x3 : Vec Ideal S45x15 .f32) (x4 x5 : Vec Ideal S1x45 .f32)
    (a h : S100000x15.Idx → EReal) (wih whh : S45x15.Idx → EReal) (b1 b2 : S1x45.Idx → EReal)
    (y : S2000x15.Idx) (i : S100000x15.Idx)
    (ha : ∀ k : Fin 15, x0 (ix2 (y 0) k) = a (ix2 (i 0) k)) (hh : ∀ k : Fin 15, x1 (ix2 (y 0) k) = h (ix2 (i 0) k))
    (h2 : x2 = wih) (h3 : x3 = whh) (h4 : x4 = b1) (h5 : x5 = b2) (hq : (y 1).val = (i 1).val) :
    k1_pay1 x0 x1 x2 x3 x4 x5 y = gruArr a h wih whh b1 b2 i := by
  subst h2 h3 h4 h5
  obtain ⟨p, q, rfl⟩ : ∃ (p : Fin 2000) (q : Fin 15), y = ix2 p q := ⟨y 0, y 1, eq_ix2 y⟩
  obtain ⟨r, s, rfl⟩ : ∃ (r : Fin 100000) (s : Fin 15), i = ix2 r s := ⟨i 0, i 1, eq_ix2 i⟩
  have hqs : q = s := Fin.ext hq
  subst hqs
  rw [k1_pay1_apply]
  exact congrArg₂ (fun f g => gruEntry f g x2 x3 (fun j => x4 (ix2 (0 : Fin 1) j)) (fun j => x5 (ix2 (0 : Fin 1) j)) q)
    (funext fun k => ha k) (funext fun k => hh k)

/-- The recurrent kernel of call 3: its entry is the whole-array cell's, when the blocks' rows are the arrays' rows. -/
theorem gru_point3 (x0 x1 : Vec Ideal S2000x15 .f32) (x2 x3 : Vec Ideal S45x15 .f32) (x4 x5 : Vec Ideal S1x45 .f32)
    (a h : S100000x15.Idx → EReal) (wih whh : S45x15.Idx → EReal) (b1 b2 : S1x45.Idx → EReal)
    (y : S2000x15.Idx) (i : S100000x15.Idx)
    (ha : ∀ k : Fin 15, x0 (ix2 (y 0) k) = a (ix2 (i 0) k)) (hh : ∀ k : Fin 15, x1 (ix2 (y 0) k) = h (ix2 (i 0) k))
    (h2 : x2 = wih) (h3 : x3 = whh) (h4 : x4 = b1) (h5 : x5 = b2) (hq : (y 1).val = (i 1).val) :
    k3_pay1 x0 x1 x2 x3 x4 x5 y = gruArr a h wih whh b1 b2 i := by
  subst h2 h3 h4 h5
  obtain ⟨p, q, rfl⟩ : ∃ (p : Fin 2000) (q : Fin 15), y = ix2 p q := ⟨y 0, y 1, eq_ix2 y⟩
  obtain ⟨r, s, rfl⟩ : ∃ (r : Fin 100000) (s : Fin 15), i = ix2 r s := ⟨i 0, i 1, eq_ix2 i⟩
  have hqs : q = s := Fin.ext hq
  subst hqs
  rw [k3_pay1_apply]
  exact congrArg₂ (fun f g => gruEntry f g x2 x3 (fun j => x4 (ix2 (0 : Fin 1) j)) (fun j => x5 (ix2 (0 : Fin 1) j)) q)
    (funext fun k => ha k) (funext fun k => hh k)

/-- The classifier kernel: its entry is the whole-array head's. -/
theorem head_point4 (x0 : Vec Ideal S256x35 .f32) (x1 : Vec Ideal S20x35 .f32) (x2 : Vec Ideal S1x20 .f32)
    (x3 : Vec Ideal S6x20 .f32) (x4 : Vec Ideal S1x6 .f32)
    (x : S256x35.Idx → EReal) (w1 : S20x35.Idx → EReal) (b1 : S1x20.Idx → EReal) (w2 : S6x20.Idx → EReal) (b2 : S1x6.Idx → EReal)
    (y i : S256x6.Idx) (h0 : x0 = x) (h1 : x1 = w1) (h2 : x2 = b1) (h3 : x3 = w2) (h4 : x4 = b2) (hy : y = i) :
    k4_pay1 x0 x1 x2 x3 x4 y = headArr x w1 b1 w2 b2 i := by
  subst h0 h1 h2 h3 h4 hy
  obtain ⟨r, s, rfl⟩ : ∃ (r : Fin 256) (s : Fin 6), y = ix2 r s := ⟨y 0, y 1, eq_ix2 y⟩
  rw [k4_pay1_apply]
  rfl

/-! ## The five calls -/

section R0
variable (V : (c : Dev nD) → (b : Ref sig .tc) → Buf (Elt Ideal) ((c : Thread nD τ).loc b))

/-- The printed index maps over the grid: a row-indexed window at block (t, 0), a whole operand at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array function. -/
theorem flushed0 (c : Dev nD) (t : Fin cfg0.N) :
    (dat0 (F := Ideal) V c).flushed 2 t
      = ((cfg0.win 2).blk t).view.read (Elt Ideal) (linArr (V c main_arg0) (V c main_v14)) := by
  show (cfg0.win 2).cut (grid0.coords t) ((dat0 V c).after 2 t) = _
  rw [after0_2]
  unfold out0_2
  rw [View.canon_unit_zero hz]
  simp only [View.ld_unit_zero (S := S2000x15) hz, View.ld_unit_zero (S := S15x15) hz]
  obtain ⟨e0a, e0b, e1a, e1b, e2a, e2b⟩ := idx0 t
  funext j
  show k0_pay1 (iblk0 V c 0 t) (iblk0 V c 1 t) j = linArr (V c main_arg0) (V c main_v14) (((cfg0.win 2).blk t).view.emb j)
  refine lin_point0 _ _ _ _ j _ ?_ ?_ ?_
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 15 + 1 * k.val = k.val; omega
  · funext y
    show V c main_v14 (((cfg0.win 1).blk t).view.emb y) = V c main_v14 y
    refine congrArg (V c main_v14) (funext fun a => Fin.ext ?_)
    match a with
    | ⟨0, _⟩ => show win0_1.index t (0 : Fin 2) * 15 + 1 * (y 0).val = (y 0).val; omega
    | ⟨1, _⟩ => show win0_1.index t (1 : Fin 2) * 15 + 1 * (y 1).val = (y 1).val; omega
  · show (j 1).val = win0_2.index t (1 : Fin 2) * 15 + 1 * (j 1).val; omega

/-- The blocks tile the output array. -/
theorem cover0 (i : S100000x15.Idx) :
    ∃ t : Fin cfg0.N, (cfg0.win 2).flush t = true ∧ i ∈ ((cfg0.win 2).blk t).view.set := by
  have hN : cfg0.N = 50 := N_0
  have h0 : (i 0).val < 100000 := (i 0).isLt
  have h1 : (i 1).val < 15 := (i 1).isLt
  obtain ⟨t, ht⟩ : ∃ t : Fin cfg0.N, t.val = (i 0).val / 2000 := ⟨⟨(i 0).val / 2000, by rw [hN]; omega⟩, rfl⟩
  obtain ⟨e0a, e0b, e1a, e1b, e2a, e2b⟩ := idx0 t
  refine ⟨t, flush0_2 t, ?_⟩
  show i ∈ ((View.whole main_v15).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 15 ≤ (i 1).val ∧ (i 1).val < win0_2.index t (1 : Fin 2) * 15 + 15; omega

/-- The first linear call's output array: the node features times the first layer's weight. -/
theorem final0 (c : Dev nD) : (dat0 (F := Ideal) V c).arrAt 2 cfg0.N = linArr (V c main_arg0) (V c main_v14) :=
  (dat0 (F := Ideal) V c).arrAt_eq_of_cover 2 _ (fun t _ => flushed0 V c t) (cover0)

end R0

section R1
variable (V : (c : Dev nD) → (b : Ref sig .tc) → Buf (Elt Ideal) ((c : Thread nD τ).loc b))

/-- The printed index maps over the grid: a row-indexed window at block (t, 0), a whole operand at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the whole-array function. -/
theorem flushed1 (c : Dev nD) (t : Fin cfg1.N) :
    (dat1 (F := Ideal) V c).flushed 6 t
      = ((cfg1.win 6).blk t).view.read (Elt Ideal) (gruArr (V c main_v27) (V c main_arg0) (V c main_arg5) (V c main_arg6) (V c main_v11) (V c main_v12)) := by
  show (cfg1.win 6).cut (grid1.coords t) ((dat1 V c).after 6 t) = _
  rw [after1_6]
  unfold out1_6
  rw [View.canon_unit_zero hz]
  simp only [View.ld_unit_zero (S := S2000x15) hz, View.ld_unit_zero (S := S45x15) hz, View.ld_unit_zero (S := S1x45) hz]
  obtain ⟨e0a, e0b, e1a, e1b, e2a, e2b, e3a, e3b, e4a, e4b, e5a, e5b, e6a, e6b⟩ := idx1 t
  funext j
  show k1_pay1 (iblk1 V c 0 t) (iblk1 V c 1 t) (iblk1 V c 2 t) (iblk1 V c 3 t) (iblk1 V c 4 t) (iblk1 V c 5 t) j = gruArr (V c main_v27) (V c main_arg0) (V c main_arg5) (V c main_arg6) (V c main_v11) (V c main_v12) (((cfg1.win 6).blk t).view.emb j)
  refine gru_point1 _ _ _ _ _ _ _ _ _ _ _ _ j _ ?_ ?_ ?_ ?_ ?_ ?_ ?_
  · intro k
    show V c main_v27 (((cfg1.win 0).blk t).view.emb (ix2 (j 0) k)) = V c main_v27 (ix2 ((((cfg1.win 6).blk t).view.emb j) 0) k)
    refine congrArg (V c main_v27) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 15 + 1 * k.val = k.val; omega
  · intro k
    show V c main_arg0 (((cfg1.win 1).blk t).view.emb (ix2 (j 0) k)) = V c main_arg0 (ix2 ((((cfg1.win 6).blk t).view.emb j) 0) k)
    refine congrArg (V c main_arg0) (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 15 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 45 + 1 * (y 0).val = (y 0).val; omega
    | ⟨1, _⟩ => show win1_2.index t (1 : Fin 2) * 15 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 45 + 1 * (y 0).val = (y 0).val; omega
    | ⟨1, _⟩ => show win1_3.index t (1 : Fin 2) * 15 + 1 * (y 1).val = (y 1).val; omega
  · funext y
    show V c main_v11 (((cfg1.win 4).blk t).view.emb y) = V c main_v11 y
    refine congrArg (V c main_v11) (funext fun a => Fin.ext ?_)
    match a with
    | ⟨0, _⟩ => show win1_4.index t (0 : Fin 2) * 1 + 1 * (y 0).val = (y 0).val; omega
    | ⟨1, _⟩ => show win1_4.index t (1 : Fin 2) * 45 + 1 * (y 1).val = (y 1).val; omega
  · funext y
    show V c main_v12 (((cfg1.win 5).blk t).view.emb y) = V c main_v12 y
    refine congrArg (V c main_v12) (funext fun a => Fin.ext ?_)
    match a with
    | ⟨0, _⟩ => show win1_5.index t (0 : Fin 2) * 1 + 1 * (y 0).val = (y 0).val; omega
    | ⟨1, _⟩ => show win1_5.index t (1 : Fin 2) * 45 + 1 * (y 1).val = (y 1).val; omega
  · show (j 1).val = win1_6.index t (1 : Fin 2) * 15 + 1 * (j 1).val; omega

/-- The blocks tile the output array. -/
theorem cover1 (i : S100000x15.Idx) :
    ∃ t : Fin cfg1.N, (cfg1.win 6).flush t = true ∧ i ∈ ((cfg1.win 6).blk t).view.set := by
  have hN : cfg1.N = 50 := N_1
  have h0 : (i 0).val < 100000 := (i 0).isLt
  have h1 : (i 1).val < 15 := (i 1).isLt
  obtain ⟨t, ht⟩ : ∃ t : Fin cfg1.N, t.val = (i 0).val / 2000 := ⟨⟨(i 0).val / 2000, by rw [hN]; omega⟩, rfl⟩
  obtain ⟨e0a, e0b, e1a, e1b, e2a, e2b, e3a, e3b, e4a, e4b, e5a, e5b, e6a, e6b⟩ := idx1 t
  refine ⟨t, flush1_6 t, ?_⟩
  show i ∈ ((View.whole main_v28).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 15 ≤ (i 1).val ∧ (i 1).val < win1_6.index t (1 : Fin 2) * 15 + 15; omega

/-- The first recurrent call's output array: the gated cell of the aggregated messages and the node features. -/
theorem final1 (c : Dev nD) : (dat1 (F := Ideal) V c).arrAt 6 cfg1.N = gruArr (V c main_v27) (V c main_arg0) (V c main_arg5) (V c main_arg6) (V c main_v11) (V c main_v12) :=
  (dat1 (F := Ideal) V c).arrAt_eq_of_cover 6 _ (fun t _ => flushed1 V c t) (cover1)

end R1

section R2
variable (V : (c : Dev nD) → (b : Ref sig .tc) → Buf (Elt Ideal) ((c : Thread nD τ).loc b))

/-- The printed index maps over the grid: a row-indexed window at block (t, 0), a whole operand at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array function. -/
theorem flushed2 (c : Dev nD) (t : Fin cfg2.N) :
    (dat2 (F := Ideal) V c).flushed 2 t
      = ((cfg2.win 2).blk t).view.read (Elt Ideal) (linArr (V c main_v28) (V c main_v30)) := by
  show (cfg2.win 2).cut (grid2.coords t) ((dat2 V c).after 2 t) = _
  rw [after2_2]
  unfold out2_2
  rw [View.canon_unit_zero hz]
  simp only [View.ld_unit_zero (S := S2000x15) hz, View.ld_unit_zero (S := S15x15) hz]
  obtain ⟨e0a, e0b, e1a, e1b, e2a, e2b⟩ := idx2 t
  funext j
  show k2_pay1 (iblk2 V c 0 t) (iblk2 V c 1 t) j = linArr (V c main_v28) (V c main_v30) (((cfg2.win 2).blk t).view.emb j)
  refine lin_point2 _ _ _ _ j _ ?_ ?_ ?_
  · intro k
    show V c main_v28 (((cfg2.win 0).blk t).view.emb (ix2 (j 0) k)) = V c main_v28 (ix2 ((((cfg2.win 2).blk t).view.emb j) 0) k)
    refine congrArg (V c main_v28) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 15 + 1 * k.val = k.val; omega
  · funext y
    show V c main_v30 (((cfg2.win 1).blk t).view.emb y) = V c main_v30 y
    refine congrArg (V c main_v30) (funext fun a => Fin.ext ?_)
    match a with
    | ⟨0, _⟩ => show win2_1.index t (0 : Fin 2) * 15 + 1 * (y 0).val = (y 0).val; omega
    | ⟨1, _⟩ => show win2_1.index t (1 : Fin 2) * 15 + 1 * (y 1).val = (y 1).val; omega
  · show (j 1).val = win2_2.index t (1 : Fin 2) * 15 + 1 * (j 1).val; omega

/-- The blocks tile the output array. -/
theorem cover2 (i : S100000x15.Idx) :
    ∃ t : Fin cfg2.N, (cfg2.win 2).flush t = true ∧ i ∈ ((cfg2.win 2).blk t).view.set := by
  have hN : cfg2.N = 50 := N_2
  have h0 : (i 0).val < 100000 := (i 0).isLt
  have h1 : (i 1).val < 15 := (i 1).isLt
  obtain ⟨t, ht⟩ : ∃ t : Fin cfg2.N, t.val = (i 0).val / 2000 := ⟨⟨(i 0).val / 2000, by rw [hN]; omega⟩, rfl⟩
  obtain ⟨e0a, e0b, e1a, e1b, e2a, e2b⟩ := idx2 t
  refine ⟨t, flush2_2 t, ?_⟩
  show i ∈ ((View.whole main_v31).slice (win2_2.rect t)).set
  rw [View.set_slice_whole, Rect.mem_set_unit]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 15 ≤ (i 1).val ∧ (i 1).val < win2_2.index t (1 : Fin 2) * 15 + 15; omega

/-- The second linear call's output array: the first layer's states times the second layer's weight. -/
theorem final2 (c : Dev nD) : (dat2 (F := Ideal) V c).arrAt 2 cfg2.N = linArr (V c main_v28) (V c main_v30) :=
  (dat2 (F := Ideal) V c).arrAt_eq_of_cover 2 _ (fun t _ => flushed2 V c t) (cover2)

end R2

section R3
variable (V : (c : Dev nD) → (b : Ref sig .tc) → Buf (Elt Ideal) ((c : Thread nD τ).loc b))

/-- The printed index maps over the grid: a row-indexed window at block (t, 0), a whole operand at block (0, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the whole-array function. -/
theorem flushed3 (c : Dev nD) (t : Fin cfg3.N) :
    (dat3 (F := Ideal) V c).flushed 6 t
      = ((cfg3.win 6).blk t).view.read (Elt Ideal) (gruArr (V c main_v43) (V c main_v28) (V c main_arg5) (V c main_arg6) (V c main_v11) (V c main_v12)) := by
  show (cfg3.win 6).cut (grid3.coords t) ((dat3 V c).after 6 t) = _
  rw [after3_6]
  unfold out3_6
  rw [View.canon_unit_zero hz]
  simp only [View.ld_unit_zero (S := S2000x15) hz, View.ld_unit_zero (S := S45x15) hz, View.ld_unit_zero (S := S1x45) hz]
  obtain ⟨e0a, e0b, e1a, e1b, e2a, e2b, e3a, e3b, e4a, e4b, e5a, e5b, e6a, e6b⟩ := idx3 t
  funext j
  show k3_pay1 (iblk3 V c 0 t) (iblk3 V c 1 t) (iblk3 V c 2 t) (iblk3 V c 3 t) (iblk3 V c 4 t) (iblk3 V c 5 t) j = gruArr (V c main_v43) (V c main_v28) (V c main_arg5) (V c main_arg6) (V c main_v11) (V c main_v12) (((cfg3.win 6).blk t).view.emb j)
  refine gru_point3 _ _ _ _ _ _ _ _ _ _ _ _ j _ ?_ ?_ ?_ ?_ ?_ ?_ ?_
  · intro k
    show V c main_v43 (((cfg3.win 0).blk t).view.emb (ix2 (j 0) k)) = V c main_v43 (ix2 ((((cfg3.win 6).blk t).view.emb j) 0) k)
    refine congrArg (V c main_v43) (funext fun a => Fin.ext ?_)
    match a with
    | ⟨0, _⟩ => show win3_0.index t (0 : Fin 2) * 2000 + 1 * (j 0).val = win3_6.index t (0 : Fin 2) * 2000 + 1 * (j 0).val; omega
    | ⟨1, _⟩ => show win3_0.index t (1 : Fin 2) * 15 + 1 * k.val = k.val; omega
  · intro k
    show V c main_v28 (((cfg3.win 1).blk t).view.emb (ix2 (j 0) k)) = V c main_v28 (ix2 ((((cfg3.win 6).blk t).view.emb j) 0) k)
    refine congrArg (V c main_v28) (funext fun a => Fin.ext ?_)
    match a with
    | ⟨0, _⟩ => show win3_1.index t (0 : Fin 2) * 2000 + 1 * (j 0).val = win3_6.index t (0 : Fin 2) * 2000 + 1 * (j 0).val; omega
    | ⟨1, _⟩ => show win3_1.index t (1 : Fin 2) * 15 + 1 * k.val = k.val; omega
  · funext y
    show V c main_arg5 (((cfg3.win 2).blk t).view.emb y) = V c main_arg5 y
    refine congrArg (V c main_arg5) (funext fun a => Fin.ext ?_)
    match a with
    | ⟨0, _⟩ => show win3_2.index t (0 : Fin 2) * 45 + 1 * (y 0).val = (y 0).val; omega
    | ⟨1, _⟩ => show win3_2.index t (1 : Fin 2) * 15 + 1 * (y 1).val = (y 1).val; omega
  · funext y
    show V c main_arg6 (((cfg3.win 3).blk t).view.emb y) = V c main_arg6 y
    refine congrArg (V c main_arg6) (funext fun a => Fin.ext ?_)
    match a with
    | ⟨0, _⟩ => show win3_3.index t (0 : Fin 2) * 45 + 1 * (y 0).val = (y 0).val; omega
    | ⟨1, _⟩ => show win3_3.index t (1 : Fin 2) * 15 + 1 * (y 1).val = (y 1).val; omega
  · funext y
    show V c main_v11 (((cfg3.win 4).blk t).view.emb y) = V c main_v11 y
    refine congrArg (V c main_v11) (funext fun a => Fin.ext ?_)
    match a with
    | ⟨0, _⟩ => show win3_4.index t (0 : Fin 2) * 1 + 1 * (y 0).val = (y 0).val; omega
    | ⟨1, _⟩ => show win3_4.index t (1 : Fin 2) * 45 + 1 * (y 1).val = (y 1).val; omega
  · funext y
    show V c main_v12 (((cfg3.win 5).blk t).view.emb y) = V c main_v12 y
    refine congrArg (V c main_v12) (funext fun a => Fin.ext ?_)
    match a with
    | ⟨0, _⟩ => show win3_5.index t (0 : Fin 2) * 1 + 1 * (y 0).val = (y 0).val; omega
    | ⟨1, _⟩ => show win3_5.index t (1 : Fin 2) * 45 + 1 * (y 1).val = (y 1).val; omega
  · show (j 1).val = win3_6.index t (1 : Fin 2) * 15 + 1 * (j 1).val; omega

/-- The blocks tile the output array. -/
theorem cover3 (i : S100000x15.Idx) :
    ∃ t : Fin cfg3.N, (cfg3.win 6).flush t = true ∧ i ∈ ((cfg3.win 6).blk t).view.set := by
  have hN : cfg3.N = 50 := N_3
  have h0 : (i 0).val < 100000 := (i 0).isLt
  have h1 : (i 1).val < 15 := (i 1).isLt
  obtain ⟨t, ht⟩ : ∃ t : Fin cfg3.N, t.val = (i 0).val / 2000 := ⟨⟨(i 0).val / 2000, by rw [hN]; omega⟩, rfl⟩
  obtain ⟨e0a, e0b, e1a, e1b, e2a, e2b, e3a, e3b, e4a, e4b, e5a, e5b, e6a, e6b⟩ := idx3 t
  refine ⟨t, flush3_6 t, ?_⟩
  show i ∈ ((View.whole main_v44).slice (win3_6.rect t)).set
  rw [View.set_slice_whole, Rect.mem_set_unit]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 15 ≤ (i 1).val ∧ (i 1).val < win3_6.index t (1 : Fin 2) * 15 + 15; omega

/-- The second recurrent call's output array: the gated cell of the second aggregation and the first layer's states. -/
theorem final3 (c : Dev nD) : (dat3 (F := Ideal) V c).arrAt 6 cfg3.N = gruArr (V c main_v43) (V c main_v28) (V c main_arg5) (V c main_arg6) (V c main_v11) (V c main_v12) :=
  (dat3 (F := Ideal) V c).arrAt_eq_of_cover 6 _ (fun t _ => flushed3 V c t) (cover3)

end R3

section R4
variable (V : (c : Dev nD) → (b : Ref sig .tc) → Buf (Elt Ideal) ((c : Thread nD τ).loc b))

/-- The printed index maps over the grid: a row-indexed window at block (t, 0), a whole operand at block (0, 0). -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What point t writes back is block t of the whole-array function. -/
theorem flushed4 (c : Dev nD) (t : Fin cfg4.N) :
    (dat4 (F := Ideal) V c).flushed 5 t
      = ((cfg4.win 5).blk t).view.read (Elt Ideal) (headArr (V c main_v58) (V c main_arg9) (V c main_v59) (V c main_arg11) (V c main_v60)) := by
  show (cfg4.win 5).cut (grid4.coords t) ((dat4 V c).after 5 t) = _
  rw [after4_5]
  unfold out4_5
  rw [View.canon_unit_zero hz]
  simp only [View.ld_unit_zero (S := S256x6) hz, View.ld_unit_zero (S := S256x35) hz, View.ld_unit_zero (S := S20x35) hz, View.ld_unit_zero (S := S1x20) hz, View.ld_unit_zero (S := S6x20) hz, View.ld_unit_zero (S := S1x6) hz]
  obtain ⟨e0a, e0b, e1a, e1b, e2a, e2b, e3a, e3b, e4a, e4b, e5a, e5b⟩ := idx4 t
  funext j
  show k4_pay1 (iblk4 V c 0 t) (iblk4 V c 1 t) (iblk4 V c 2 t) (iblk4 V c 3 t) (iblk4 V c 4 t) j = headArr (V c main_v58) (V c main_arg9) (V c main_v59) (V c main_arg11) (V c main_v60) (((cfg4.win 5).blk t).view.emb j)
  refine head_point4 _ _ _ _ _ _ _ _ _ _ j _ ?_ ?_ ?_ ?_ ?_ ?_
  · funext y
    show V c main_v58 (((cfg4.win 0).blk t).view.emb y) = V c main_v58 y
    refine congrArg (V c main_v58) (funext fun a => Fin.ext ?_)
    match a with
    | ⟨0, _⟩ => show win4_0.index t (0 : Fin 2) * 256 + 1 * (y 0).val = (y 0).val; omega
    | ⟨1, _⟩ => show win4_0.index t (1 : Fin 2) * 35 + 1 * (y 1).val = (y 1).val; omega
  · funext y
    show V c main_arg9 (((cfg4.win 1).blk t).view.emb y) = V c main_arg9 y
    refine congrArg (V c main_arg9) (funext fun a => Fin.ext ?_)
    match a with
    | ⟨0, _⟩ => show win4_1.index t (0 : Fin 2) * 20 + 1 * (y 0).val = (y 0).val; omega
    | ⟨1, _⟩ => show win4_1.index t (1 : Fin 2) * 35 + 1 * (y 1).val = (y 1).val; omega
  · funext y
    show V c main_v59 (((cfg4.win 2).blk t).view.emb y) = V c main_v59 y
    refine congrArg (V c main_v59) (funext fun a => Fin.ext ?_)
    match a with
    | ⟨0, _⟩ => show win4_2.index t (0 : Fin 2) * 1 + 1 * (y 0).val = (y 0).val; omega
    | ⟨1, _⟩ => show win4_2.index t (1 : Fin 2) * 20 + 1 * (y 1).val = (y 1).val; omega
  · funext y
    show V c main_arg11 (((cfg4.win 3).blk t).view.emb y) = V c main_arg11 y
    refine congrArg (V c main_arg11) (funext fun a => Fin.ext ?_)
    match a with
    | ⟨0, _⟩ => show win4_3.index t (0 : Fin 2) * 6 + 1 * (y 0).val = (y 0).val; omega
    | ⟨1, _⟩ => show win4_3.index t (1 : Fin 2) * 20 + 1 * (y 1).val = (y 1).val; omega
  · funext y
    show V c main_v60 (((cfg4.win 4).blk t).view.emb y) = V c main_v60 y
    refine congrArg (V c main_v60) (funext fun a => Fin.ext ?_)
    match a with
    | ⟨0, _⟩ => show win4_4.index t (0 : Fin 2) * 1 + 1 * (y 0).val = (y 0).val; omega
    | ⟨1, _⟩ => show win4_4.index t (1 : Fin 2) * 6 + 1 * (y 1).val = (y 1).val; omega
  · funext a
    apply Fin.ext
    match a with
    | ⟨0, _⟩ => show (j 0).val = win4_5.index t (0 : Fin 2) * 256 + 1 * (j 0).val; omega
    | ⟨1, _⟩ => show (j 1).val = win4_5.index t (1 : Fin 2) * 6 + 1 * (j 1).val; omega

/-- The blocks tile the output array. -/
theorem cover4 (i : S256x6.Idx) :
    ∃ t : Fin cfg4.N, (cfg4.win 5).flush t = true ∧ i ∈ ((cfg4.win 5).blk t).view.set := by
  have hN : cfg4.N = 1 := N_4
  have h0 : (i 0).val < 256 := (i 0).isLt
  have h1 : (i 1).val < 6 := (i 1).isLt
  obtain ⟨t, ht⟩ : ∃ t : Fin cfg4.N, t.val = 0 := ⟨⟨0, by rw [hN]; decide⟩, rfl⟩
  obtain ⟨e0a, e0b, e1a, e1b, e2a, e2b, e3a, e3b, e4a, e4b, e5a, e5b⟩ := idx4 t
  refine ⟨t, flush4_5 t, ?_⟩
  show i ∈ ((View.whole main_v61).slice (win4_5.rect t)).set
  rw [View.set_slice_whole, Rect.mem_set_unit]
  intro a
  match a with
  | ⟨0, _⟩ => show win4_5.index t (0 : Fin 2) * 256 ≤ (i 0).val ∧ (i 0).val < win4_5.index t (0 : Fin 2) * 256 + 256; omega
  | ⟨1, _⟩ => show win4_5.index t (1 : Fin 2) * 6 ≤ (i 1).val ∧ (i 1).val < win4_5.index t (1 : Fin 2) * 6 + 6; omega

/-- The classifier call's output array: the head applied to every graph's feature row. -/
theorem final4 (c : Dev nD) : (dat4 (F := Ideal) V c).arrAt 5 cfg4.N = headArr (V c main_v58) (V c main_arg9) (V c main_v59) (V c main_arg11) (V c main_v60) :=
  (dat4 (F := Ideal) V c).arrAt_eq_of_cover 5 _ (fun t _ => flushed4 V c t) (cover4)

end R4

end Cert.KernelIdeal.Blocks

end
-- ==== Proof.Glue.lean ====
/-
  The host operations between the pallas_calls, as functions of the arrays they read.

  From the edge list: the source and target index vectors; the in-degree of every node clamped below at one, kept
  as a column. From the stacked weights: each layer's 15 × 15 matrix. The mean aggregation of a message table: rows
  gathered at the (sign-normalised) source index of every edge, added into the target node's row, divided by the
  degree column spread along the row. The rectifier of the last layer's states, the per-graph mean of the rectified
  states joined with the graph's text features, and the bias vectors viewed as one-row matrices. Nothing here is
  evaluated: both programs apply these same operations to the same operands.
-/
import proofs.«164312_j77764677862200_1_alg».proof.Proof.Gen.KernelIdeal
import Idealize.ShloMosaic.PureOps.Ideal

noncomputable section

namespace Cert.KernelIdeal.Glue

open Cert.KernelIdeal Cert.KernelIdeal.Facts₀ Idealize.ShloMosaic

/-- The contents of a buffer of shape s and element type e on the extended reals. -/
abbrev Arr (s : Shape) (e : EltTy) : Type := (⟨s, e⟩ : BufTy).Contents (Elt Ideal)

/-- Row 0 of the edge list: every edge's source node. -/
def srcOf (ei : Arr S2x3200000 .i32) : Arr S3200000 .i32 :=
  shapeCast _ (extractStridedSlice S1x3200000 ![0, 0] ei slices_S2x3200000_S1x3200000_0_0) shapeCasts_S1x3200000_S3200000

/-- Row 1 of the edge list: every edge's target node. -/
def tgtOf (ei : Arr S2x3200000 .i32) : Arr S3200000 .i32 :=
  shapeCast _ (extractStridedSlice S1x3200000 ![1, 0] ei slices_S2x3200000_S1x3200000_1_0) shapeCasts_S1x3200000_S3200000

/-- Every node's in-degree, at least one, as a column. -/
def degOf (tgt : Arr S3200000 .i32) : Arr S100000x1 .f32 :=
  broadcastInDim S100000x1 ![0] bcast_S100000_S100000x1_0
    (maximumf (F := Ideal)
      (Host.scatterAdd (F := Ideal) scatter_S100000_S3200000x1_S3200000_n_0_0_1
        (broadcastInDim S100000 ![] bcast_S_S100000 (constant (F := Ideal) S_ .f32 0x00000000#32))
        (broadcastInDim S3200000x1 ![0] bcast_S3200000_S3200000x1_0 tgt)
        (broadcastInDim S3200000 ![] bcast_S_S3200000 (constant (F := Ideal) S_ .f32 0x3F800000#32)))
      (broadcastInDim S100000 ![] bcast_S_S100000 (constant (F := Ideal) S_ .f32 0x3F800000#32)))

/-- A bias vector of the recurrent cell as a one-row matrix. -/
def row45 (b : Arr S45 .f32) : Arr S1x45 .f32 := shapeCast _ b shapeCasts_S45_S1x45
/-- The hidden layer's bias as a one-row matrix. -/
def row20 (b : Arr S20 .f32) : Arr S1x20 .f32 := shapeCast _ b shapeCasts_S20_S1x20
/-- The output layer's bias as a one-row matrix. -/
def row6 (b : Arr S6 .f32) : Arr S1x6 .f32 := shapeCast _ b shapeCasts_S6_S1x6

/-- The first layer's weight matrix. -/
def w0Of (w : Arr S2x15x15 .f32) : Arr S15x15 .f32 :=
  shapeCast _ (extractStridedSlice S1x15x15 ![0, 0, 0] w slices_S2x15x15_S1x15x15_0_0_0) shapeCasts_S1x15x15_S15x15

/-- The second layer's weight matrix. -/
def w1Of (w : Arr S2x15x15 .f32) : Arr S15x15 .f32 :=
  shapeCast _ (extractStridedSlice S1x15x15 ![1, 0, 0] w slices_S2x15x15_S1x15x15_1_0_0) shapeCasts_S1x15x15_S15x15

/-- The mean over every node's incoming edges of the message table's rows at the edges' sources. -/
def aggOf (mm : Arr S100000x15 .f32) (src tgt : Arr S3200000 .i32) (deg : Arr S100000x1 .f32) : Arr S100000x15 .f32 :=
  Host.divf (F := Ideal)
    (Host.scatterAdd (F := Ideal) scatter_S100000x15_S3200000x1_S3200000x15_1_0_0_1
      (broadcastInDim S100000x15 ![] bcast_S_S100000x15 (constant (F := Ideal) S_ .f32 0x00000000#32))
      (broadcastInDim S3200000x1 ![0] bcast_S3200000_S3200000x1_0 tgt)
      (Host.gather gather_S100000x15_S3200000x1_S3200000x15_1_0_n_n_0_1_115 mm
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))
    (broadcastInDim S100000x15 ![0, 1] bcast_S100000x1_S100000x15_0_1 deg)

/-- The rectifier of the node states. -/
def reluOf (h : Arr S100000x15 .f32) : Arr S100000x15 .f32 :=
  maximumf (F := Ideal) h (broadcastInDim S100000x15 ![] bcast_S_S100000x15 (constant (F := Ideal) S_ .f32 0x00000000#32))

/-- Every graph's feature row: the mean of its nodes' rectified states joined with its text features. -/
def featOf (hr : Arr S100000x15 .f32) (bv : Arr S100000 .i32) (tf : Arr S256x20 .f32) : Arr S256x35 .f32 :=
  concatenate S256x35 1
    [⟨S256x15, Host.divf (F := Ideal)
        (Host.scatterAdd (F := Ideal) scatter_S256x15_S100000x1_S100000x15_1_0_0_1
          (broadcastInDim S256x15 ![] bcast_S_S256x15 (constant (F := Ideal) S_ .f32 0x00000000#32))
          (broadcastInDim S100000x1 ![0] bcast_S100000_S100000x1_0 bv) hr)
        (broadcastInDim S256x15 ![0, 1] bcast_S256x1_S256x15_0_1
          (broadcastInDim S256x1 ![0] bcast_S256_S256x1_0
            (maximumf (F := Ideal)
              (Host.scatterAdd (F := Ideal) scatter_S256_S100000x1_S100000_n_0_0_1
                (broadcastInDim S256 ![] bcast_S_S256 (constant (F := Ideal) S_ .f32 0x00000000#32))
                (broadcastInDim S100000x1 ![0] bcast_S100000_S100000x1_0 bv)
                (broadcastInDim S100000 ![] bcast_S_S100000 (constant (F := Ideal) S_ .f32 0x3F800000#32)))
              (broadcastInDim S256 ![] bcast_S_S256 (constant (F := Ideal) S_ .f32 0x3F800000#32)))))⟩,
     ⟨S256x20, tf⟩] concatenates_S256x15_S256x20_S256x35_d1

end Cert.KernelIdeal.Glue

end
-- ==== Proof.Stretch.lean ====
/-
  Each stretch of host operations read from an arbitrary starting memory: the buffers it writes hold the host
  functions of the buffers it reads, and a buffer it does not write holds what it held.
-/
import proofs.«164312_j77764677862200_1_alg».proof.Proof.Gen.KernelIdeal.Launch
import proofs.«164312_j77764677862200_1_alg».proof.Proof.Glue
import Idealize.ShloMosaic.Lib.StableHlo.Run

set_option maxRecDepth 16384

noncomputable section

namespace Cert.KernelIdeal.Stretch

open Cert.KernelIdeal Cert.KernelIdeal.Gen Cert.KernelIdeal.Glue
open Idealize.ShloMosaic Idealize.ShloMosaic.TcCoe Idealize.ShloMosaic.StableHlo Idealize.SL.Sem

variable (W : Valuation τ sig (Elt Ideal))

/-! ## What each stretch writes -/

set_option maxHeartbeats 4000000 in
theorem hostOps0_main_v1 : after (hostOps0 (F := Ideal)) W (Proc.devRef .tc main_v1) = srcOf (W (Proc.devRef .tc main_arg1)) := by
  after_results_simp <;> rfl

set_option maxHeartbeats 4000000 in
theorem hostOps0_main_v3 : after (hostOps0 (F := Ideal)) W (Proc.devRef .tc main_v3) = tgtOf (W (Proc.devRef .tc main_arg1)) := by
  after_results_simp <;> rfl

set_option maxHeartbeats 4000000 in
theorem hostOps0_main_v10 : after (hostOps0 (F := Ideal)) W (Proc.devRef .tc main_v10) = degOf (tgtOf (W (Proc.devRef .tc main_arg1))) := by
  after_results_simp <;> rfl

set_option maxHeartbeats 4000000 in
theorem hostOps0_main_v11 : after (hostOps0 (F := Ideal)) W (Proc.devRef .tc main_v11) = row45 (W (Proc.devRef .tc main_arg7)) := by
  after_results_simp <;> rfl

set_option maxHeartbeats 4000000 in
theorem hostOps0_main_v12 : after (hostOps0 (F := Ideal)) W (Proc.devRef .tc main_v12) = row45 (W (Proc.devRef .tc main_arg8)) := by
  after_results_simp <;> rfl

set_option maxHeartbeats 4000000 in
theorem hostOps0_main_v14 : after (hostOps0 (F := Ideal)) W (Proc.devRef .tc main_v14) = w0Of (W (Proc.devRef .tc main_arg4)) := by
  after_results_simp <;> rfl

set_option maxHeartbeats 4000000 in
theorem hostOps1_main_v27 : after (hostOps1 (F := Ideal)) W (Proc.devRef .tc main_v27) = aggOf (W (Proc.devRef .tc main_v15)) (W (Proc.devRef .tc main_v1)) (W (Proc.devRef .tc main_v3)) (W (Proc.devRef .tc main_v10)) := by
  after_results_simp <;> rfl

set_option maxHeartbeats 4000000 in
theorem hostOps2_main_v30 : after (hostOps2 (F := Ideal)) W (Proc.devRef .tc main_v30) = w1Of (W (Proc.devRef .tc main_arg4)) := by
  after_results_simp <;> rfl

set_option maxHeartbeats 4000000 in
theorem hostOps3_main_v43 : after (hostOps3 (F := Ideal)) W (Proc.devRef .tc main_v43) = aggOf (W (Proc.devRef .tc main_v31)) (W (Proc.devRef .tc main_v1)) (W (Proc.devRef .tc main_v3)) (W (Proc.devRef .tc main_v10)) := by
  after_results_simp <;> rfl

set_option maxHeartbeats 4000000 in
theorem hostOps4_main_v45 : after (hostOps4 (F := Ideal)) W (Proc.devRef .tc main_v45) = reluOf (W (Proc.devRef .tc main_v44)) := by
  after_results_simp <;> rfl

set_option maxHeartbeats 4000000 in
theorem hostOps4_1_main_v58 : after (hostOps4_1 (F := Ideal)) W (Proc.devRef .tc main_v58) = featOf (W (Proc.devRef .tc main_v45)) (W (Proc.devRef .tc main_arg2)) (W (Proc.devRef .tc main_arg3)) := by
  after_results_simp <;> rfl

set_option maxHeartbeats 4000000 in
theorem hostOps4_1_main_v59 : after (hostOps4_1 (F := Ideal)) W (Proc.devRef .tc main_v59) = row20 (W (Proc.devRef .tc main_arg10)) := by
  after_results_simp <;> rfl

set_option maxHeartbeats 4000000 in
theorem hostOps4_1_main_v60 : after (hostOps4_1 (F := Ideal)) W (Proc.devRef .tc main_v60) = row6 (W (Proc.devRef .tc main_arg12)) := by
  after_results_simp <;> rfl

/-! ## What each stretch leaves alone -/

theorem hostOps0_keep_main_arg0 : after (hostOps0 (F := Ideal)) W (Proc.devRef .tc main_arg0) = W (Proc.devRef .tc main_arg0) := by
  after_results <;> rfl

theorem hostOps0_keep_main_arg2 : after (hostOps0 (F := Ideal)) W (Proc.devRef .tc main_arg2) = W (Proc.devRef .tc main_arg2) := by
  after_results <;> rfl

theorem hostOps0_keep_main_arg3 : after (hostOps0 (F := Ideal)) W (Proc.devRef .tc main_arg3) = W (Proc.devRef .tc main_arg3) := by
  after_results <;> rfl

theorem hostOps0_keep_main_arg4 : after (hostOps0 (F := Ideal)) W (Proc.devRef .tc main_arg4) = W (Proc.devRef .tc main_arg4) := by
  after_results <;> rfl

theorem hostOps0_keep_main_arg5 : after (hostOps0 (F := Ideal)) W (Proc.devRef .tc main_arg5) = W (Proc.devRef .tc main_arg5) := by
  after_results <;> rfl

theorem hostOps0_keep_main_arg6 : after (hostOps0 (F := Ideal)) W (Proc.devRef .tc main_arg6) = W (Proc.devRef .tc main_arg6) := by
  after_results <;> rfl

theorem hostOps0_keep_main_arg9 : after (hostOps0 (F := Ideal)) W (Proc.devRef .tc main_arg9) = W (Proc.devRef .tc main_arg9) := by
  after_results <;> rfl

theorem hostOps0_keep_main_arg10 : after (hostOps0 (F := Ideal)) W (Proc.devRef .tc main_arg10) = W (Proc.devRef .tc main_arg10) := by
  after_results <;> rfl

theorem hostOps0_keep_main_arg11 : after (hostOps0 (F := Ideal)) W (Proc.devRef .tc main_arg11) = W (Proc.devRef .tc main_arg11) := by
  after_results <;> rfl

theorem hostOps0_keep_main_arg12 : after (hostOps0 (F := Ideal)) W (Proc.devRef .tc main_arg12) = W (Proc.devRef .tc main_arg12) := by
  after_results <;> rfl

theorem hostOps1_keep_main_v1 : after (hostOps1 (F := Ideal)) W (Proc.devRef .tc main_v1) = W (Proc.devRef .tc main_v1) := by
  after_results <;> rfl

theorem hostOps1_keep_main_v3 : after (hostOps1 (F := Ideal)) W (Proc.devRef .tc main_v3) = W (Proc.devRef .tc main_v3) := by
  after_results <;> rfl

theorem hostOps1_keep_main_v10 : after (hostOps1 (F := Ideal)) W (Proc.devRef .tc main_v10) = W (Proc.devRef .tc main_v10) := by
  after_results <;> rfl

theorem hostOps1_keep_main_arg0 : after (hostOps1 (F := Ideal)) W (Proc.devRef .tc main_arg0) = W (Proc.devRef .tc main_arg0) := by
  after_results <;> rfl

theorem hostOps1_keep_main_arg5 : after (hostOps1 (F := Ideal)) W (Proc.devRef .tc main_arg5) = W (Proc.devRef .tc main_arg5) := by
  after_results <;> rfl

theorem hostOps1_keep_main_arg6 : after (hostOps1 (F := Ideal)) W (Proc.devRef .tc main_arg6) = W (Proc.devRef .tc main_arg6) := by
  after_results <;> rfl

theorem hostOps1_keep_main_v11 : after (hostOps1 (F := Ideal)) W (Proc.devRef .tc main_v11) = W (Proc.devRef .tc main_v11) := by
  after_results <;> rfl

theorem hostOps1_keep_main_v12 : after (hostOps1 (F := Ideal)) W (Proc.devRef .tc main_v12) = W (Proc.devRef .tc main_v12) := by
  after_results <;> rfl

theorem hostOps1_keep_main_arg4 : after (hostOps1 (F := Ideal)) W (Proc.devRef .tc main_arg4) = W (Proc.devRef .tc main_arg4) := by
  after_results <;> rfl

theorem hostOps1_keep_main_arg2 : after (hostOps1 (F := Ideal)) W (Proc.devRef .tc main_arg2) = W (Proc.devRef .tc main_arg2) := by
  after_results <;> rfl

theorem hostOps1_keep_main_arg3 : after (hostOps1 (F := Ideal)) W (Proc.devRef .tc main_arg3) = W (Proc.devRef .tc main_arg3) := by
  after_results <;> rfl

theorem hostOps1_keep_main_arg9 : after (hostOps1 (F := Ideal)) W (Proc.devRef .tc main_arg9) = W (Proc.devRef .tc main_arg9) := by
  after_results <;> rfl

theorem hostOps1_keep_main_arg10 : after (hostOps1 (F := Ideal)) W (Proc.devRef .tc main_arg10) = W (Proc.devRef .tc main_arg10) := by
  after_results <;> rfl

theorem hostOps1_keep_main_arg11 : after (hostOps1 (F := Ideal)) W (Proc.devRef .tc main_arg11) = W (Proc.devRef .tc main_arg11) := by
  after_results <;> rfl

theorem hostOps1_keep_main_arg12 : after (hostOps1 (F := Ideal)) W (Proc.devRef .tc main_arg12) = W (Proc.devRef .tc main_arg12) := by
  after_results <;> rfl

theorem hostOps2_keep_main_v28 : after (hostOps2 (F := Ideal)) W (Proc.devRef .tc main_v28) = W (Proc.devRef .tc main_v28) := by
  after_results <;> rfl

theorem hostOps2_keep_main_v1 : after (hostOps2 (F := Ideal)) W (Proc.devRef .tc main_v1) = W (Proc.devRef .tc main_v1) := by
  after_results <;> rfl

theorem hostOps2_keep_main_v3 : after (hostOps2 (F := Ideal)) W (Proc.devRef .tc main_v3) = W (Proc.devRef .tc main_v3) := by
  after_results <;> rfl

theorem hostOps2_keep_main_v10 : after (hostOps2 (F := Ideal)) W (Proc.devRef .tc main_v10) = W (Proc.devRef .tc main_v10) := by
  after_results <;> rfl

theorem hostOps2_keep_main_arg5 : after (hostOps2 (F := Ideal)) W (Proc.devRef .tc main_arg5) = W (Proc.devRef .tc main_arg5) := by
  after_results <;> rfl

theorem hostOps2_keep_main_arg6 : after (hostOps2 (F := Ideal)) W (Proc.devRef .tc main_arg6) = W (Proc.devRef .tc main_arg6) := by
  after_results <;> rfl

theorem hostOps2_keep_main_v11 : after (hostOps2 (F := Ideal)) W (Proc.devRef .tc main_v11) = W (Proc.devRef .tc main_v11) := by
  after_results <;> rfl

theorem hostOps2_keep_main_v12 : after (hostOps2 (F := Ideal)) W (Proc.devRef .tc main_v12) = W (Proc.devRef .tc main_v12) := by
  after_results <;> rfl

theorem hostOps2_keep_main_arg2 : after (hostOps2 (F := Ideal)) W (Proc.devRef .tc main_arg2) = W (Proc.devRef .tc main_arg2) := by
  after_results <;> rfl

theorem hostOps2_keep_main_arg3 : after (hostOps2 (F := Ideal)) W (Proc.devRef .tc main_arg3) = W (Proc.devRef .tc main_arg3) := by
  after_results <;> rfl

theorem hostOps2_keep_main_arg9 : after (hostOps2 (F := Ideal)) W (Proc.devRef .tc main_arg9) = W (Proc.devRef .tc main_arg9) := by
  after_results <;> rfl

theorem hostOps2_keep_main_arg10 : after (hostOps2 (F := Ideal)) W (Proc.devRef .tc main_arg10) = W (Proc.devRef .tc main_arg10) := by
  after_results <;> rfl

theorem hostOps2_keep_main_arg11 : after (hostOps2 (F := Ideal)) W (Proc.devRef .tc main_arg11) = W (Proc.devRef .tc main_arg11) := by
  after_results <;> rfl

theorem hostOps2_keep_main_arg12 : after (hostOps2 (F := Ideal)) W (Proc.devRef .tc main_arg12) = W (Proc.devRef .tc main_arg12) := by
  after_results <;> rfl

theorem hostOps3_keep_main_v28 : after (hostOps3 (F := Ideal)) W (Proc.devRef .tc main_v28) = W (Proc.devRef .tc main_v28) := by
  after_results <;> rfl

theorem hostOps3_keep_main_arg5 : after (hostOps3 (F := Ideal)) W (Proc.devRef .tc main_arg5) = W (Proc.devRef .tc main_arg5) := by
  after_results <;> rfl

theorem hostOps3_keep_main_arg6 : after (hostOps3 (F := Ideal)) W (Proc.devRef .tc main_arg6) = W (Proc.devRef .tc main_arg6) := by
  after_results <;> rfl

theorem hostOps3_keep_main_v11 : after (hostOps3 (F := Ideal)) W (Proc.devRef .tc main_v11) = W (Proc.devRef .tc main_v11) := by
  after_results <;> rfl

theorem hostOps3_keep_main_v12 : after (hostOps3 (F := Ideal)) W (Proc.devRef .tc main_v12) = W (Proc.devRef .tc main_v12) := by
  after_results <;> rfl

theorem hostOps3_keep_main_arg2 : after (hostOps3 (F := Ideal)) W (Proc.devRef .tc main_arg2) = W (Proc.devRef .tc main_arg2) := by
  after_results <;> rfl

theorem hostOps3_keep_main_arg3 : after (hostOps3 (F := Ideal)) W (Proc.devRef .tc main_arg3) = W (Proc.devRef .tc main_arg3) := by
  after_results <;> rfl

theorem hostOps3_keep_main_arg9 : after (hostOps3 (F := Ideal)) W (Proc.devRef .tc main_arg9) = W (Proc.devRef .tc main_arg9) := by
  after_results <;> rfl

theorem hostOps3_keep_main_arg10 : after (hostOps3 (F := Ideal)) W (Proc.devRef .tc main_arg10) = W (Proc.devRef .tc main_arg10) := by
  after_results <;> rfl

theorem hostOps3_keep_main_arg11 : after (hostOps3 (F := Ideal)) W (Proc.devRef .tc main_arg11) = W (Proc.devRef .tc main_arg11) := by
  after_results <;> rfl

theorem hostOps3_keep_main_arg12 : after (hostOps3 (F := Ideal)) W (Proc.devRef .tc main_arg12) = W (Proc.devRef .tc main_arg12) := by
  after_results <;> rfl

theorem hostOps4_keep_main_arg2 : after (hostOps4 (F := Ideal)) W (Proc.devRef .tc main_arg2) = W (Proc.devRef .tc main_arg2) := by
  after_results <;> rfl

theorem hostOps4_keep_main_arg3 : after (hostOps4 (F := Ideal)) W (Proc.devRef .tc main_arg3) = W (Proc.devRef .tc main_arg3) := by
  after_results <;> rfl

theorem hostOps4_keep_main_arg9 : after (hostOps4 (F := Ideal)) W (Proc.devRef .tc main_arg9) = W (Proc.devRef .tc main_arg9) := by
  after_results <;> rfl

theorem hostOps4_keep_main_arg10 : after (hostOps4 (F := Ideal)) W (Proc.devRef .tc main_arg10) = W (Proc.devRef .tc main_arg10) := by
  after_results <;> rfl

theorem hostOps4_keep_main_arg11 : after (hostOps4 (F := Ideal)) W (Proc.devRef .tc main_arg11) = W (Proc.devRef .tc main_arg11) := by
  after_results <;> rfl

theorem hostOps4_keep_main_arg12 : after (hostOps4 (F := Ideal)) W (Proc.devRef .tc main_arg12) = W (Proc.devRef .tc main_arg12) := by
  after_results <;> rfl

theorem hostOps4_1_keep_main_arg9 : after (hostOps4_1 (F := Ideal)) W (Proc.devRef .tc main_arg9) = W (Proc.devRef .tc main_arg9) := by
  after_results <;> rfl

theorem hostOps4_1_keep_main_arg11 : after (hostOps4_1 (F := Ideal)) W (Proc.devRef .tc main_arg11) = W (Proc.devRef .tc main_arg11) := by
  after_results <;> rfl

end Cert.KernelIdeal.Stretch

end
-- ==== Proof.Chain.lean ====
/-
  The idealized program's result as one function of its argument arrays.

  The run's buffer contents at each of the eleven segment boundaries are followed from the launch memory: a stretch
  of host operations writes the host functions of what it reads and leaves every other buffer alone; a pallas_call
  leaves in its output array the whole-array function of its operand arrays, its operand arrays as they were, and
  every other buffer as it was. So after the last call the result buffer holds: the head of the graph features built
  from the rectified states of the second recurrent layer, each layer the gated cell of the mean-aggregated product of
  the previous states with the layer's weight.
-/
import proofs.«164312_j77764677862200_1_alg».proof.Proof.Gen.KernelIdeal.Frame
import proofs.«164312_j77764677862200_1_alg».proof.Proof.Blocks
import proofs.«164312_j77764677862200_1_alg».proof.Proof.Stretch

set_option maxRecDepth 16384

noncomputable section

namespace Cert.KernelIdeal.Chain

open Cert.KernelIdeal Cert.KernelIdeal.Gen Cert.KernelIdeal.Glue Cert.KernelIdeal.Blocks Gnn
open Idealize.ShloMosaic Idealize.ShloMosaic.TcCoe Idealize.ShloMosaic.StableHlo Idealize.SL.Sem
open Idealize.ShloMosaic.Pipeline (Dat)

/-! ## The network as a function of the argument arrays -/

/-- The node states after the first layer. -/
def hid1 (x : Arr S100000x15 .f32) (ei : Arr S2x3200000 .i32) (w : Arr S2x15x15 .f32) (wih whh : Arr S45x15 .f32)
    (bih bhh : Arr S45 .f32) : Arr S100000x15 .f32 :=
  gruArr (aggOf (linArr x (w0Of w)) (srcOf ei) (tgtOf ei) (degOf (tgtOf ei))) x wih whh (row45 bih) (row45 bhh)

/-- The node states after the second layer. -/
def hid2 (x : Arr S100000x15 .f32) (ei : Arr S2x3200000 .i32) (w : Arr S2x15x15 .f32) (wih whh : Arr S45x15 .f32)
    (bih bhh : Arr S45 .f32) : Arr S100000x15 .f32 :=
  gruArr (aggOf (linArr (hid1 x ei w wih whh bih bhh) (w1Of w)) (srcOf ei) (tgtOf ei) (degOf (tgtOf ei)))
    (hid1 x ei w wih whh bih bhh) wih whh (row45 bih) (row45 bhh)

/-- The class scores of every graph. -/
def net (x : Arr S100000x15 .f32) (ei : Arr S2x3200000 .i32) (bv : Arr S100000 .i32) (tf : Arr S256x20 .f32)
    (w : Arr S2x15x15 .f32) (wih whh : Arr S45x15 .f32) (bih bhh : Arr S45 .f32) (f1w : Arr S20x35 .f32) (f1b : Arr S20 .f32)
    (f2w : Arr S6x20 .f32) (f2b : Arr S6 .f32) : Arr S256x6 .f32 :=
  headArr (featOf (reluOf (hid2 x ei w wih whh bih bhh)) bv tf) f1w (row20 f1b) f2w (row6 f2b)

variable (m : (ℓ : Loc nD τ sig) → Buf (Elt Ideal) ℓ) (ρ : Dev nD → PrngReg) (c : Dev nD)

/-! ## The intermediate arrays of the run, from the launch memory -/

def V15 : Arr S100000x15 .f32 := linArr (m ((c : Thread nD τ).loc main_arg0)) (w0Of (m ((c : Thread nD τ).loc main_arg4)))
def V27 : Arr S100000x15 .f32 := aggOf (V15 m c) (srcOf (m ((c : Thread nD τ).loc main_arg1))) (tgtOf (m ((c : Thread nD τ).loc main_arg1))) (degOf (tgtOf (m ((c : Thread nD τ).loc main_arg1))))
def V28 : Arr S100000x15 .f32 := gruArr (V27 m c) (m ((c : Thread nD τ).loc main_arg0)) (m ((c : Thread nD τ).loc main_arg5)) (m ((c : Thread nD τ).loc main_arg6)) (row45 (m ((c : Thread nD τ).loc main_arg7))) (row45 (m ((c : Thread nD τ).loc main_arg8)))
def V31 : Arr S100000x15 .f32 := linArr (V28 m c) (w1Of (m ((c : Thread nD τ).loc main_arg4)))
def V43 : Arr S100000x15 .f32 := aggOf (V31 m c) (srcOf (m ((c : Thread nD τ).loc main_arg1))) (tgtOf (m ((c : Thread nD τ).loc main_arg1))) (degOf (tgtOf (m ((c : Thread nD τ).loc main_arg1))))
def V44 : Arr S100000x15 .f32 := gruArr (V43 m c) (V28 m c) (m ((c : Thread nD τ).loc main_arg5)) (m ((c : Thread nD τ).loc main_arg6)) (row45 (m ((c : Thread nD τ).loc main_arg7))) (row45 (m ((c : Thread nD τ).loc main_arg8)))
def V45 : Arr S100000x15 .f32 := reluOf (V44 m c)
def V58 : Arr S256x35 .f32 := featOf (V45 m c) (m ((c : Thread nD τ).loc main_arg2)) (m ((c : Thread nD τ).loc main_arg3))
def V61 : Arr S256x6 .f32 := headArr (V58 m c) (m ((c : Thread nD τ).loc main_arg9)) (row20 (m ((c : Thread nD τ).loc main_arg10))) (m ((c : Thread nD τ).loc main_arg11)) (row6 (m ((c : Thread nD τ).loc main_arg12)))

/-- The last call's output is the network of the arguments. -/
theorem V61_eq : V61 m c = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-! ## Boundary 0: the launch memory -/
theorem at0_main_arg0 : W0 m ρ c (Proc.devRef .tc main_arg0) = (m ((c : Thread nD τ).loc main_arg0)) := rfl
theorem at0_main_arg1 : W0 m ρ c (Proc.devRef .tc main_arg1) = (m ((c : Thread nD τ).loc main_arg1)) := rfl
theorem at0_main_arg2 : W0 m ρ c (Proc.devRef .tc main_arg2) = (m ((c : Thread nD τ).loc main_arg2)) := rfl
theorem at0_main_arg3 : W0 m ρ c (Proc.devRef .tc main_arg3) = (m ((c : Thread nD τ).loc main_arg3)) := rfl
theorem at0_main_arg4 : W0 m ρ c (Proc.devRef .tc main_arg4) = (m ((c : Thread nD τ).loc main_arg4)) := rfl
theorem at0_main_arg5 : W0 m ρ c (Proc.devRef .tc main_arg5) = (m ((c : Thread nD τ).loc main_arg5)) := rfl
theorem at0_main_arg6 : W0 m ρ c (Proc.devRef .tc main_arg6) = (m ((c : Thread nD τ).loc main_arg6)) := rfl
theorem at0_main_arg7 : W0 m ρ c (Proc.devRef .tc main_arg7) = (m ((c : Thread nD τ).loc main_arg7)) := rfl
theorem at0_main_arg8 : W0 m ρ c (Proc.devRef .tc main_arg8) = (m ((c : Thread nD τ).loc main_arg8)) := rfl
theorem at0_main_arg9 : W0 m ρ c (Proc.devRef .tc main_arg9) = (m ((c : Thread nD τ).loc main_arg9)) := rfl
theorem at0_main_arg10 : W0 m ρ c (Proc.devRef .tc main_arg10) = (m ((c : Thread nD τ).loc main_arg10)) := rfl
theorem at0_main_arg11 : W0 m ρ c (Proc.devRef .tc main_arg11) = (m ((c : Thread nD τ).loc main_arg11)) := rfl
theorem at0_main_arg12 : W0 m ρ c (Proc.devRef .tc main_arg12) = (m ((c : Thread nD τ).loc main_arg12)) := rfl

/-! ## Boundary 1: after the host stretch `hostOps0` -/
theorem at1_main_arg0 : W1 m ρ c (Proc.devRef .tc main_arg0) = (m ((c : Thread nD τ).loc main_arg0)) :=
  (Stretch.hostOps0_keep_main_arg0 (W0 m ρ c)).trans (at0_main_arg0 m ρ c)
theorem at1_main_v14 : W1 m ρ c (Proc.devRef .tc main_v14) = (w0Of (m ((c : Thread nD τ).loc main_arg4))) :=
  (Stretch.hostOps0_main_v14 (W0 m ρ c)).trans (by rw [at0_main_arg4 m ρ c] <;> rfl)
theorem at1_main_v1 : W1 m ρ c (Proc.devRef .tc main_v1) = (srcOf (m ((c : Thread nD τ).loc main_arg1))) :=
  (Stretch.hostOps0_main_v1 (W0 m ρ c)).trans (by rw [at0_main_arg1 m ρ c] <;> rfl)
theorem at1_main_v3 : W1 m ρ c (Proc.devRef .tc main_v3) = (tgtOf (m ((c : Thread nD τ).loc main_arg1))) :=
  (Stretch.hostOps0_main_v3 (W0 m ρ c)).trans (by rw [at0_main_arg1 m ρ c] <;> rfl)
theorem at1_main_v10 : W1 m ρ c (Proc.devRef .tc main_v10) = (degOf (tgtOf (m ((c : Thread nD τ).loc main_arg1)))) :=
  (Stretch.hostOps0_main_v10 (W0 m ρ c)).trans (by rw [at0_main_arg1 m ρ c] <;> rfl)
theorem at1_main_arg5 : W1 m ρ c (Proc.devRef .tc main_arg5) = (m ((c : Thread nD τ).loc main_arg5)) :=
  (Stretch.hostOps0_keep_main_arg5 (W0 m ρ c)).trans (at0_main_arg5 m ρ c)
theorem at1_main_arg6 : W1 m ρ c (Proc.devRef .tc main_arg6) = (m ((c : Thread nD τ).loc main_arg6)) :=
  (Stretch.hostOps0_keep_main_arg6 (W0 m ρ c)).trans (at0_main_arg6 m ρ c)
theorem at1_main_v11 : W1 m ρ c (Proc.devRef .tc main_v11) = (row45 (m ((c : Thread nD τ).loc main_arg7))) :=
  (Stretch.hostOps0_main_v11 (W0 m ρ c)).trans (by rw [at0_main_arg7 m ρ c] <;> rfl)
theorem at1_main_v12 : W1 m ρ c (Proc.devRef .tc main_v12) = (row45 (m ((c : Thread nD τ).loc main_arg8))) :=
  (Stretch.hostOps0_main_v12 (W0 m ρ c)).trans (by rw [at0_main_arg8 m ρ c] <;> rfl)
theorem at1_main_arg4 : W1 m ρ c (Proc.devRef .tc main_arg4) = (m ((c : Thread nD τ).loc main_arg4)) :=
  (Stretch.hostOps0_keep_main_arg4 (W0 m ρ c)).trans (at0_main_arg4 m ρ c)
theorem at1_main_arg2 : W1 m ρ c (Proc.devRef .tc main_arg2) = (m ((c : Thread nD τ).loc main_arg2)) :=
  (Stretch.hostOps0_keep_main_arg2 (W0 m ρ c)).trans (at0_main_arg2 m ρ c)
theorem at1_main_arg3 : W1 m ρ c (Proc.devRef .tc main_arg3) = (m ((c : Thread nD τ).loc main_arg3)) :=
  (Stretch.hostOps0_keep_main_arg3 (W0 m ρ c)).trans (at0_main_arg3 m ρ c)
theorem at1_main_arg9 : W1 m ρ c (Proc.devRef .tc main_arg9) = (m ((c : Thread nD τ).loc main_arg9)) :=
  (Stretch.hostOps0_keep_main_arg9 (W0 m ρ c)).trans (at0_main_arg9 m ρ c)
theorem at1_main_arg10 : W1 m ρ c (Proc.devRef .tc main_arg10) = (m ((c : Thread nD τ).loc main_arg10)) :=
  (Stretch.hostOps0_keep_main_arg10 (W0 m ρ c)).trans (at0_main_arg10 m ρ c)
theorem at1_main_arg11 : W1 m ρ c (Proc.devRef .tc main_arg11) = (m ((c : Thread nD τ).loc main_arg11)) :=
  (Stretch.hostOps0_keep_main_arg11 (W0 m ρ c)).trans (at0_main_arg11 m ρ c)
theorem at1_main_arg12 : W1 m ρ c (Proc.devRef .tc main_arg12) = (m ((c : Thread nD τ).loc main_arg12)) :=
  (Stretch.hostOps0_keep_main_arg12 (W0 m ρ c)).trans (at0_main_arg12 m ρ c)

/-! ## Boundary 2: after pallas_call 0 -/
theorem at2_main_v15 : W2 m ρ c (Proc.devRef .tc main_v15) = (V15 m c) :=
  (W2_arr m ρ c 2).trans ((final0 (V1 m ρ) c).trans (by
    show linArr (W1 m ρ c (Proc.devRef .tc main_arg0)) (W1 m ρ c (Proc.devRef .tc main_v14)) = _
    rw [at1_main_arg0 m ρ c, at1_main_v14 m ρ c] <;> rfl))
theorem at2_main_v1 : W2 m ρ c (Proc.devRef .tc main_v1) = (srcOf (m ((c : Thread nD τ).loc main_arg1))) :=
  (W2_of_ne m ρ c main_v1 (by decide)).trans (at1_main_v1 m ρ c)
theorem at2_main_v3 : W2 m ρ c (Proc.devRef .tc main_v3) = (tgtOf (m ((c : Thread nD τ).loc main_arg1))) :=
  (W2_of_ne m ρ c main_v3 (by decide)).trans (at1_main_v3 m ρ c)
theorem at2_main_v10 : W2 m ρ c (Proc.devRef .tc main_v10) = (degOf (tgtOf (m ((c : Thread nD τ).loc main_arg1)))) :=
  (W2_of_ne m ρ c main_v10 (by decide)).trans (at1_main_v10 m ρ c)
theorem at2_main_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (at1_main_arg0 m ρ c)))
theorem at2_main_arg5 : W2 m ρ c (Proc.devRef .tc main_arg5) = (m ((c : Thread nD τ).loc main_arg5)) :=
  (W2_of_ne m ρ c main_arg5 (by decide)).trans (at1_main_arg5 m ρ c)
theorem at2_main_arg6 : W2 m ρ c (Proc.devRef .tc main_arg6) = (m ((c : Thread nD τ).loc main_arg6)) :=
  (W2_of_ne m ρ c main_arg6 (by decide)).trans (at1_main_arg6 m ρ c)
theorem at2_main_v11 : W2 m ρ c (Proc.devRef .tc main_v11) = (row45 (m ((c : Thread nD τ).loc main_arg7))) :=
  (W2_of_ne m ρ c main_v11 (by decide)).trans (at1_main_v11 m ρ c)
theorem at2_main_v12 : W2 m ρ c (Proc.devRef .tc main_v12) = (row45 (m ((c : Thread nD τ).loc main_arg8))) :=
  (W2_of_ne m ρ c main_v12 (by decide)).trans (at1_main_v12 m ρ c)
theorem at2_main_arg4 : W2 m ρ c (Proc.devRef .tc main_arg4) = (m ((c : Thread nD τ).loc main_arg4)) :=
  (W2_of_ne m ρ c main_arg4 (by decide)).trans (at1_main_arg4 m ρ c)
theorem at2_main_arg2 : W2 m ρ c (Proc.devRef .tc main_arg2) = (m ((c : Thread nD τ).loc main_arg2)) :=
  (W2_of_ne m ρ c main_arg2 (by decide)).trans (at1_main_arg2 m ρ c)
theorem at2_main_arg3 : W2 m ρ c (Proc.devRef .tc main_arg3) = (m ((c : Thread nD τ).loc main_arg3)) :=
  (W2_of_ne m ρ c main_arg3 (by decide)).trans (at1_main_arg3 m ρ c)
theorem at2_main_arg9 : W2 m ρ c (Proc.devRef .tc main_arg9) = (m ((c : Thread nD τ).loc main_arg9)) :=
  (W2_of_ne m ρ c main_arg9 (by decide)).trans (at1_main_arg9 m ρ c)
theorem at2_main_arg10 : W2 m ρ c (Proc.devRef .tc main_arg10) = (m ((c : Thread nD τ).loc main_arg10)) :=
  (W2_of_ne m ρ c main_arg10 (by decide)).trans (at1_main_arg10 m ρ c)
theorem at2_main_arg11 : W2 m ρ c (Proc.devRef .tc main_arg11) = (m ((c : Thread nD τ).loc main_arg11)) :=
  (W2_of_ne m ρ c main_arg11 (by decide)).trans (at1_main_arg11 m ρ c)
theorem at2_main_arg12 : W2 m ρ c (Proc.devRef .tc main_arg12) = (m ((c : Thread nD τ).loc main_arg12)) :=
  (W2_of_ne m ρ c main_arg12 (by decide)).trans (at1_main_arg12 m ρ c)

/-! ## Boundary 3: after the host stretch `hostOps1` -/
theorem at3_main_v27 : W3 m ρ c (Proc.devRef .tc main_v27) = (V27 m c) :=
  (Stretch.hostOps1_main_v27 (W2 m ρ c)).trans (by rw [at2_main_v15 m ρ c, at2_main_v1 m ρ c, at2_main_v3 m ρ c, at2_main_v10 m ρ c] <;> rfl)
theorem at3_main_arg0 : W3 m ρ c (Proc.devRef .tc main_arg0) = (m ((c : Thread nD τ).loc main_arg0)) :=
  (Stretch.hostOps1_keep_main_arg0 (W2 m ρ c)).trans (at2_main_arg0 m ρ c)
theorem at3_main_arg5 : W3 m ρ c (Proc.devRef .tc main_arg5) = (m ((c : Thread nD τ).loc main_arg5)) :=
  (Stretch.hostOps1_keep_main_arg5 (W2 m ρ c)).trans (at2_main_arg5 m ρ c)
theorem at3_main_arg6 : W3 m ρ c (Proc.devRef .tc main_arg6) = (m ((c : Thread nD τ).loc main_arg6)) :=
  (Stretch.hostOps1_keep_main_arg6 (W2 m ρ c)).trans (at2_main_arg6 m ρ c)
theorem at3_main_v11 : W3 m ρ c (Proc.devRef .tc main_v11) = (row45 (m ((c : Thread nD τ).loc main_arg7))) :=
  (Stretch.hostOps1_keep_main_v11 (W2 m ρ c)).trans (at2_main_v11 m ρ c)
theorem at3_main_v12 : W3 m ρ c (Proc.devRef .tc main_v12) = (row45 (m ((c : Thread nD τ).loc main_arg8))) :=
  (Stretch.hostOps1_keep_main_v12 (W2 m ρ c)).trans (at2_main_v12 m ρ c)
theorem at3_main_arg4 : W3 m ρ c (Proc.devRef .tc main_arg4) = (m ((c : Thread nD τ).loc main_arg4)) :=
  (Stretch.hostOps1_keep_main_arg4 (W2 m ρ c)).trans (at2_main_arg4 m ρ c)
theorem at3_main_v1 : W3 m ρ c (Proc.devRef .tc main_v1) = (srcOf (m ((c : Thread nD τ).loc main_arg1))) :=
  (Stretch.hostOps1_keep_main_v1 (W2 m ρ c)).trans (at2_main_v1 m ρ c)
theorem at3_main_v3 : W3 m ρ c (Proc.devRef .tc main_v3) = (tgtOf (m ((c : Thread nD τ).loc main_arg1))) :=
  (Stretch.hostOps1_keep_main_v3 (W2 m ρ c)).trans (at2_main_v3 m ρ c)
theorem at3_main_v10 : W3 m ρ c (Proc.devRef .tc main_v10) = (degOf (tgtOf (m ((c : Thread nD τ).loc main_arg1)))) :=
  (Stretch.hostOps1_keep_main_v10 (W2 m ρ c)).trans (at2_main_v10 m ρ c)
theorem at3_main_arg2 : W3 m ρ c (Proc.devRef .tc main_arg2) = (m ((c : Thread nD τ).loc main_arg2)) :=
  (Stretch.hostOps1_keep_main_arg2 (W2 m ρ c)).trans (at2_main_arg2 m ρ c)
theorem at3_main_arg3 : W3 m ρ c (Proc.devRef .tc main_arg3) = (m ((c : Thread nD τ).loc main_arg3)) :=
  (Stretch.hostOps1_keep_main_arg3 (W2 m ρ c)).trans (at2_main_arg3 m ρ c)
theorem at3_main_arg9 : W3 m ρ c (Proc.devRef .tc main_arg9) = (m ((c : Thread nD τ).loc main_arg9)) :=
  (Stretch.hostOps1_keep_main_arg9 (W2 m ρ c)).trans (at2_main_arg9 m ρ c)
theorem at3_main_arg10 : W3 m ρ c (Proc.devRef .tc main_arg10) = (m ((c : Thread nD τ).loc main_arg10)) :=
  (Stretch.hostOps1_keep_main_arg10 (W2 m ρ c)).trans (at2_main_arg10 m ρ c)
theorem at3_main_arg11 : W3 m ρ c (Proc.devRef .tc main_arg11) = (m ((c : Thread nD τ).loc main_arg11)) :=
  (Stretch.hostOps1_keep_main_arg11 (W2 m ρ c)).trans (at2_main_arg11 m ρ c)
theorem at3_main_arg12 : W3 m ρ c (Proc.devRef .tc main_arg12) = (m ((c : Thread nD τ).loc main_arg12)) :=
  (Stretch.hostOps1_keep_main_arg12 (W2 m ρ c)).trans (at2_main_arg12 m ρ c)

/-! ## Boundary 4: after pallas_call 1 -/
theorem at4_main_arg4 : W4 m ρ c (Proc.devRef .tc main_arg4) = (m ((c : Thread nD τ).loc main_arg4)) :=
  (W4_of_ne m ρ c main_arg4 (by decide)).trans (at3_main_arg4 m ρ c)
theorem at4_main_v28 : W4 m ρ c (Proc.devRef .tc main_v28) = (V28 m c) :=
  (W4_arr m ρ c 6).trans ((final1 (V3 m ρ) c).trans (by
    show gruArr (W3 m ρ c (Proc.devRef .tc main_v27)) (W3 m ρ c (Proc.devRef .tc main_arg0)) (W3 m ρ c (Proc.devRef .tc main_arg5)) (W3 m ρ c (Proc.devRef .tc main_arg6)) (W3 m ρ c (Proc.devRef .tc main_v11)) (W3 m ρ c (Proc.devRef .tc main_v12)) = _
    rw [at3_main_v27 m ρ c, at3_main_arg0 m ρ c, at3_main_arg5 m ρ c, at3_main_arg6 m ρ c, at3_main_v11 m ρ c, at3_main_v12 m ρ c] <;> rfl))
theorem at4_main_v1 : W4 m ρ c (Proc.devRef .tc main_v1) = (srcOf (m ((c : Thread nD τ).loc main_arg1))) :=
  (W4_of_ne m ρ c main_v1 (by decide)).trans (at3_main_v1 m ρ c)
theorem at4_main_v3 : W4 m ρ c (Proc.devRef .tc main_v3) = (tgtOf (m ((c : Thread nD τ).loc main_arg1))) :=
  (W4_of_ne m ρ c main_v3 (by decide)).trans (at3_main_v3 m ρ c)
theorem at4_main_v10 : W4 m ρ c (Proc.devRef .tc main_v10) = (degOf (tgtOf (m ((c : Thread nD τ).loc main_arg1)))) :=
  (W4_of_ne m ρ c main_v10 (by decide)).trans (at3_main_v10 m ρ c)
theorem at4_main_arg5 : W4 m ρ c (Proc.devRef .tc main_arg5) = (m ((c : Thread nD τ).loc main_arg5)) :=
  (W4_arr m ρ c 2).trans (((dat1 (V3 m ρ) c).arrAt_in 2 rfl _).trans ((A_eq1 (V3 m ρ) c 2).trans (at3_main_arg5 m ρ c)))
theorem at4_main_arg6 : W4 m ρ c (Proc.devRef .tc main_arg6) = (m ((c : Thread nD τ).loc main_arg6)) :=
  (W4_arr m ρ c 3).trans (((dat1 (V3 m ρ) c).arrAt_in 3 rfl _).trans ((A_eq1 (V3 m ρ) c 3).trans (at3_main_arg6 m ρ c)))
theorem at4_main_v11 : W4 m ρ c (Proc.devRef .tc main_v11) = (row45 (m ((c : Thread nD τ).loc main_arg7))) :=
  (W4_arr m ρ c 4).trans (((dat1 (V3 m ρ) c).arrAt_in 4 rfl _).trans ((A_eq1 (V3 m ρ) c 4).trans (at3_main_v11 m ρ c)))
theorem at4_main_v12 : W4 m ρ c (Proc.devRef .tc main_v12) = (row45 (m ((c : Thread nD τ).loc main_arg8))) :=
  (W4_arr m ρ c 5).trans (((dat1 (V3 m ρ) c).arrAt_in 5 rfl _).trans ((A_eq1 (V3 m ρ) c 5).trans (at3_main_v12 m ρ c)))
theorem at4_main_arg2 : W4 m ρ c (Proc.devRef .tc main_arg2) = (m ((c : Thread nD τ).loc main_arg2)) :=
  (W4_of_ne m ρ c main_arg2 (by decide)).trans (at3_main_arg2 m ρ c)
theorem at4_main_arg3 : W4 m ρ c (Proc.devRef .tc main_arg3) = (m ((c : Thread nD τ).loc main_arg3)) :=
  (W4_of_ne m ρ c main_arg3 (by decide)).trans (at3_main_arg3 m ρ c)
theorem at4_main_arg9 : W4 m ρ c (Proc.devRef .tc main_arg9) = (m ((c : Thread nD τ).loc main_arg9)) :=
  (W4_of_ne m ρ c main_arg9 (by decide)).trans (at3_main_arg9 m ρ c)
theorem at4_main_arg10 : W4 m ρ c (Proc.devRef .tc main_arg10) = (m ((c : Thread nD τ).loc main_arg10)) :=
  (W4_of_ne m ρ c main_arg10 (by decide)).trans (at3_main_arg10 m ρ c)
theorem at4_main_arg11 : W4 m ρ c (Proc.devRef .tc main_arg11) = (m ((c : Thread nD τ).loc main_arg11)) :=
  (W4_of_ne m ρ c main_arg11 (by decide)).trans (at3_main_arg11 m ρ c)
theorem at4_main_arg12 : W4 m ρ c (Proc.devRef .tc main_arg12) = (m ((c : Thread nD τ).loc main_arg12)) :=
  (W4_of_ne m ρ c main_arg12 (by decide)).trans (at3_main_arg12 m ρ c)

/-! ## Boundary 5: after the host stretch `hostOps2` -/
theorem at5_main_v28 : W5 m ρ c (Proc.devRef .tc main_v28) = (V28 m c) :=
  (Stretch.hostOps2_keep_main_v28 (W4 m ρ c)).trans (at4_main_v28 m ρ c)
theorem at5_main_v30 : W5 m ρ c (Proc.devRef .tc main_v30) = (w1Of (m ((c : Thread nD τ).loc main_arg4))) :=
  (Stretch.hostOps2_main_v30 (W4 m ρ c)).trans (by rw [at4_main_arg4 m ρ c] <;> rfl)
theorem at5_main_v1 : W5 m ρ c (Proc.devRef .tc main_v1) = (srcOf (m ((c : Thread nD τ).loc main_arg1))) :=
  (Stretch.hostOps2_keep_main_v1 (W4 m ρ c)).trans (at4_main_v1 m ρ c)
theorem at5_main_v3 : W5 m ρ c (Proc.devRef .tc main_v3) = (tgtOf (m ((c : Thread nD τ).loc main_arg1))) :=
  (Stretch.hostOps2_keep_main_v3 (W4 m ρ c)).trans (at4_main_v3 m ρ c)
theorem at5_main_v10 : W5 m ρ c (Proc.devRef .tc main_v10) = (degOf (tgtOf (m ((c : Thread nD τ).loc main_arg1)))) :=
  (Stretch.hostOps2_keep_main_v10 (W4 m ρ c)).trans (at4_main_v10 m ρ c)
theorem at5_main_arg5 : W5 m ρ c (Proc.devRef .tc main_arg5) = (m ((c : Thread nD τ).loc main_arg5)) :=
  (Stretch.hostOps2_keep_main_arg5 (W4 m ρ c)).trans (at4_main_arg5 m ρ c)
theorem at5_main_arg6 : W5 m ρ c (Proc.devRef .tc main_arg6) = (m ((c : Thread nD τ).loc main_arg6)) :=
  (Stretch.hostOps2_keep_main_arg6 (W4 m ρ c)).trans (at4_main_arg6 m ρ c)
theorem at5_main_v11 : W5 m ρ c (Proc.devRef .tc main_v11) = (row45 (m ((c : Thread nD τ).loc main_arg7))) :=
  (Stretch.hostOps2_keep_main_v11 (W4 m ρ c)).trans (at4_main_v11 m ρ c)
theorem at5_main_v12 : W5 m ρ c (Proc.devRef .tc main_v12) = (row45 (m ((c : Thread nD τ).loc main_arg8))) :=
  (Stretch.hostOps2_keep_main_v12 (W4 m ρ c)).trans (at4_main_v12 m ρ c)
theorem at5_main_arg2 : W5 m ρ c (Proc.devRef .tc main_arg2) = (m ((c : Thread nD τ).loc main_arg2)) :=
  (Stretch.hostOps2_keep_main_arg2 (W4 m ρ c)).trans (at4_main_arg2 m ρ c)
theorem at5_main_arg3 : W5 m ρ c (Proc.devRef .tc main_arg3) = (m ((c : Thread nD τ).loc main_arg3)) :=
  (Stretch.hostOps2_keep_main_arg3 (W4 m ρ c)).trans (at4_main_arg3 m ρ c)
theorem at5_main_arg9 : W5 m ρ c (Proc.devRef .tc main_arg9) = (m ((c : Thread nD τ).loc main_arg9)) :=
  (Stretch.hostOps2_keep_main_arg9 (W4 m ρ c)).trans (at4_main_arg9 m ρ c)
theorem at5_main_arg10 : W5 m ρ c (Proc.devRef .tc main_arg10) = (m ((c : Thread nD τ).loc main_arg10)) :=
  (Stretch.hostOps2_keep_main_arg10 (W4 m ρ c)).trans (at4_main_arg10 m ρ c)
theorem at5_main_arg11 : W5 m ρ c (Proc.devRef .tc main_arg11) = (m ((c : Thread nD τ).loc main_arg11)) :=
  (Stretch.hostOps2_keep_main_arg11 (W4 m ρ c)).trans (at4_main_arg11 m ρ c)
theorem at5_main_arg12 : W5 m ρ c (Proc.devRef .tc main_arg12) = (m ((c : Thread nD τ).loc main_arg12)) :=
  (Stretch.hostOps2_keep_main_arg12 (W4 m ρ c)).trans (at4_main_arg12 m ρ c)

/-! ## Boundary 6: after pallas_call 2 -/
theorem at6_main_v31 : W6 m ρ c (Proc.devRef .tc main_v31) = (V31 m c) :=
  (W6_arr m ρ c 2).trans ((final2 (V5 m ρ) c).trans (by
    show linArr (W5 m ρ c (Proc.devRef .tc main_v28)) (W5 m ρ c (Proc.devRef .tc main_v30)) = _
    rw [at5_main_v28 m ρ c, at5_main_v30 m ρ c] <;> rfl))
theorem at6_main_v1 : W6 m ρ c (Proc.devRef .tc main_v1) = (srcOf (m ((c : Thread nD τ).loc main_arg1))) :=
  (W6_of_ne m ρ c main_v1 (by decide)).trans (at5_main_v1 m ρ c)
theorem at6_main_v3 : W6 m ρ c (Proc.devRef .tc main_v3) = (tgtOf (m ((c : Thread nD τ).loc main_arg1))) :=
  (W6_of_ne m ρ c main_v3 (by decide)).trans (at5_main_v3 m ρ c)
theorem at6_main_v10 : W6 m ρ c (Proc.devRef .tc main_v10) = (degOf (tgtOf (m ((c : Thread nD τ).loc main_arg1)))) :=
  (W6_of_ne m ρ c main_v10 (by decide)).trans (at5_main_v10 m ρ c)
theorem at6_main_v28 : W6 m ρ c (Proc.devRef .tc main_v28) = (V28 m c) :=
  (W6_arr m ρ c 0).trans (((dat2 (V5 m ρ) c).arrAt_in 0 rfl _).trans ((A_eq2 (V5 m ρ) c 0).trans (at5_main_v28 m ρ c)))
theorem at6_main_arg5 : W6 m ρ c (Proc.devRef .tc main_arg5) = (m ((c : Thread nD τ).loc main_arg5)) :=
  (W6_of_ne m ρ c main_arg5 (by decide)).trans (at5_main_arg5 m ρ c)
theorem at6_main_arg6 : W6 m ρ c (Proc.devRef .tc main_arg6) = (m ((c : Thread nD τ).loc main_arg6)) :=
  (W6_of_ne m ρ c main_arg6 (by decide)).trans (at5_main_arg6 m ρ c)
theorem at6_main_v11 : W6 m ρ c (Proc.devRef .tc main_v11) = (row45 (m ((c : Thread nD τ).loc main_arg7))) :=
  (W6_of_ne m ρ c main_v11 (by decide)).trans (at5_main_v11 m ρ c)
theorem at6_main_v12 : W6 m ρ c (Proc.devRef .tc main_v12) = (row45 (m ((c : Thread nD τ).loc main_arg8))) :=
  (W6_of_ne m ρ c main_v12 (by decide)).trans (at5_main_v12 m ρ c)
theorem at6_main_arg2 : W6 m ρ c (Proc.devRef .tc main_arg2) = (m ((c : Thread nD τ).loc main_arg2)) :=
  (W6_of_ne m ρ c main_arg2 (by decide)).trans (at5_main_arg2 m ρ c)
theorem at6_main_arg3 : W6 m ρ c (Proc.devRef .tc main_arg3) = (m ((c : Thread nD τ).loc main_arg3)) :=
  (W6_of_ne m ρ c main_arg3 (by decide)).trans (at5_main_arg3 m ρ c)
theorem at6_main_arg9 : W6 m ρ c (Proc.devRef .tc main_arg9) = (m ((c : Thread nD τ).loc main_arg9)) :=
  (W6_of_ne m ρ c main_arg9 (by decide)).trans (at5_main_arg9 m ρ c)
theorem at6_main_arg10 : W6 m ρ c (Proc.devRef .tc main_arg10) = (m ((c : Thread nD τ).loc main_arg10)) :=
  (W6_of_ne m ρ c main_arg10 (by decide)).trans (at5_main_arg10 m ρ c)
theorem at6_main_arg11 : W6 m ρ c (Proc.devRef .tc main_arg11) = (m ((c : Thread nD τ).loc main_arg11)) :=
  (W6_of_ne m ρ c main_arg11 (by decide)).trans (at5_main_arg11 m ρ c)
theorem at6_main_arg12 : W6 m ρ c (Proc.devRef .tc main_arg12) = (m ((c : Thread nD τ).loc main_arg12)) :=
  (W6_of_ne m ρ c main_arg12 (by decide)).trans (at5_main_arg12 m ρ c)

/-! ## Boundary 7: after the host stretch `hostOps3` -/
theorem at7_main_v43 : W7 m ρ c (Proc.devRef .tc main_v43) = (V43 m c) :=
  (Stretch.hostOps3_main_v43 (W6 m ρ c)).trans (by rw [at6_main_v31 m ρ c, at6_main_v1 m ρ c, at6_main_v3 m ρ c, at6_main_v10 m ρ c] <;> rfl)
theorem at7_main_v28 : W7 m ρ c (Proc.devRef .tc main_v28) = (V28 m c) :=
  (Stretch.hostOps3_keep_main_v28 (W6 m ρ c)).trans (at6_main_v28 m ρ c)
theorem at7_main_arg5 : W7 m ρ c (Proc.devRef .tc main_arg5) = (m ((c : Thread nD τ).loc main_arg5)) :=
  (Stretch.hostOps3_keep_main_arg5 (W6 m ρ c)).trans (at6_main_arg5 m ρ c)
theorem at7_main_arg6 : W7 m ρ c (Proc.devRef .tc main_arg6) = (m ((c : Thread nD τ).loc main_arg6)) :=
  (Stretch.hostOps3_keep_main_arg6 (W6 m ρ c)).trans (at6_main_arg6 m ρ c)
theorem at7_main_v11 : W7 m ρ c (Proc.devRef .tc main_v11) = (row45 (m ((c : Thread nD τ).loc main_arg7))) :=
  (Stretch.hostOps3_keep_main_v11 (W6 m ρ c)).trans (at6_main_v11 m ρ c)
theorem at7_main_v12 : W7 m ρ c (Proc.devRef .tc main_v12) = (row45 (m ((c : Thread nD τ).loc main_arg8))) :=
  (Stretch.hostOps3_keep_main_v12 (W6 m ρ c)).trans (at6_main_v12 m ρ c)
theorem at7_main_arg2 : W7 m ρ c (Proc.devRef .tc main_arg2) = (m ((c : Thread nD τ).loc main_arg2)) :=
  (Stretch.hostOps3_keep_main_arg2 (W6 m ρ c)).trans (at6_main_arg2 m ρ c)
theorem at7_main_arg3 : W7 m ρ c (Proc.devRef .tc main_arg3) = (m ((c : Thread nD τ).loc main_arg3)) :=
  (Stretch.hostOps3_keep_main_arg3 (W6 m ρ c)).trans (at6_main_arg3 m ρ c)
theorem at7_main_arg9 : W7 m ρ c (Proc.devRef .tc main_arg9) = (m ((c : Thread nD τ).loc main_arg9)) :=
  (Stretch.hostOps3_keep_main_arg9 (W6 m ρ c)).trans (at6_main_arg9 m ρ c)
theorem at7_main_arg10 : W7 m ρ c (Proc.devRef .tc main_arg10) = (m ((c : Thread nD τ).loc main_arg10)) :=
  (Stretch.hostOps3_keep_main_arg10 (W6 m ρ c)).trans (at6_main_arg10 m ρ c)
theorem at7_main_arg11 : W7 m ρ c (Proc.devRef .tc main_arg11) = (m ((c : Thread nD τ).loc main_arg11)) :=
  (Stretch.hostOps3_keep_main_arg11 (W6 m ρ c)).trans (at6_main_arg11 m ρ c)
theorem at7_main_arg12 : W7 m ρ c (Proc.devRef .tc main_arg12) = (m ((c : Thread nD τ).loc main_arg12)) :=
  (Stretch.hostOps3_keep_main_arg12 (W6 m ρ c)).trans (at6_main_arg12 m ρ c)

/-! ## Boundary 8: after pallas_call 3 -/
theorem at8_main_v44 : W8 m ρ c (Proc.devRef .tc main_v44) = (V44 m c) :=
  (W8_arr m ρ c 6).trans ((final3 (V7 m ρ) c).trans (by
    show gruArr (W7 m ρ c (Proc.devRef .tc main_v43)) (W7 m ρ c (Proc.devRef .tc main_v28)) (W7 m ρ c (Proc.devRef .tc main_arg5)) (W7 m ρ c (Proc.devRef .tc main_arg6)) (W7 m ρ c (Proc.devRef .tc main_v11)) (W7 m ρ c (Proc.devRef .tc main_v12)) = _
    rw [at7_main_v43 m ρ c, at7_main_v28 m ρ c, at7_main_arg5 m ρ c, at7_main_arg6 m ρ c, at7_main_v11 m ρ c, at7_main_v12 m ρ c] <;> rfl))
theorem at8_main_arg2 : W8 m ρ c (Proc.devRef .tc main_arg2) = (m ((c : Thread nD τ).loc main_arg2)) :=
  (W8_of_ne m ρ c main_arg2 (by decide)).trans (at7_main_arg2 m ρ c)
theorem at8_main_arg3 : W8 m ρ c (Proc.devRef .tc main_arg3) = (m ((c : Thread nD τ).loc main_arg3)) :=
  (W8_of_ne m ρ c main_arg3 (by decide)).trans (at7_main_arg3 m ρ c)
theorem at8_main_arg9 : W8 m ρ c (Proc.devRef .tc main_arg9) = (m ((c : Thread nD τ).loc main_arg9)) :=
  (W8_of_ne m ρ c main_arg9 (by decide)).trans (at7_main_arg9 m ρ c)
theorem at8_main_arg10 : W8 m ρ c (Proc.devRef .tc main_arg10) = (m ((c : Thread nD τ).loc main_arg10)) :=
  (W8_of_ne m ρ c main_arg10 (by decide)).trans (at7_main_arg10 m ρ c)
theorem at8_main_arg11 : W8 m ρ c (Proc.devRef .tc main_arg11) = (m ((c : Thread nD τ).loc main_arg11)) :=
  (W8_of_ne m ρ c main_arg11 (by decide)).trans (at7_main_arg11 m ρ c)
theorem at8_main_arg12 : W8 m ρ c (Proc.devRef .tc main_arg12) = (m ((c : Thread nD τ).loc main_arg12)) :=
  (W8_of_ne m ρ c main_arg12 (by decide)).trans (at7_main_arg12 m ρ c)

/-! ## Boundary 9: after the host stretch `hostOps4` -/
theorem at9_main_v45 : W9 m ρ c (Proc.devRef .tc main_v45) = (V45 m c) :=
  (Stretch.hostOps4_main_v45 (W8 m ρ c)).trans (by rw [at8_main_v44 m ρ c] <;> rfl)
theorem at9_main_arg2 : W9 m ρ c (Proc.devRef .tc main_arg2) = (m ((c : Thread nD τ).loc main_arg2)) :=
  (Stretch.hostOps4_keep_main_arg2 (W8 m ρ c)).trans (at8_main_arg2 m ρ c)
theorem at9_main_arg3 : W9 m ρ c (Proc.devRef .tc main_arg3) = (m ((c : Thread nD τ).loc main_arg3)) :=
  (Stretch.hostOps4_keep_main_arg3 (W8 m ρ c)).trans (at8_main_arg3 m ρ c)
theorem at9_main_arg9 : W9 m ρ c (Proc.devRef .tc main_arg9) = (m ((c : Thread nD τ).loc main_arg9)) :=
  (Stretch.hostOps4_keep_main_arg9 (W8 m ρ c)).trans (at8_main_arg9 m ρ c)
theorem at9_main_arg10 : W9 m ρ c (Proc.devRef .tc main_arg10) = (m ((c : Thread nD τ).loc main_arg10)) :=
  (Stretch.hostOps4_keep_main_arg10 (W8 m ρ c)).trans (at8_main_arg10 m ρ c)
theorem at9_main_arg11 : W9 m ρ c (Proc.devRef .tc main_arg11) = (m ((c : Thread nD τ).loc main_arg11)) :=
  (Stretch.hostOps4_keep_main_arg11 (W8 m ρ c)).trans (at8_main_arg11 m ρ c)
theorem at9_main_arg12 : W9 m ρ c (Proc.devRef .tc main_arg12) = (m ((c : Thread nD τ).loc main_arg12)) :=
  (Stretch.hostOps4_keep_main_arg12 (W8 m ρ c)).trans (at8_main_arg12 m ρ c)

/-! ## Boundary 10: after the host stretch `hostOps4_1` -/
theorem at10_main_v58 : W10 m ρ c (Proc.devRef .tc main_v58) = (V58 m c) :=
  (Stretch.hostOps4_1_main_v58 (W9 m ρ c)).trans (by rw [at9_main_v45 m ρ c, at9_main_arg2 m ρ c, at9_main_arg3 m ρ c] <;> rfl)
theorem at10_main_arg9 : W10 m ρ c (Proc.devRef .tc main_arg9) = (m ((c : Thread nD τ).loc main_arg9)) :=
  (Stretch.hostOps4_1_keep_main_arg9 (W9 m ρ c)).trans (at9_main_arg9 m ρ c)
theorem at10_main_v59 : W10 m ρ c (Proc.devRef .tc main_v59) = (row20 (m ((c : Thread nD τ).loc main_arg10))) :=
  (Stretch.hostOps4_1_main_v59 (W9 m ρ c)).trans (by rw [at9_main_arg10 m ρ c] <;> rfl)
theorem at10_main_arg11 : W10 m ρ c (Proc.devRef .tc main_arg11) = (m ((c : Thread nD τ).loc main_arg11)) :=
  (Stretch.hostOps4_1_keep_main_arg11 (W9 m ρ c)).trans (at9_main_arg11 m ρ c)
theorem at10_main_v60 : W10 m ρ c (Proc.devRef .tc main_v60) = (row6 (m ((c : Thread nD τ).loc main_arg12))) :=
  (Stretch.hostOps4_1_main_v60 (W9 m ρ c)).trans (by rw [at9_main_arg12 m ρ c] <;> rfl)

/-! ## Boundary 11: after pallas_call 4 -/
theorem at11_main_v61 : W11 m ρ c (Proc.devRef .tc main_v61) = (V61 m c) :=
  (W11_arr m ρ c 5).trans ((final4 (V10 m ρ) c).trans (by
    show headArr (W10 m ρ c (Proc.devRef .tc main_v58)) (W10 m ρ c (Proc.devRef .tc main_arg9)) (W10 m ρ c (Proc.devRef .tc main_v59)) (W10 m ρ c (Proc.devRef .tc main_arg11)) (W10 m ρ c (Proc.devRef .tc main_v60)) = _
    rw [at10_main_v58 m ρ c, at10_main_arg9 m ρ c, at10_main_v59 m ρ c, at10_main_arg11 m ρ c, at10_main_v60 m ρ c] <;> rfl))

/-- What the result buffer holds at the last boundary: the network of the launch contents of the arguments. -/
theorem result_eq : W11 m ρ c (Proc.devRef .tc main_v61)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (at11_main_v61 m ρ c).trans (V61_eq m c)

end Cert.KernelIdeal.Chain

end
-- ==== Proof.RefStages.lean ====
/-
  The reference's dense stages as whole arrays, and each equal to the whole-array function of the entry formulas.

  hostLin is the dot_general of the states with a layer's weight; hostGru the recurrent cell in the host's spelling
  (dot_generals against the transposed gate weights, the bias vectors spread in two steps, three column slices of
  each gate matrix, the logistic function spelt 1 / (1 + exp (−x))); hostHead the two-layer head followed by
  jax.nn.log_softmax's operations. Entry by entry they are lin, gruEntry and lsm ∘ logit of the operands' rows, the
  bias vectors read through their one-row views.
-/
import proofs.«164312_j77764677862200_1_alg».proof.Proof.Gen.ReferenceIdeal
import proofs.«164312_j77764677862200_1_alg».proof.Proof.Spec
import proofs.«164312_j77764677862200_1_alg».proof.Proof.Glue

noncomputable section

open scoped BigOperators

namespace Cert.ReferenceIdeal.Stages

open Cert.ReferenceIdeal Cert.ReferenceIdeal.Facts₀ Idealize.ShloMosaic Idealize.ShloMosaic.ValueIdx Gnn
open Cert.KernelIdeal.Glue (row45 row20 row6)

/-- The layer product contracts the states' columns with the weight's rows. -/
theorem plain_lin : DenseVec.Plain dot_S100000x15_S15x15_S100000x15_1_0_0_1_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The gate products contract the rows' 15 entries with the transposed weight's rows. -/
theorem plain_gates : DenseVec.Plain dot_S100000x15_S15x45_S100000x45_1_0_0_1_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The head's first product. -/
theorem plain_fc1 : DenseVec.Plain dot_S256x35_S35x20_S256x20_1_0_0_1_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The head's second product. -/
theorem plain_fc2 : DenseVec.Plain dot_S256x20_S20x6_S256x6_1_0_0_1_n_n where
  rank := rfl
  size := fun _ => rfl
  lhs := rfl
  rhs := rfl
  row := by
    intro j q
    unfold DotDims.lhsIdx
    rw [dif_neg (by decide), dif_pos (by decide)]
    rfl
  col := by
    intro j q
    unfold DotDims.rhsIdx
    rw [dif_neg (by decide), dif_pos (by decide)]
    rfl

/-- The states times a layer's weight. -/
def hostLin (x : FVec Ideal S100000x15 .f32) (w : FVec Ideal S15x15 .f32) : FVec Ideal S100000x15 .f32 :=
  Host.dotGeneral (F := Ideal) dot_S100000x15_S15x15_S100000x15_1_0_0_1_n_n none x w

/-- A gate matrix: the rows against the transposed output-major weight, plus the bias spread down the rows. -/
def hostGates (x : FVec Ideal S100000x15 .f32) (w : FVec Ideal S45x15 .f32) (b : FVec Ideal S45 .f32) : FVec Ideal S100000x45 .f32 :=
  addf (Host.dotGeneral (F := Ideal) dot_S100000x15_S15x45_S100000x45_1_0_0_1_n_n none x (transpose S15x45 [1, 0] w transposes_S45x15_S15x45_1_0))
    (broadcastInDim S100000x45 ![0, 1] bcast_S1x45_S100000x45_0_1 (broadcastInDim S1x45 ![1] bcast_S45_S1x45_1 b))

/-- The cell from the two gate matrices and the state. -/
def hostCell (gi gh : FVec Ideal S100000x45 .f32) (h : FVec Ideal S100000x15 .f32) : FVec Ideal S100000x15 .f32 :=
  addf (mulf (subf (broadcastInDim S100000x15 ![] bcast_S_S100000x15 (constant (F := Ideal) S_ .f32 0x3F800000#32)) (Host.divf (F := Ideal) (broadcastInDim S100000x15 ![] bcast_S_S100000x15 (constant (F := Ideal) S_ .f32 0x3F800000#32)) (addf (broadcastInDim S100000x15 ![] bcast_S_S100000x15 (constant (F := Ideal) S_ .f32 0x3F800000#32)) (Host.exp (F := Ideal) (Host.negf (F := Ideal) (addf (extractStridedSlice S100000x15 ![0, 15] gi slices_S100000x45_S100000x15_0_15) (extractStridedSlice S100000x15 ![0, 15] gh slices_S100000x45_S100000x15_0_15)))))))
      (Host.tanh (F := Ideal) (addf (extractStridedSlice S100000x15 ![0, 30] gi slices_S100000x45_S100000x15_0_30) (mulf (Host.divf (F := Ideal) (broadcastInDim S100000x15 ![] bcast_S_S100000x15 (constant (F := Ideal) S_ .f32 0x3F800000#32)) (addf (broadcastInDim S100000x15 ![] bcast_S_S100000x15 (constant (F := Ideal) S_ .f32 0x3F800000#32)) (Host.exp (F := Ideal) (Host.negf (F := Ideal) (addf (extractStridedSlice S100000x15 ![0, 0] gi slices_S100000x45_S100000x15_0_0) (extractStridedSlice S100000x15 ![0, 0] gh slices_S100000x45_S100000x15_0_0)))))) (extractStridedSlice S100000x15 ![0, 30] gh slices_S100000x45_S100000x15_0_30)))))
    (mulf (Host.divf (F := Ideal) (broadcastInDim S100000x15 ![] bcast_S_S100000x15 (constant (F := Ideal) S_ .f32 0x3F800000#32)) (addf (broadcastInDim S100000x15 ![] bcast_S_S100000x15 (constant (F := Ideal) S_ .f32 0x3F800000#32)) (Host.exp (F := Ideal) (Host.negf (F := Ideal) (addf (extractStridedSlice S100000x15 ![0, 15] gi slices_S100000x45_S100000x15_0_15) (extractStridedSlice S100000x15 ![0, 15] gh slices_S100000x45_S100000x15_0_15)))))) h)

/-- The recurrent cell of every node in the host's spelling. -/
def hostGru (a h : FVec Ideal S100000x15 .f32) (wih whh : FVec Ideal S45x15 .f32) (bih bhh : FVec Ideal S45 .f32) :
    FVec Ideal S100000x15 .f32 :=
  hostCell (hostGates a wih bih) (hostGates h whh bhh) h

/-- The head's logits in the host's spelling. -/
def hostLogits (x : FVec Ideal S256x35 .f32) (w1 : FVec Ideal S20x35 .f32) (b1 : FVec Ideal S20 .f32) (w2 : FVec Ideal S6x20 .f32)
    (b2 : FVec Ideal S6 .f32) : FVec Ideal S256x6 .f32 :=
  addf (Host.dotGeneral (F := Ideal) dot_S256x20_S20x6_S256x6_1_0_0_1_n_n none
      (maximumf (addf (Host.dotGeneral (F := Ideal) dot_S256x35_S35x20_S256x20_1_0_0_1_n_n none x (transpose S35x20 [1, 0] w1 transposes_S20x35_S35x20_1_0))
          (broadcastInDim S256x20 ![0, 1] bcast_S1x20_S256x20_0_1 (broadcastInDim S1x20 ![1] bcast_S20_S1x20_1 b1)))
        (broadcastInDim S256x20 ![] bcast_S_S256x20 (constant (F := Ideal) S_ .f32 0x00000000#32)))
      (transpose S20x6 [1, 0] w2 transposes_S6x20_S20x6_1_0))
    (broadcastInDim S256x6 ![0, 1] bcast_S1x6_S256x6_0_1 (broadcastInDim S1x6 ![1] bcast_S6_S1x6_1 b2))

/-- The row maximum in jax.nn.log_softmax's spelling, spread back over the row. -/
def hostTop (z : FVec Ideal S256x6 .f32) : FVec Ideal S256x6 .f32 :=
  broadcastInDim S256x6 ![0, 1] bcast_S256x1_S256x6_0_1 (broadcastInDim S256x1 ![0] bcast_S256_S256x1_0
    (maximumf (broadcastInDim S256 ![] bcast_S_S256 (constant (F := Ideal) S_ .f32 0xFF800000#32))
      (Host.reduce (FloatOps.maximumf (F := Ideal) (φ := .f32)) z (constant (F := Ideal) S_ .f32 0xFF800000#32) reducesTo_S256x6_S256_d1 h_S_)))

/-- jax.nn.log_softmax of the rows. -/
def hostLsm (z : FVec Ideal S256x6 .f32) : FVec Ideal S256x6 .f32 :=
  subf (subf z (hostTop z))
    (broadcastInDim S256x6 ![0, 1] bcast_S256x1_S256x6_0_1 (Host.log (F := Ideal) (broadcastInDim S256x1 ![0] bcast_S256_S256x1_0
      (Host.reduceAdd (F := Ideal) (φ := .f32) (Host.exp (F := Ideal) (subf z (hostTop z))) (constant (F := Ideal) S_ .f32 0x00000000#32) reducesTo_S256x6_S256_d1 h_S_))))

/-- The head of every graph in the host's spelling. -/
def hostHead (x : FVec Ideal S256x35 .f32) (w1 : FVec Ideal S20x35 .f32) (b1 : FVec Ideal S20 .f32) (w2 : FVec Ideal S6x20 .f32)
    (b2 : FVec Ideal S6 .f32) : FVec Ideal S256x6 .f32 :=
  hostLsm (hostLogits x w1 b1 w2 b2)

/-- The host's layer product is the whole-array product. -/
theorem hostLin_eq (x : FVec Ideal S100000x15 .f32) (w : FVec Ideal S15x15 .f32) : hostLin x w = linArr x w := by
  funext i
  obtain ⟨r, q, rfl⟩ : ∃ (r : Fin 100000) (q : Fin 15), i = ix2 r q := ⟨i 0, i 1, eq_ix2 i⟩
  exact DenseVec.dotGeneral_ix2 plain_lin none x w r q

/-- A bias vector read through its one-row view. -/
theorem row45_apply (b : FVec Ideal S45 .f32) (j : Fin 45) : row45 b (ix2 (0 : Fin 1) j) = b (ix1 j) :=
  shapeCast_a_1a_apply b _ 0 j
theorem row20_apply (b : FVec Ideal S20 .f32) (j : Fin 20) : row20 b (ix2 (0 : Fin 1) j) = b (ix1 j) :=
  shapeCast_a_1a_apply b _ 0 j
theorem row6_apply (b : FVec Ideal S6 .f32) (j : Fin 6) : row6 b (ix2 (0 : Fin 1) j) = b (ix1 j) :=
  shapeCast_a_1a_apply b _ 0 j

/-- The host's recurrent cell is the whole-array cell. -/
theorem hostGru_eq (a h : FVec Ideal S100000x15 .f32) (wih whh : FVec Ideal S45x15 .f32) (bih bhh : FVec Ideal S45 .f32) :
    hostGru a h wih whh bih bhh = gruArr a h wih whh (row45 bih) (row45 bhh) := by
  funext i
  obtain ⟨r, q, rfl⟩ : ∃ (r : Fin 100000) (q : Fin 15), i = ix2 r q := ⟨i 0, i 1, eq_ix2 i⟩
  unfold hostGru hostCell
  refine (host_gates_apply (hostGates a wih bih) (hostGates h whh bhh) h _ _ _ bcast_S_S100000x15 r q).trans ?_
  unfold gruArr gruEntry
  refine congrArg₂ (fun f g => gruOut f g (h (ix2 r q)) q) (funext fun j => ?_) (funext fun j => ?_)
  · unfold hostGates
    rw [host_affT_apply plain_gates none a wih _ bih _ _ r j]
    exact congrArg (fun f => affT (fun k => a (ix2 r k)) wih f j) (funext fun j' => (row45_apply bih j').symm)
  · unfold hostGates
    rw [host_affT_apply plain_gates none h whh _ bhh _ _ r j]
    exact congrArg (fun f => affT (fun k => h (ix2 r k)) whh f j) (funext fun j' => (row45_apply bhh j').symm)

/-- The host's head is the whole-array head. -/
theorem hostHead_eq (x : FVec Ideal S256x35 .f32) (w1 : FVec Ideal S20x35 .f32) (b1 : FVec Ideal S20 .f32)
    (w2 : FVec Ideal S6x20 .f32) (b2 : FVec Ideal S6 .f32) :
    hostHead x w1 b1 w2 b2 = headArr x w1 (row20 b1) w2 (row6 b2) := by
  funext i
  obtain ⟨r, c, rfl⟩ : ∃ (r : Fin 256) (c : Fin 6), i = ix2 r c := ⟨i 0, i 1, eq_ix2 i⟩
  unfold hostHead hostLsm hostTop
  refine (LogSoftmaxRows.host_apply (hostLogits x w1 b1 w2 b2) reducesTo_S256x6_S256_d1 (by decide) h_S_ bcast_S_S256
    bcast_S256_S256x1_0 bcast_S256x1_S256x6_0_1 r c).trans ?_
  rw [shifted_eq_lsm]
  unfold headArr
  refine congrArg (fun f => lsm f c) (funext fun c' => ?_)
  unfold hostLogits
  rw [host_affT_apply plain_fc2 none _ w2 _ b2 _ _ r c']
  unfold logit
  refine congrArg₂ (fun f g => affT f w2 g c') (funext fun j => ?_) (funext fun j' => (row6_apply b2 j').symm)
  rw [maximumf_apply, host_affT_apply plain_fc1 none x w1 _ b1 _ _ r j]
  unfold Gnn.hidden
  exact congrArg (fun f => max (affT (fun k => x (ix2 r k)) w1 f j) zeroW) (funext fun j' => (row20_apply b1 j').symm)

end Cert.ReferenceIdeal.Stages

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefChain.lean ====
/-
  The reference's run read stretch by stretch, and its result as the network function of the arguments.

  The 184 host operations of the reference are cut into eight stretches at the stages of the network: the index
  vectors, the degree column and the first layer's product; the first aggregation; the first recurrent cell; the
  second layer's product; the second aggregation; the second recurrent cell; the rectifier, the per-graph mean and the
  join with the text features; the classifier head. Read from an arbitrary starting memory each stretch writes the
  stage's function of the buffers it reads and leaves the buffers it does not write alone; the memory after the
  whole line is the memory after the last stretch from the memory after the ones before. With each host stage equal
  to its whole-array function the result buffer ends holding the network of the launch contents of the arguments.
-/
import proofs.«164312_j77764677862200_1_alg».proof.Proof.RefOpsP
import proofs.«164312_j77764677862200_1_alg».proof.Proof.RefStages
import proofs.«164312_j77764677862200_1_alg».proof.Proof.Chain
import proofs.«164312_j77764677862200_1_alg».proof.Proof.LibStretches

set_option maxRecDepth 16384

noncomputable section

namespace Cert.ReferenceIdeal.HandRun

open Cert.ReferenceIdeal Cert.ReferenceIdeal.Gen Cert.ReferenceIdeal.ValueP Cert.ReferenceIdeal.Stages
open Idealize.ShloMosaic Idealize.ShloMosaic.TcCoe Idealize.SL.Sem Idealize.ShloMosaic.StableHlo
open Cert.KernelIdeal.Glue (srcOf tgtOf degOf row45 row20 row6 w0Of w1Of aggOf reluOf featOf)
open Gnn (linArr gruArr headArr)

/-! ## The stretches -/

/-- Operations 0 … 16 of the reference's line. -/
abbrev s1 {F : FTy → Type} [FloatOps F] : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_arg4 main_v11 ((extractStridedSlice S1x15x15 ![0, 0, 0] · slices_S2x15x15_S1x15x15_0_0_0) : (⟨S2x15x15, .f32⟩ : BufTy).Contents (Elt F) → (⟨S1x15x15, .f32⟩ : BufTy).Contents (Elt F)),
    reshape main_v11 main_v12 rfl shapeCasts_S1x15x15_S15x15,
    binary main_arg0 main_v12 main_v13 ((fun l r => Host.dotGeneral dot_S100000x15_S15x15_S100000x15_1_0_0_1_n_n none l r) : (⟨S100000x15, .f32⟩ : BufTy).Contents (Elt F) → (⟨S15x15, .f32⟩ : BufTy).Contents (Elt F) → (⟨S100000x15, .f32⟩ : BufTy).Contents (Elt F)) ]

/-- Operations 17 … 31 of the reference's line. -/
abbrev s2 {F : FTy → Type} [FloatOps F] : List (HloOp τ sig (Elt F)) :=
  [ nullary main_c (constantI S_ 32 0#32),
    unary main_c main_v14 (broadcastInDim S3200000 ![] bcast_S_S3200000 : (⟨S_, .i32⟩ : BufTy).Contents (Elt F) → (⟨S3200000, .i32⟩ : BufTy).Contents (Elt F)),
    binary main_v1 main_v14 main_v15 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v16 (broadcastInDim S3200000 ![] bcast_S_S3200000 : (⟨S_, .i32⟩ : BufTy).Contents (Elt F) → (⟨S3200000, .i32⟩ : BufTy).Contents (Elt F)),
    binary main_v1 main_v16 main_v17 (addi : (⟨S3200000, .i32⟩ : BufTy).Contents (Elt F) → (⟨S3200000, .i32⟩ : BufTy).Contents (Elt F) → (⟨S3200000, .i32⟩ : BufTy).Contents (Elt F)),
    ternary main_v15 main_v17 main_v1 main_v18 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v18 main_v19 (broadcastInDim S3200000x1 ![0] bcast_S3200000_S3200000x1_0 : (⟨S3200000, .i32⟩ : BufTy).Contents (Elt F) → (⟨S3200000x1, .i32⟩ : BufTy).Contents (Elt F)),
    binary main_v13 main_v19 main_v20 ((fun x i => Host.gather gather_S100000x15_S3200000x1_S3200000x15_1_0_n_n_0_1_115 x i) : (⟨S100000x15, .f32⟩ : BufTy).Contents (Elt F) → (⟨S3200000x1, .i32⟩ : BufTy).Contents (Elt F) → (⟨S3200000x15, .f32⟩ : BufTy).Contents (Elt F)),
    nullary main_cst_3 (constant S_ .f32 0x00000000#32),
    unary main_cst_3 main_v21 (broadcastInDim S100000x15 ![] bcast_S_S100000x15 : (⟨S_, .f32⟩ : BufTy).Contents (Elt F) → (⟨S100000x15, .f32⟩ : BufTy).Contents (Elt F)),
    unary main_v3 main_v22 (broadcastInDim S3200000x1 ![0] bcast_S3200000_S3200000x1_0 : (⟨S3200000, .i32⟩ : BufTy).Contents (Elt F) → (⟨S3200000x1, .i32⟩ : BufTy).Contents (Elt F)),
    ternary main_v21 main_v22 main_v20 main_v23 ((fun x i u => Host.scatterAdd scatter_S100000x15_S3200000x1_S3200000x15_1_0_0_1 x i u) : (⟨S100000x15, .f32⟩ : BufTy).Contents (Elt F) → (⟨S3200000x1, .i32⟩ : BufTy).Contents (Elt F) → (⟨S3200000x15, .f32⟩ : BufTy).Contents (Elt F) → (⟨S100000x15, .f32⟩ : BufTy).Contents (Elt F)),
    unary main_v10 main_v24 (broadcastInDim S100000x15 ![0, 1] bcast_S100000x1_S100000x15_0_1 : (⟨S100000x1, .f32⟩ : BufTy).Contents (Elt F) → (⟨S100000x15, .f32⟩ : BufTy).Contents (Elt F)),
    binary main_v23 main_v24 main_v25 (Host.divf : (⟨S100000x15, .f32⟩ : BufTy).Contents (Elt F) → (⟨S100000x15, .f32⟩ : BufTy).Contents (Elt F) → (⟨S100000x15, .f32⟩ : BufTy).Contents (Elt F)) ]

/-- Operations 32 … 74 of the reference's line. -/
abbrev s3 {F : FTy → Type} [FloatOps F] : List (HloOp τ sig (Elt F)) :=
  [ unary main_arg5 main_v26 ((transpose S15x45 [1, 0] · transposes_S45x15_S15x45_1_0) : (⟨S45x15, .f32⟩ : BufTy).Contents (Elt F) → (⟨S15x45, .f32⟩ : BufTy).Contents (Elt F)),
    binary main_v25 main_v26 main_v27 ((fun l r => Host.dotGeneral dot_S100000x15_S15x45_S100000x45_1_0_0_1_n_n none l r) : (⟨S100000x15, .f32⟩ : BufTy).Contents (Elt F) → (⟨S15x45, .f32⟩ : BufTy).Contents (Elt F) → (⟨S100000x45, .f32⟩ : BufTy).Contents (Elt F)),
    unary main_arg7 main_v28 (broadcastInDim S1x45 ![1] bcast_S45_S1x45_1 : (⟨S45, .f32⟩ : BufTy).Contents (Elt F) → (⟨S1x45, .f32⟩ : BufTy).Contents (Elt F)),
    unary main_v28 main_v29 (broadcastInDim S100000x45 ![0, 1] bcast_S1x45_S100000x45_0_1 : (⟨S1x45, .f32⟩ : BufTy).Contents (Elt F) → (⟨S100000x45, .f32⟩ : BufTy).Contents (Elt F)),
    binary main_v27 main_v29 main_v30 (addf : (⟨S100000x45, .f32⟩ : BufTy).Contents (Elt F) → (⟨S100000x45, .f32⟩ : BufTy).Contents (Elt F) → (⟨S100000x45, .f32⟩ : BufTy).Contents (Elt F)),
    unary main_arg6 main_v31 ((transpose S15x45 [1, 0] · transposes_S45x15_S15x45_1_0) : (⟨S45x15, .f32⟩ : BufTy).Contents (Elt F) → (⟨S15x45, .f32⟩ : BufTy).Contents (Elt F)),
    binary main_arg0 main_v31 main_v32 ((fun l r => Host.dotGeneral dot_S100000x15_S15x45_S100000x45_1_0_0_1_n_n none l r) : (⟨S100000x15, .f32⟩ : BufTy).Contents (Elt F) → (⟨S15x45, .f32⟩ : BufTy).Contents (Elt F) → (⟨S100000x45, .f32⟩ : BufTy).Contents (Elt F)),
    unary main_arg8 main_v33 (broadcastInDim S1x45 ![1] bcast_S45_S1x45_1 : (⟨S45, .f32⟩ : BufTy).Contents (Elt F) → (⟨S1x45, .f32⟩ : BufTy).Contents (Elt F)),
    unary main_v33 main_v34 (broadcastInDim S100000x45 ![0, 1] bcast_S1x45_S100000x45_0_1 : (⟨S1x45, .f32⟩ : BufTy).Contents (Elt F) → (⟨S100000x45, .f32⟩ : BufTy).Contents (Elt F)),
    binary main_v32 main_v34 main_v35 (addf : (⟨S100000x45, .f32⟩ : BufTy).Contents (Elt F) → (⟨S100000x45, .f32⟩ : BufTy).Contents (Elt F) → (⟨S100000x45, .f32⟩ : BufTy).Contents (Elt F)),
    unary main_v30 main_v36 ((extractStridedSlice S100000x15 ![0, 0] · slices_S100000x45_S100000x15_0_0) : (⟨S100000x45, .f32⟩ : BufTy).Contents (Elt F) → (⟨S100000x15, .f32⟩ : BufTy).Contents (Elt F)),
    unary main_v30 main_v37 ((extractStridedSlice S100000x15 ![0, 15] · slices_S100000x45_S100000x15_0_15) : (⟨S100000x45, .f32⟩ : BufTy).Contents (Elt F) → (⟨S100000x15, .f32⟩ : BufTy).Contents (Elt F)),
    unary main_v30 main_v38 ((extractStridedSlice S100000x15 ![0, 30] · slices_S100000x45_S100000x15_0_30) : (⟨S100000x45, .f32⟩ : BufTy).Contents (Elt F) → (⟨S100000x15, .f32⟩ : BufTy).Contents (Elt F)),
    unary main_v35 main_v39 ((extractStridedSlice S100000x15 ![0, 0] · slices_S100000x45_S100000x15_0_0) : (⟨S100000x45, .f32⟩ : BufTy).Contents (Elt F) → (⟨S100000x15, .f32⟩ : BufTy).Contents (Elt F)),
    unary main_v35 main_v40 ((extractStridedSlice S100000x15 ![0, 15] · slices_S100000x45_S100000x15_0_15) : (⟨S100000x45, .f32⟩ : BufTy).Contents (Elt F) → (⟨S100000x15, .f32⟩ : BufTy).Contents (Elt F)),
    unary main_v35 main_v41 ((extractStridedSlice S100000x15 ![0, 30] · slices_S100000x45_S100000x15_0_30) : (⟨S100000x45, .f32⟩ : BufTy).Contents (Elt F) → (⟨S100000x15, .f32⟩ : BufTy).Contents (Elt F)),
    binary main_v36 main_v39 main_v42 (addf : (⟨S100000x15, .f32⟩ : BufTy).Contents (Elt F) → (⟨S100000x15, .f32⟩ : BufTy).Contents (Elt F) → (⟨S100000x15, .f32⟩ : BufTy).Contents (Elt F)),
    unary main_v42 main_v43 (Host.negf : (⟨S100000x15, .f32⟩ : BufTy).Contents (Elt F) → (⟨S100000x15, .f32⟩ : BufTy).Contents (Elt F)),
    unary main_v43 main_v44 (Host.exp : (⟨S100000x15, .f32⟩ : BufTy).Contents (Elt F) → (⟨S100000x15, .f32⟩ : BufTy).Contents (Elt F)),
    nullary main_cst_4 (constant S_ .f32 0x3F800000#32),
    unary main_cst_4 main_v45 (broadcastInDim S100000x15 ![] bcast_S_S100000x15 : (⟨S_, .f32⟩ : BufTy).Contents (Elt F) → (⟨S100000x15, .f32⟩ : BufTy).Contents (Elt F)),
    binary main_v45 main_v44 main_v46 (addf : (⟨S100000x15, .f32⟩ : BufTy).Contents (Elt F) → (⟨S100000x15, .f32⟩ : BufTy).Contents (Elt F) → (⟨S100000x15, .f32⟩ : BufTy).Contents (Elt F)),
    nullary main_cst_5 (constant S_ .f32 0x3F800000#32),
    unary main_cst_5 main_v47 (broadcastInDim S100000x15 ![] bcast_S_S100000x15 : (⟨S_, .f32⟩ : BufTy).Contents (Elt F) → (⟨S100000x15, .f32⟩ : BufTy).Contents (Elt F)),
    binary main_v47 main_v46 main_v48 (Host.divf : (⟨S100000x15, .f32⟩ : BufTy).Contents (Elt F) → (⟨S100000x15, .f32⟩ : BufTy).Contents (Elt F) → (⟨S100000x15, .f32⟩ : BufTy).Contents (Elt F)),
    binary main_v37 main_v40 main_v49 (addf : (⟨S100000x15, .f32⟩ : BufTy).Contents (Elt F) → (⟨S100000x15, .f32⟩ : BufTy).Contents (Elt F) → (⟨S100000x15, .f32⟩ : BufTy).Contents (Elt F)),
    unary main_v49 main_v50 (Host.negf : (⟨S100000x15, .f32⟩ : BufTy).Contents (Elt F) → (⟨S100000x15, .f32⟩ : BufTy).Contents (Elt F)),
    unary main_v50 main_v51 (Host.exp : (⟨S100000x15, .f32⟩ : BufTy).Contents (Elt F) → (⟨S100000x15, .f32⟩ : BufTy).Contents (Elt F)),
    nullary main_cst_6 (constant S_ .f32 0x3F800000#32),
    unary main_cst_6 main_v52 (broadcastInDim S100000x15 ![] bcast_S_S100000x15 : (⟨S_, .f32⟩ : BufTy).Contents (Elt F) → (⟨S100000x15, .f32⟩ : BufTy).Contents (Elt F)),
    binary main_v52 main_v51 main_v53 (addf : (⟨S100000x15, .f32⟩ : BufTy).Contents (Elt F) → (⟨S100000x15, .f32⟩ : BufTy).Contents (Elt F) → (⟨S100000x15, .f32⟩ : BufTy).Contents (Elt F)),
    nullary main_cst_7 (constant S_ .f32 0x3F800000#32),
    unary main_cst_7 main_v54 (broadcastInDim S100000x15 ![] bcast_S_S100000x15 : (⟨S_, .f32⟩ : BufTy).Contents (Elt F) → (⟨S100000x15, .f32⟩ : BufTy).Contents (Elt F)),
    binary main_v54 main_v53 main_v55 (Host.divf : (⟨S100000x15, .f32⟩ : BufTy).Contents (Elt F) → (⟨S100000x15, .f32⟩ : BufTy).Contents (Elt F) → (⟨S100000x15, .f32⟩ : BufTy).Contents (Elt F)),
    binary main_v48 main_v41 main_v56 (mulf : (⟨S100000x15, .f32⟩ : BufTy).Contents (Elt F) → (⟨S100000x15, .f32⟩ : BufTy).Contents (Elt F) → (⟨S100000x15, .f32⟩ : BufTy).Contents (Elt F)),
    binary main_v38 main_v56 main_v57 (addf : (⟨S100000x15, .f32⟩ : BufTy).Contents (Elt F) → (⟨S100000x15, .f32⟩ : BufTy).Contents (Elt F) → (⟨S100000x15, .f32⟩ : BufTy).Contents (Elt F)),
    unary main_v57 main_v58 (Host.tanh : (⟨S100000x15, .f32⟩ : BufTy).Contents (Elt F) → (⟨S100000x15, .f32⟩ : BufTy).Contents (Elt F)),
    nullary main_cst_8 (constant S_ .f32 0x3F800000#32),
    unary main_cst_8 main_v59 (broadcastInDim S100000x15 ![] bcast_S_S100000x15 : (⟨S_, .f32⟩ : BufTy).Contents (Elt F) → (⟨S100000x15, .f32⟩ : BufTy).Contents (Elt F)),
    binary main_v59 main_v55 main_v60 (subf : (⟨S100000x15, .f32⟩ : BufTy).Contents (Elt F) → (⟨S100000x15, .f32⟩ : BufTy).Contents (Elt F) → (⟨S100000x15, .f32⟩ : BufTy).Contents (Elt F)),
    binary main_v60 main_v58 main_v61 (mulf : (⟨S100000x15, .f32⟩ : BufTy).Contents (Elt F) → (⟨S100000x15, .f32⟩ : BufTy).Contents (Elt F) → (⟨S100000x15, .f32⟩ : BufTy).Contents (Elt F)),
    binary main_v55 main_arg0 main_v62 (mulf : (⟨S100000x15, .f32⟩ : BufTy).Contents (Elt F) → (⟨S100000x15, .f32⟩ : BufTy).Contents (Elt F) → (⟨S100000x15, .f32⟩ : BufTy).Contents (Elt F)),
    binary main_v61 main_v62 main_v63 (addf : (⟨S100000x15, .f32⟩ : BufTy).Contents (Elt F) → (⟨S100000x15, .f32⟩ : BufTy).Contents (Elt F) → (⟨S100000x15, .f32⟩ : BufTy).Contents (Elt F)) ]

/-- Operations 75 … 77 of the reference's line. -/
abbrev s4 {F : FTy → Type} [FloatOps F] : List (HloOp τ sig (Elt F)) :=
  [ unary main_arg4 main_v64 ((extractStridedSlice S1x15x15 ![1, 0, 0] · slices_S2x15x15_S1x15x15_1_0_0) : (⟨S2x15x15, .f32⟩ : BufTy).Contents (Elt F) → (⟨S1x15x15, .f32⟩ : BufTy).Contents (Elt F)),
    reshape main_v64 main_v65 rfl shapeCasts_S1x15x15_S15x15,
    binary main_v63 main_v65 main_v66 ((fun l r => Host.dotGeneral dot_S100000x15_S15x15_S100000x15_1_0_0_1_n_n none l r) : (⟨S100000x15, .f32⟩ : BufTy).Contents (Elt F) → (⟨S15x15, .f32⟩ : BufTy).Contents (Elt F) → (⟨S100000x15, .f32⟩ : BufTy).Contents (Elt F)) ]

/-- Operations 78 … 92 of the reference's line. -/
abbrev s5 {F : FTy → Type} [FloatOps F] : List (HloOp τ sig (Elt F)) :=
  [ nullary main_c_9 (constantI S_ 32 0#32),
    unary main_c_9 main_v67 (broadcastInDim S3200000 ![] bcast_S_S3200000 : (⟨S_, .i32⟩ : BufTy).Contents (Elt F) → (⟨S3200000, .i32⟩ : BufTy).Contents (Elt F)),
    binary main_v1 main_v67 main_v68 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v69 (broadcastInDim S3200000 ![] bcast_S_S3200000 : (⟨S_, .i32⟩ : BufTy).Contents (Elt F) → (⟨S3200000, .i32⟩ : BufTy).Contents (Elt F)),
    binary main_v1 main_v69 main_v70 (addi : (⟨S3200000, .i32⟩ : BufTy).Contents (Elt F) → (⟨S3200000, .i32⟩ : BufTy).Contents (Elt F) → (⟨S3200000, .i32⟩ : BufTy).Contents (Elt F)),
    ternary main_v68 main_v70 main_v1 main_v71 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v71 main_v72 (broadcastInDim S3200000x1 ![0] bcast_S3200000_S3200000x1_0 : (⟨S3200000, .i32⟩ : BufTy).Contents (Elt F) → (⟨S3200000x1, .i32⟩ : BufTy).Contents (Elt F)),
    binary main_v66 main_v72 main_v73 ((fun x i => Host.gather gather_S100000x15_S3200000x1_S3200000x15_1_0_n_n_0_1_115 x i) : (⟨S100000x15, .f32⟩ : BufTy).Contents (Elt F) → (⟨S3200000x1, .i32⟩ : BufTy).Contents (Elt F) → (⟨S3200000x15, .f32⟩ : BufTy).Contents (Elt F)),
    nullary main_cst_11 (constant S_ .f32 0x00000000#32),
    unary main_cst_11 main_v74 (broadcastInDim S100000x15 ![] bcast_S_S100000x15 : (⟨S_, .f32⟩ : BufTy).Contents (Elt F) → (⟨S100000x15, .f32⟩ : BufTy).Contents (Elt F)),
    unary main_v3 main_v75 (broadcastInDim S3200000x1 ![0] bcast_S3200000_S3200000x1_0 : (⟨S3200000, .i32⟩ : BufTy).Contents (Elt F) → (⟨S3200000x1, .i32⟩ : BufTy).Contents (Elt F)),
    ternary main_v74 main_v75 main_v73 main_v76 ((fun x i u => Host.scatterAdd scatter_S100000x15_S3200000x1_S3200000x15_1_0_0_1 x i u) : (⟨S100000x15, .f32⟩ : BufTy).Contents (Elt F) → (⟨S3200000x1, .i32⟩ : BufTy).Contents (Elt F) → (⟨S3200000x15, .f32⟩ : BufTy).Contents (Elt F) → (⟨S100000x15, .f32⟩ : BufTy).Contents (Elt F)),
    unary main_v10 main_v77 (broadcastInDim S100000x15 ![0, 1] bcast_S100000x1_S100000x15_0_1 : (⟨S100000x1, .f32⟩ : BufTy).Contents (Elt F) → (⟨S100000x15, .f32⟩ : BufTy).Contents (Elt F)),
    binary main_v76 main_v77 main_v78 (Host.divf : (⟨S100000x15, .f32⟩ : BufTy).Contents (Elt F) → (⟨S100000x15, .f32⟩ : BufTy).Contents (Elt F) → (⟨S100000x15, .f32⟩ : BufTy).Contents (Elt F)) ]

/-- Operations 93 … 135 of the reference's line. -/
abbrev s6 {F : FTy → Type} [FloatOps F] : List (HloOp τ sig (Elt F)) :=
  [ unary main_arg5 main_v79 ((transpose S15x45 [1, 0] · transposes_S45x15_S15x45_1_0) : (⟨S45x15, .f32⟩ : BufTy).Contents (Elt F) → (⟨S15x45, .f32⟩ : BufTy).Contents (Elt F)),
    binary main_v78 main_v79 main_v80 ((fun l r => Host.dotGeneral dot_S100000x15_S15x45_S100000x45_1_0_0_1_n_n none l r) : (⟨S100000x15, .f32⟩ : BufTy).Contents (Elt F) → (⟨S15x45, .f32⟩ : BufTy).Contents (Elt F) → (⟨S100000x45, .f32⟩ : BufTy).Contents (Elt F)),
    unary main_arg7 main_v81 (broadcastInDim S1x45 ![1] bcast_S45_S1x45_1 : (⟨S45, .f32⟩ : BufTy).Contents (Elt F) → (⟨S1x45, .f32⟩ : BufTy).Contents (Elt F)),
    unary main_v81 main_v82 (broadcastInDim S100000x45 ![0, 1] bcast_S1x45_S100000x45_0_1 : (⟨S1x45, .f32⟩ : BufTy).Contents (Elt F) → (⟨S100000x45, .f32⟩ : BufTy).Contents (Elt F)),
    binary main_v80 main_v82 main_v83 (addf : (⟨S100000x45, .f32⟩ : BufTy).Contents (Elt F) → (⟨S100000x45, .f32⟩ : BufTy).Contents (Elt F) → (⟨S100000x45, .f32⟩ : BufTy).Contents (Elt F)),
    unary main_arg6 main_v84 ((transpose S15x45 [1, 0] · transposes_S45x15_S15x45_1_0) : (⟨S45x15, .f32⟩ : BufTy).Contents (Elt F) → (⟨S15x45, .f32⟩ : BufTy).Contents (Elt F)),
    binary main_v63 main_v84 main_v85 ((fun l r => Host.dotGeneral dot_S100000x15_S15x45_S100000x45_1_0_0_1_n_n none l r) : (⟨S100000x15, .f32⟩ : BufTy).Contents (Elt F) → (⟨S15x45, .f32⟩ : BufTy).Contents (Elt F) → (⟨S100000x45, .f32⟩ : BufTy).Contents (Elt F)),
    unary main_arg8 main_v86 (broadcastInDim S1x45 ![1] bcast_S45_S1x45_1 : (⟨S45, .f32⟩ : BufTy).Contents (Elt F) → (⟨S1x45, .f32⟩ : BufTy).Contents (Elt F)),
    unary main_v86 main_v87 (broadcastInDim S100000x45 ![0, 1] bcast_S1x45_S100000x45_0_1 : (⟨S1x45, .f32⟩ : BufTy).Contents (Elt F) → (⟨S100000x45, .f32⟩ : BufTy).Contents (Elt F)),
    binary main_v85 main_v87 main_v88 (addf : (⟨S100000x45, .f32⟩ : BufTy).Contents (Elt F) → (⟨S100000x45, .f32⟩ : BufTy).Contents (Elt F) → (⟨S100000x45, .f32⟩ : BufTy).Contents (Elt F)),
    unary main_v83 main_v89 ((extractStridedSlice S100000x15 ![0, 0] · slices_S100000x45_S100000x15_0_0) : (⟨S100000x45, .f32⟩ : BufTy).Contents (Elt F) → (⟨S100000x15, .f32⟩ : BufTy).Contents (Elt F)),
    unary main_v83 main_v90 ((extractStridedSlice S100000x15 ![0, 15] · slices_S100000x45_S100000x15_0_15) : (⟨S100000x45, .f32⟩ : BufTy).Contents (Elt F) → (⟨S100000x15, .f32⟩ : BufTy).Contents (Elt F)),
    unary main_v83 main_v91 ((extractStridedSlice S100000x15 ![0, 30] · slices_S100000x45_S100000x15_0_30) : (⟨S100000x45, .f32⟩ : BufTy).Contents (Elt F) → (⟨S100000x15, .f32⟩ : BufTy).Contents (Elt F)),
    unary main_v88 main_v92 ((extractStridedSlice S100000x15 ![0, 0] · slices_S100000x45_S100000x15_0_0) : (⟨S100000x45, .f32⟩ : BufTy).Contents (Elt F) → (⟨S100000x15, .f32⟩ : BufTy).Contents (Elt F)),
    unary main_v88 main_v93 ((extractStridedSlice S100000x15 ![0, 15] · slices_S100000x45_S100000x15_0_15) : (⟨S100000x45, .f32⟩ : BufTy).Contents (Elt F) → (⟨S100000x15, .f32⟩ : BufTy).Contents (Elt F)),
    unary main_v88 main_v94 ((extractStridedSlice S100000x15 ![0, 30] · slices_S100000x45_S100000x15_0_30) : (⟨S100000x45, .f32⟩ : BufTy).Contents (Elt F) → (⟨S100000x15, .f32⟩ : BufTy).Contents (Elt F)),
    binary main_v89 main_v92 main_v95 (addf : (⟨S100000x15, .f32⟩ : BufTy).Contents (Elt F) → (⟨S100000x15, .f32⟩ : BufTy).Contents (Elt F) → (⟨S100000x15, .f32⟩ : BufTy).Contents (Elt F)),
    unary main_v95 main_v96 (Host.negf : (⟨S100000x15, .f32⟩ : BufTy).Contents (Elt F) → (⟨S100000x15, .f32⟩ : BufTy).Contents (Elt F)),
    unary main_v96 main_v97 (Host.exp : (⟨S100000x15, .f32⟩ : BufTy).Contents (Elt F) → (⟨S100000x15, .f32⟩ : BufTy).Contents (Elt F)),
    nullary main_cst_12 (constant S_ .f32 0x3F800000#32),
    unary main_cst_12 main_v98 (broadcastInDim S100000x15 ![] bcast_S_S100000x15 : (⟨S_, .f32⟩ : BufTy).Contents (Elt F) → (⟨S100000x15, .f32⟩ : BufTy).Contents (Elt F)),
    binary main_v98 main_v97 main_v99 (addf : (⟨S100000x15, .f32⟩ : BufTy).Contents (Elt F) → (⟨S100000x15, .f32⟩ : BufTy).Contents (Elt F) → (⟨S100000x15, .f32⟩ : BufTy).Contents (Elt F)),
    nullary main_cst_13 (constant S_ .f32 0x3F800000#32),
    unary main_cst_13 main_v100 (broadcastInDim S100000x15 ![] bcast_S_S100000x15 : (⟨S_, .f32⟩ : BufTy).Contents (Elt F) → (⟨S100000x15, .f32⟩ : BufTy).Contents (Elt F)),
    binary main_v100 main_v99 main_v101 (Host.divf : (⟨S100000x15, .f32⟩ : BufTy).Contents (Elt F) → (⟨S100000x15, .f32⟩ : BufTy).Contents (Elt F) → (⟨S100000x15, .f32⟩ : BufTy).Contents (Elt F)),
    binary main_v90 main_v93 main_v102 (addf : (⟨S100000x15, .f32⟩ : BufTy).Contents (Elt F) → (⟨S100000x15, .f32⟩ : BufTy).Contents (Elt F) → (⟨S100000x15, .f32⟩ : BufTy).Contents (Elt F)),
    unary main_v102 main_v103 (Host.negf : (⟨S100000x15, .f32⟩ : BufTy).Contents (Elt F) → (⟨S100000x15, .f32⟩ : BufTy).Contents (Elt F)),
    unary main_v103 main_v104 (Host.exp : (⟨S100000x15, .f32⟩ : BufTy).Contents (Elt F) → (⟨S100000x15, .f32⟩ : BufTy).Contents (Elt F)),
    nullary main_cst_14 (constant S_ .f32 0x3F800000#32),
    unary main_cst_14 main_v105 (broadcastInDim S100000x15 ![] bcast_S_S100000x15 : (⟨S_, .f32⟩ : BufTy).Contents (Elt F) → (⟨S100000x15, .f32⟩ : BufTy).Contents (Elt F)),
    binary main_v105 main_v104 main_v106 (addf : (⟨S100000x15, .f32⟩ : BufTy).Contents (Elt F) → (⟨S100000x15, .f32⟩ : BufTy).Contents (Elt F) → (⟨S100000x15, .f32⟩ : BufTy).Contents (Elt F)),
    nullary main_cst_15 (constant S_ .f32 0x3F800000#32),
    unary main_cst_15 main_v107 (broadcastInDim S100000x15 ![] bcast_S_S100000x15 : (⟨S_, .f32⟩ : BufTy).Contents (Elt F) → (⟨S100000x15, .f32⟩ : BufTy).Contents (Elt F)),
    binary main_v107 main_v106 main_v108 (Host.divf : (⟨S100000x15, .f32⟩ : BufTy).Contents (Elt F) → (⟨S100000x15, .f32⟩ : BufTy).Contents (Elt F) → (⟨S100000x15, .f32⟩ : BufTy).Contents (Elt F)),
    binary main_v101 main_v94 main_v109 (mulf : (⟨S100000x15, .f32⟩ : BufTy).Contents (Elt F) → (⟨S100000x15, .f32⟩ : BufTy).Contents (Elt F) → (⟨S100000x15, .f32⟩ : BufTy).Contents (Elt F)),
    binary main_v91 main_v109 main_v110 (addf : (⟨S100000x15, .f32⟩ : BufTy).Contents (Elt F) → (⟨S100000x15, .f32⟩ : BufTy).Contents (Elt F) → (⟨S100000x15, .f32⟩ : BufTy).Contents (Elt F)),
    unary main_v110 main_v111 (Host.tanh : (⟨S100000x15, .f32⟩ : BufTy).Contents (Elt F) → (⟨S100000x15, .f32⟩ : BufTy).Contents (Elt F)),
    nullary main_cst_16 (constant S_ .f32 0x3F800000#32),
    unary main_cst_16 main_v112 (broadcastInDim S100000x15 ![] bcast_S_S100000x15 : (⟨S_, .f32⟩ : BufTy).Contents (Elt F) → (⟨S100000x15, .f32⟩ : BufTy).Contents (Elt F)),
    binary main_v112 main_v108 main_v113 (subf : (⟨S100000x15, .f32⟩ : BufTy).Contents (Elt F) → (⟨S100000x15, .f32⟩ : BufTy).Contents (Elt F) → (⟨S100000x15, .f32⟩ : BufTy).Contents (Elt F)),
    binary main_v113 main_v111 main_v114 (mulf : (⟨S100000x15, .f32⟩ : BufTy).Contents (Elt F) → (⟨S100000x15, .f32⟩ : BufTy).Contents (Elt F) → (⟨S100000x15, .f32⟩ : BufTy).Contents (Elt F)),
    binary main_v108 main_v63 main_v115 (mulf : (⟨S100000x15, .f32⟩ : BufTy).Contents (Elt F) → (⟨S100000x15, .f32⟩ : BufTy).Contents (Elt F) → (⟨S100000x15, .f32⟩ : BufTy).Contents (Elt F)),
    binary main_v114 main_v115 main_v116 (addf : (⟨S100000x15, .f32⟩ : BufTy).Contents (Elt F) → (⟨S100000x15, .f32⟩ : BufTy).Contents (Elt F) → (⟨S100000x15, .f32⟩ : BufTy).Contents (Elt F)) ]

/-- Operations 136 … 155 of the reference's line. -/
abbrev s7 {F : FTy → Type} [FloatOps F] : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x15, .f32⟩) main_call0_v0) (broadcastInDim S100000x15 ![] bcast_S_S100000x15),
    TRef.binary (TRef.of (T := ⟨S100000x15, .f32⟩) main_v116) (TRef.of (T := ⟨S100000x15, .f32⟩) main_call0_v0) (TRef.of (T := ⟨S100000x15, .f32⟩) main_v117) maximumf,
    nullary main_cst_17 (constant S_ .f32 0x3F800000#32),
    unary main_cst_17 main_v118 (broadcastInDim S100000 ![] bcast_S_S100000 : (⟨S_, .f32⟩ : BufTy).Contents (Elt F) → (⟨S100000, .f32⟩ : BufTy).Contents (Elt F)),
    nullary main_cst_18 (constant S_ .f32 0x00000000#32),
    unary main_cst_18 main_v119 (broadcastInDim S256 ![] bcast_S_S256 : (⟨S_, .f32⟩ : BufTy).Contents (Elt F) → (⟨S256, .f32⟩ : BufTy).Contents (Elt F)),
    unary main_arg2 main_v120 (broadcastInDim S100000x1 ![0] bcast_S100000_S100000x1_0 : (⟨S100000, .i32⟩ : BufTy).Contents (Elt F) → (⟨S100000x1, .i32⟩ : BufTy).Contents (Elt F)),
    ternary main_v119 main_v120 main_v118 main_v121 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_19 (constant S_ .f32 0x3F800000#32),
    unary main_cst_19 main_v122 (broadcastInDim S256 ![] bcast_S_S256 : (⟨S_, .f32⟩ : BufTy).Contents (Elt F) → (⟨S256, .f32⟩ : BufTy).Contents (Elt F)),
    binary main_v121 main_v122 main_v123 (maximumf : (⟨S256, .f32⟩ : BufTy).Contents (Elt F) → (⟨S256, .f32⟩ : BufTy).Contents (Elt F) → (⟨S256, .f32⟩ : BufTy).Contents (Elt F)),
    nullary main_cst_20 (constant S_ .f32 0x00000000#32),
    unary main_cst_20 main_v124 (broadcastInDim S256x15 ![] bcast_S_S256x15 : (⟨S_, .f32⟩ : BufTy).Contents (Elt F) → (⟨S256x15, .f32⟩ : BufTy).Contents (Elt F)),
    unary main_arg2 main_v125 (broadcastInDim S100000x1 ![0] bcast_S100000_S100000x1_0 : (⟨S100000, .i32⟩ : BufTy).Contents (Elt F) → (⟨S100000x1, .i32⟩ : BufTy).Contents (Elt F)),
    ternary main_v124 main_v125 main_v117 main_v126 ((fun x i u => Host.scatterAdd scatter_S256x15_S100000x1_S100000x15_1_0_0_1 x i u) : (⟨S256x15, .f32⟩ : BufTy).Contents (Elt F) → (⟨S100000x1, .i32⟩ : BufTy).Contents (Elt F) → (⟨S100000x15, .f32⟩ : BufTy).Contents (Elt F) → (⟨S256x15, .f32⟩ : BufTy).Contents (Elt F)),
    unary main_v123 main_v127 (broadcastInDim S256x1 ![0] bcast_S256_S256x1_0 : (⟨S256, .f32⟩ : BufTy).Contents (Elt F) → (⟨S256x1, .f32⟩ : BufTy).Contents (Elt F)),
    unary main_v127 main_v128 (broadcastInDim S256x15 ![0, 1] bcast_S256x1_S256x15_0_1 : (⟨S256x1, .f32⟩ : BufTy).Contents (Elt F) → (⟨S256x15, .f32⟩ : BufTy).Contents (Elt F)),
    binary main_v126 main_v128 main_v129 (Host.divf : (⟨S256x15, .f32⟩ : BufTy).Contents (Elt F) → (⟨S256x15, .f32⟩ : BufTy).Contents (Elt F) → (⟨S256x15, .f32⟩ : BufTy).Contents (Elt F)),
    binary main_v129 main_arg3 main_v130 ((fun a b => concatenate S256x35 1 [⟨S256x15, a⟩, ⟨S256x20, b⟩] concatenates_S256x15_S256x20_S256x35_d1) : (⟨S256x15, .f32⟩ : BufTy).Contents (Elt F) → (⟨S256x20, .f32⟩ : BufTy).Contents (Elt F) → (⟨S256x35, .f32⟩ : BufTy).Contents (Elt F)) ]

/-- Operations 156 … 183 of the reference's line. -/
abbrev s8 {F : FTy → Type} [FloatOps F] : List (HloOp τ sig (Elt F)) :=
  [ unary main_arg9 main_v131 ((transpose S35x20 [1, 0] · transposes_S20x35_S35x20_1_0) : (⟨S20x35, .f32⟩ : BufTy).Contents (Elt F) → (⟨S35x20, .f32⟩ : BufTy).Contents (Elt F)),
    binary main_v130 main_v131 main_v132 ((fun l r => Host.dotGeneral dot_S256x35_S35x20_S256x20_1_0_0_1_n_n none l r) : (⟨S256x35, .f32⟩ : BufTy).Contents (Elt F) → (⟨S35x20, .f32⟩ : BufTy).Contents (Elt F) → (⟨S256x20, .f32⟩ : BufTy).Contents (Elt F)),
    unary main_arg10 main_v133 (broadcastInDim S1x20 ![1] bcast_S20_S1x20_1 : (⟨S20, .f32⟩ : BufTy).Contents (Elt F) → (⟨S1x20, .f32⟩ : BufTy).Contents (Elt F)),
    unary main_v133 main_v134 (broadcastInDim S256x20 ![0, 1] bcast_S1x20_S256x20_0_1 : (⟨S1x20, .f32⟩ : BufTy).Contents (Elt F) → (⟨S256x20, .f32⟩ : BufTy).Contents (Elt F)),
    binary main_v132 main_v134 main_v135 (addf : (⟨S256x20, .f32⟩ : BufTy).Contents (Elt F) → (⟨S256x20, .f32⟩ : BufTy).Contents (Elt F) → (⟨S256x20, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S256x20, .f32⟩) main_call1_v0) (broadcastInDim S256x20 ![] bcast_S_S256x20),
    TRef.binary (TRef.of (T := ⟨S256x20, .f32⟩) main_v135) (TRef.of (T := ⟨S256x20, .f32⟩) main_call1_v0) (TRef.of (T := ⟨S256x20, .f32⟩) main_v136) maximumf,
    unary main_arg11 main_v137 ((transpose S20x6 [1, 0] · transposes_S6x20_S20x6_1_0) : (⟨S6x20, .f32⟩ : BufTy).Contents (Elt F) → (⟨S20x6, .f32⟩ : BufTy).Contents (Elt F)),
    binary main_v136 main_v137 main_v138 ((fun l r => Host.dotGeneral dot_S256x20_S20x6_S256x6_1_0_0_1_n_n none l r) : (⟨S256x20, .f32⟩ : BufTy).Contents (Elt F) → (⟨S20x6, .f32⟩ : BufTy).Contents (Elt F) → (⟨S256x6, .f32⟩ : BufTy).Contents (Elt F)),
    unary main_arg12 main_v139 (broadcastInDim S1x6 ![1] bcast_S6_S1x6_1 : (⟨S6, .f32⟩ : BufTy).Contents (Elt F) → (⟨S1x6, .f32⟩ : BufTy).Contents (Elt F)),
    unary main_v139 main_v140 (broadcastInDim S256x6 ![0, 1] bcast_S1x6_S256x6_0_1 : (⟨S1x6, .f32⟩ : BufTy).Contents (Elt F) → (⟨S256x6, .f32⟩ : BufTy).Contents (Elt F)),
    binary main_v138 main_v140 main_v141 (addf : (⟨S256x6, .f32⟩ : BufTy).Contents (Elt F) → (⟨S256x6, .f32⟩ : BufTy).Contents (Elt F) → (⟨S256x6, .f32⟩ : BufTy).Contents (Elt F)),
    TRef.nullary (TRef.of (T := ⟨S_, .f32⟩) main_call2_cst) (constant S_ .f32 0xFF800000#32),
    TRef.binary (TRef.of (T := ⟨S256x6, .f32⟩) main_v141) (TRef.of (T := ⟨S_, .f32⟩) main_call2_cst) (TRef.of (T := ⟨S256, .f32⟩) main_call2_v0) (fun x v => Host.reduce FloatOps.maximumf x v reducesTo_S256x6_S256_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S256, .f32⟩) main_call2_v1) (broadcastInDim S256 ![] bcast_S_S256),
    TRef.binary (TRef.of (T := ⟨S256, .f32⟩) main_call2_v1) (TRef.of (T := ⟨S256, .f32⟩) main_call2_v0) (TRef.of (T := ⟨S256, .f32⟩) main_call2_v2) maximumf,
    TRef.unary (TRef.of (T := ⟨S256, .f32⟩) main_call2_v2) (TRef.of (T := ⟨S256x1, .f32⟩) main_call2_v3) (broadcastInDim S256x1 ![0] bcast_S256_S256x1_0),
    TRef.unary (TRef.of (T := ⟨S256x1, .f32⟩) main_call2_v3) (TRef.of (T := ⟨S256x6, .f32⟩) main_call2_v4) (broadcastInDim S256x6 ![0, 1] bcast_S256x1_S256x6_0_1),
    TRef.binary (TRef.of (T := ⟨S256x6, .f32⟩) main_v141) (TRef.of (T := ⟨S256x6, .f32⟩) main_call2_v4) (TRef.of (T := ⟨S256x6, .f32⟩) main_call2_v5) subf,
    TRef.unary (TRef.of (T := ⟨S256x6, .f32⟩) main_call2_v5) (TRef.of (T := ⟨S256x6, .f32⟩) main_call2_v6) Host.exp,
    TRef.nullary (TRef.of (T := ⟨S_, .f32⟩) main_call2_cst_1) (constant S_ .f32 0x00000000#32),
    TRef.binary (TRef.of (T := ⟨S256x6, .f32⟩) main_call2_v6) (TRef.of (T := ⟨S_, .f32⟩) main_call2_cst_1) (TRef.of (T := ⟨S256, .f32⟩) main_call2_v7) (fun x v => Host.reduceAdd x v reducesTo_S256x6_S256_d1 h_S_),
    TRef.unary (TRef.of (T := ⟨S256, .f32⟩) main_call2_v7) (TRef.of (T := ⟨S256x1, .f32⟩) main_call2_v8) (broadcastInDim S256x1 ![0] bcast_S256_S256x1_0),
    TRef.unary (TRef.of (T := ⟨S256x1, .f32⟩) main_call2_v8) (TRef.of (T := ⟨S256x1, .f32⟩) main_call2_v9) Host.log,
    TRef.unary (TRef.of (T := ⟨S256x1, .f32⟩) main_call2_v9) (TRef.of (T := ⟨S256x6, .f32⟩) main_call2_v10) (broadcastInDim S256x6 ![0, 1] bcast_S256x1_S256x6_0_1),
    TRef.binary (TRef.of (T := ⟨S256x6, .f32⟩) main_call2_v5) (TRef.of (T := ⟨S256x6, .f32⟩) main_call2_v10) (TRef.of (T := ⟨S256x6, .f32⟩) main_v142) subf ]

set_option maxRecDepth 8192 in
set_option maxHeartbeats 4000000 in
/-- The line is its eight stretches one after the other. -/
theorem ops_split {F : FTy → Type} [FloatOps F] :
    (ops : List (HloOp τ sig (Elt F))) = s1 ++ s2 ++ s3 ++ s4 ++ s5 ++ s6 ++ s7 ++ s8 := rfl

variable (W : Valuation τ sig (Elt Ideal))

/-! ## What each stretch writes -/

set_option maxHeartbeats 8000000 in
theorem s1_main_v1 : after (s1 (F := Ideal)) W (Proc.devRef .tc main_v1) = srcOf (W (Proc.devRef .tc main_arg1)) := by
  after_results_simp <;> rfl

set_option maxHeartbeats 8000000 in
theorem s1_main_v3 : after (s1 (F := Ideal)) W (Proc.devRef .tc main_v3) = tgtOf (W (Proc.devRef .tc main_arg1)) := by
  after_results_simp <;> rfl

set_option maxHeartbeats 8000000 in
theorem s1_main_v10 : after (s1 (F := Ideal)) W (Proc.devRef .tc main_v10) = degOf (tgtOf (W (Proc.devRef .tc main_arg1))) := by
  after_results_simp <;> rfl

set_option maxHeartbeats 8000000 in
theorem s1_main_v13 : after (s1 (F := Ideal)) W (Proc.devRef .tc main_v13) = hostLin (W (Proc.devRef .tc main_arg0)) (w0Of (W (Proc.devRef .tc main_arg4))) := by
  after_results_simp <;> rfl

set_option maxHeartbeats 8000000 in
theorem s2_main_v25 : after (s2 (F := Ideal)) W (Proc.devRef .tc main_v25) = aggOf (W (Proc.devRef .tc main_v13)) (W (Proc.devRef .tc main_v1)) (W (Proc.devRef .tc main_v3)) (W (Proc.devRef .tc main_v10)) := by
  after_results_simp <;> rfl

set_option maxHeartbeats 8000000 in
theorem s3_main_v63 : after (s3 (F := Ideal)) W (Proc.devRef .tc main_v63) = hostGru (W (Proc.devRef .tc main_v25)) (W (Proc.devRef .tc main_arg0)) (W (Proc.devRef .tc main_arg5)) (W (Proc.devRef .tc main_arg6)) (W (Proc.devRef .tc main_arg7)) (W (Proc.devRef .tc main_arg8)) := by
  after_results_simp <;> rfl

set_option maxHeartbeats 8000000 in
theorem s4_main_v66 : after (s4 (F := Ideal)) W (Proc.devRef .tc main_v66) = hostLin (W (Proc.devRef .tc main_v63)) (w1Of (W (Proc.devRef .tc main_arg4))) := by
  after_results_simp <;> rfl

set_option maxHeartbeats 8000000 in
theorem s5_main_v78 : after (s5 (F := Ideal)) W (Proc.devRef .tc main_v78) = aggOf (W (Proc.devRef .tc main_v66)) (W (Proc.devRef .tc main_v1)) (W (Proc.devRef .tc main_v3)) (W (Proc.devRef .tc main_v10)) := by
  after_results_simp <;> rfl

set_option maxHeartbeats 8000000 in
theorem s6_main_v116 : after (s6 (F := Ideal)) W (Proc.devRef .tc main_v116) = hostGru (W (Proc.devRef .tc main_v78)) (W (Proc.devRef .tc main_v63)) (W (Proc.devRef .tc main_arg5)) (W (Proc.devRef .tc main_arg6)) (W (Proc.devRef .tc main_arg7)) (W (Proc.devRef .tc main_arg8)) := by
  after_results_simp <;> rfl

set_option maxHeartbeats 8000000 in
theorem s7_main_v130 : after (s7 (F := Ideal)) W (Proc.devRef .tc main_v130) = featOf (reluOf (W (Proc.devRef .tc main_v116))) (W (Proc.devRef .tc main_arg2)) (W (Proc.devRef .tc main_arg3)) := by
  after_results_simp <;> rfl

set_option maxHeartbeats 8000000 in
theorem s8_main_v142 : after (s8 (F := Ideal)) W (Proc.devRef .tc main_v142) = hostHead (W (Proc.devRef .tc main_v130)) (W (Proc.devRef .tc main_arg9)) (W (Proc.devRef .tc main_arg10)) (W (Proc.devRef .tc main_arg11)) (W (Proc.devRef .tc main_arg12)) := by
  after_results_simp <;> rfl

/-! ## What each stretch leaves alone -/

theorem s1_keep_main_arg0 : after (s1 (F := Ideal)) W (Proc.devRef .tc main_arg0) = W (Proc.devRef .tc main_arg0) :=
  after_of_forall_not_mem (b := (Proc.devRef .tc main_arg0)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg4 : after (s1 (F := Ideal)) W (Proc.devRef .tc main_arg4) = W (Proc.devRef .tc main_arg4) :=
  after_of_forall_not_mem (b := (Proc.devRef .tc main_arg4)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg5 : after (s1 (F := Ideal)) W (Proc.devRef .tc main_arg5) = W (Proc.devRef .tc main_arg5) :=
  after_of_forall_not_mem (b := (Proc.devRef .tc main_arg5)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg6 : after (s1 (F := Ideal)) W (Proc.devRef .tc main_arg6) = W (Proc.devRef .tc main_arg6) :=
  after_of_forall_not_mem (b := (Proc.devRef .tc main_arg6)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg7 : after (s1 (F := Ideal)) W (Proc.devRef .tc main_arg7) = W (Proc.devRef .tc main_arg7) :=
  after_of_forall_not_mem (b := (Proc.devRef .tc main_arg7)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg8 : after (s1 (F := Ideal)) W (Proc.devRef .tc main_arg8) = W (Proc.devRef .tc main_arg8) :=
  after_of_forall_not_mem (b := (Proc.devRef .tc main_arg8)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg2 : after (s1 (F := Ideal)) W (Proc.devRef .tc main_arg2) = W (Proc.devRef .tc main_arg2) :=
  after_of_forall_not_mem (b := (Proc.devRef .tc main_arg2)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg3 : after (s1 (F := Ideal)) W (Proc.devRef .tc main_arg3) = W (Proc.devRef .tc main_arg3) :=
  after_of_forall_not_mem (b := (Proc.devRef .tc main_arg3)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg9 : after (s1 (F := Ideal)) W (Proc.devRef .tc main_arg9) = W (Proc.devRef .tc main_arg9) :=
  after_of_forall_not_mem (b := (Proc.devRef .tc main_arg9)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg10 : after (s1 (F := Ideal)) W (Proc.devRef .tc main_arg10) = W (Proc.devRef .tc main_arg10) :=
  after_of_forall_not_mem (b := (Proc.devRef .tc main_arg10)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg11 : after (s1 (F := Ideal)) W (Proc.devRef .tc main_arg11) = W (Proc.devRef .tc main_arg11) :=
  after_of_forall_not_mem (b := (Proc.devRef .tc main_arg11)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s1_keep_main_arg12 : after (s1 (F := Ideal)) W (Proc.devRef .tc main_arg12) = W (Proc.devRef .tc main_arg12) :=
  after_of_forall_not_mem (b := (Proc.devRef .tc main_arg12)) _ _ (List.forall_iff_forall_mem.mp (by
    simp only [s1, List.Forall, nullary_writes, unary_writes, binary_writes, ternary_writes, reshape_writes, Finset.mem_singleton]
    repeat' apply And.intro
    all_goals exact devRef_ne_of_ne (by decide)))

theorem s2_keep_main_v1 : after (s2 (F := Ideal)) W (Proc.devRef .tc main_v1) = W (Proc.devRef .tc main_v1) :=
  after_of_forall_not_mem (b := (Proc.devRef .tc main_v1)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_v3 : after (s2 (F := Ideal)) W (Proc.devRef .tc main_v3) = W (Proc.devRef .tc main_v3) :=
  after_of_forall_not_mem (b := (Proc.devRef .tc main_v3)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_v10 : after (s2 (F := Ideal)) W (Proc.devRef .tc main_v10) = W (Proc.devRef .tc main_v10) :=
  after_of_forall_not_mem (b := (Proc.devRef .tc main_v10)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg0 : after (s2 (F := Ideal)) W (Proc.devRef .tc main_arg0) = W (Proc.devRef .tc main_arg0) :=
  after_of_forall_not_mem (b := (Proc.devRef .tc main_arg0)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg4 : after (s2 (F := Ideal)) W (Proc.devRef .tc main_arg4) = W (Proc.devRef .tc main_arg4) :=
  after_of_forall_not_mem (b := (Proc.devRef .tc main_arg4)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg5 : after (s2 (F := Ideal)) W (Proc.devRef .tc main_arg5) = W (Proc.devRef .tc main_arg5) :=
  after_of_forall_not_mem (b := (Proc.devRef .tc main_arg5)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg6 : after (s2 (F := Ideal)) W (Proc.devRef .tc main_arg6) = W (Proc.devRef .tc main_arg6) :=
  after_of_forall_not_mem (b := (Proc.devRef .tc main_arg6)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg7 : after (s2 (F := Ideal)) W (Proc.devRef .tc main_arg7) = W (Proc.devRef .tc main_arg7) :=
  after_of_forall_not_mem (b := (Proc.devRef .tc main_arg7)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg8 : after (s2 (F := Ideal)) W (Proc.devRef .tc main_arg8) = W (Proc.devRef .tc main_arg8) :=
  after_of_forall_not_mem (b := (Proc.devRef .tc main_arg8)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg2 : after (s2 (F := Ideal)) W (Proc.devRef .tc main_arg2) = W (Proc.devRef .tc main_arg2) :=
  after_of_forall_not_mem (b := (Proc.devRef .tc main_arg2)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg3 : after (s2 (F := Ideal)) W (Proc.devRef .tc main_arg3) = W (Proc.devRef .tc main_arg3) :=
  after_of_forall_not_mem (b := (Proc.devRef .tc main_arg3)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg9 : after (s2 (F := Ideal)) W (Proc.devRef .tc main_arg9) = W (Proc.devRef .tc main_arg9) :=
  after_of_forall_not_mem (b := (Proc.devRef .tc main_arg9)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg10 : after (s2 (F := Ideal)) W (Proc.devRef .tc main_arg10) = W (Proc.devRef .tc main_arg10) :=
  after_of_forall_not_mem (b := (Proc.devRef .tc main_arg10)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg11 : after (s2 (F := Ideal)) W (Proc.devRef .tc main_arg11) = W (Proc.devRef .tc main_arg11) :=
  after_of_forall_not_mem (b := (Proc.devRef .tc main_arg11)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s2_keep_main_arg12 : after (s2 (F := Ideal)) W (Proc.devRef .tc main_arg12) = W (Proc.devRef .tc main_arg12) :=
  after_of_forall_not_mem (b := (Proc.devRef .tc main_arg12)) _ _ (List.forall_iff_forall_mem.mp (by
    simp only [s2, List.Forall, nullary_writes, unary_writes, binary_writes, ternary_writes, reshape_writes, Finset.mem_singleton]
    repeat' apply And.intro
    all_goals exact devRef_ne_of_ne (by decide)))

theorem s3_keep_main_v1 : after (s3 (F := Ideal)) W (Proc.devRef .tc main_v1) = W (Proc.devRef .tc main_v1) :=
  after_of_forall_not_mem (b := (Proc.devRef .tc main_v1)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_v3 : after (s3 (F := Ideal)) W (Proc.devRef .tc main_v3) = W (Proc.devRef .tc main_v3) :=
  after_of_forall_not_mem (b := (Proc.devRef .tc main_v3)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_v10 : after (s3 (F := Ideal)) W (Proc.devRef .tc main_v10) = W (Proc.devRef .tc main_v10) :=
  after_of_forall_not_mem (b := (Proc.devRef .tc main_v10)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg4 : after (s3 (F := Ideal)) W (Proc.devRef .tc main_arg4) = W (Proc.devRef .tc main_arg4) :=
  after_of_forall_not_mem (b := (Proc.devRef .tc main_arg4)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg5 : after (s3 (F := Ideal)) W (Proc.devRef .tc main_arg5) = W (Proc.devRef .tc main_arg5) :=
  after_of_forall_not_mem (b := (Proc.devRef .tc main_arg5)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg6 : after (s3 (F := Ideal)) W (Proc.devRef .tc main_arg6) = W (Proc.devRef .tc main_arg6) :=
  after_of_forall_not_mem (b := (Proc.devRef .tc main_arg6)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg7 : after (s3 (F := Ideal)) W (Proc.devRef .tc main_arg7) = W (Proc.devRef .tc main_arg7) :=
  after_of_forall_not_mem (b := (Proc.devRef .tc main_arg7)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg8 : after (s3 (F := Ideal)) W (Proc.devRef .tc main_arg8) = W (Proc.devRef .tc main_arg8) :=
  after_of_forall_not_mem (b := (Proc.devRef .tc main_arg8)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg2 : after (s3 (F := Ideal)) W (Proc.devRef .tc main_arg2) = W (Proc.devRef .tc main_arg2) :=
  after_of_forall_not_mem (b := (Proc.devRef .tc main_arg2)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg3 : after (s3 (F := Ideal)) W (Proc.devRef .tc main_arg3) = W (Proc.devRef .tc main_arg3) :=
  after_of_forall_not_mem (b := (Proc.devRef .tc main_arg3)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg9 : after (s3 (F := Ideal)) W (Proc.devRef .tc main_arg9) = W (Proc.devRef .tc main_arg9) :=
  after_of_forall_not_mem (b := (Proc.devRef .tc main_arg9)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg10 : after (s3 (F := Ideal)) W (Proc.devRef .tc main_arg10) = W (Proc.devRef .tc main_arg10) :=
  after_of_forall_not_mem (b := (Proc.devRef .tc main_arg10)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg11 : after (s3 (F := Ideal)) W (Proc.devRef .tc main_arg11) = W (Proc.devRef .tc main_arg11) :=
  after_of_forall_not_mem (b := (Proc.devRef .tc main_arg11)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s3_keep_main_arg12 : after (s3 (F := Ideal)) W (Proc.devRef .tc main_arg12) = W (Proc.devRef .tc main_arg12) :=
  after_of_forall_not_mem (b := (Proc.devRef .tc main_arg12)) _ _ (List.forall_iff_forall_mem.mp (by
    simp only [s3, List.Forall, nullary_writes, unary_writes, binary_writes, ternary_writes, reshape_writes, Finset.mem_singleton]
    repeat' apply And.intro
    all_goals exact devRef_ne_of_ne (by decide)))

theorem s4_keep_main_v63 : after (s4 (F := Ideal)) W (Proc.devRef .tc main_v63) = W (Proc.devRef .tc main_v63) :=
  after_of_forall_not_mem (b := (Proc.devRef .tc main_v63)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_v1 : after (s4 (F := Ideal)) W (Proc.devRef .tc main_v1) = W (Proc.devRef .tc main_v1) :=
  after_of_forall_not_mem (b := (Proc.devRef .tc main_v1)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_v3 : after (s4 (F := Ideal)) W (Proc.devRef .tc main_v3) = W (Proc.devRef .tc main_v3) :=
  after_of_forall_not_mem (b := (Proc.devRef .tc main_v3)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_v10 : after (s4 (F := Ideal)) W (Proc.devRef .tc main_v10) = W (Proc.devRef .tc main_v10) :=
  after_of_forall_not_mem (b := (Proc.devRef .tc main_v10)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg5 : after (s4 (F := Ideal)) W (Proc.devRef .tc main_arg5) = W (Proc.devRef .tc main_arg5) :=
  after_of_forall_not_mem (b := (Proc.devRef .tc main_arg5)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg6 : after (s4 (F := Ideal)) W (Proc.devRef .tc main_arg6) = W (Proc.devRef .tc main_arg6) :=
  after_of_forall_not_mem (b := (Proc.devRef .tc main_arg6)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg7 : after (s4 (F := Ideal)) W (Proc.devRef .tc main_arg7) = W (Proc.devRef .tc main_arg7) :=
  after_of_forall_not_mem (b := (Proc.devRef .tc main_arg7)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg8 : after (s4 (F := Ideal)) W (Proc.devRef .tc main_arg8) = W (Proc.devRef .tc main_arg8) :=
  after_of_forall_not_mem (b := (Proc.devRef .tc main_arg8)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg2 : after (s4 (F := Ideal)) W (Proc.devRef .tc main_arg2) = W (Proc.devRef .tc main_arg2) :=
  after_of_forall_not_mem (b := (Proc.devRef .tc main_arg2)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg3 : after (s4 (F := Ideal)) W (Proc.devRef .tc main_arg3) = W (Proc.devRef .tc main_arg3) :=
  after_of_forall_not_mem (b := (Proc.devRef .tc main_arg3)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg9 : after (s4 (F := Ideal)) W (Proc.devRef .tc main_arg9) = W (Proc.devRef .tc main_arg9) :=
  after_of_forall_not_mem (b := (Proc.devRef .tc main_arg9)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg10 : after (s4 (F := Ideal)) W (Proc.devRef .tc main_arg10) = W (Proc.devRef .tc main_arg10) :=
  after_of_forall_not_mem (b := (Proc.devRef .tc main_arg10)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg11 : after (s4 (F := Ideal)) W (Proc.devRef .tc main_arg11) = W (Proc.devRef .tc main_arg11) :=
  after_of_forall_not_mem (b := (Proc.devRef .tc main_arg11)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s4_keep_main_arg12 : after (s4 (F := Ideal)) W (Proc.devRef .tc main_arg12) = W (Proc.devRef .tc main_arg12) :=
  after_of_forall_not_mem (b := (Proc.devRef .tc main_arg12)) _ _ (List.forall_iff_forall_mem.mp (by
    simp only [s4, List.Forall, nullary_writes, unary_writes, binary_writes, ternary_writes, reshape_writes, Finset.mem_singleton]
    repeat' apply And.intro
    all_goals exact devRef_ne_of_ne (by decide)))

theorem s5_keep_main_v63 : after (s5 (F := Ideal)) W (Proc.devRef .tc main_v63) = W (Proc.devRef .tc main_v63) :=
  after_of_forall_not_mem (b := (Proc.devRef .tc main_v63)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg5 : after (s5 (F := Ideal)) W (Proc.devRef .tc main_arg5) = W (Proc.devRef .tc main_arg5) :=
  after_of_forall_not_mem (b := (Proc.devRef .tc main_arg5)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg6 : after (s5 (F := Ideal)) W (Proc.devRef .tc main_arg6) = W (Proc.devRef .tc main_arg6) :=
  after_of_forall_not_mem (b := (Proc.devRef .tc main_arg6)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg7 : after (s5 (F := Ideal)) W (Proc.devRef .tc main_arg7) = W (Proc.devRef .tc main_arg7) :=
  after_of_forall_not_mem (b := (Proc.devRef .tc main_arg7)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg8 : after (s5 (F := Ideal)) W (Proc.devRef .tc main_arg8) = W (Proc.devRef .tc main_arg8) :=
  after_of_forall_not_mem (b := (Proc.devRef .tc main_arg8)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg2 : after (s5 (F := Ideal)) W (Proc.devRef .tc main_arg2) = W (Proc.devRef .tc main_arg2) :=
  after_of_forall_not_mem (b := (Proc.devRef .tc main_arg2)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg3 : after (s5 (F := Ideal)) W (Proc.devRef .tc main_arg3) = W (Proc.devRef .tc main_arg3) :=
  after_of_forall_not_mem (b := (Proc.devRef .tc main_arg3)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg9 : after (s5 (F := Ideal)) W (Proc.devRef .tc main_arg9) = W (Proc.devRef .tc main_arg9) :=
  after_of_forall_not_mem (b := (Proc.devRef .tc main_arg9)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg10 : after (s5 (F := Ideal)) W (Proc.devRef .tc main_arg10) = W (Proc.devRef .tc main_arg10) :=
  after_of_forall_not_mem (b := (Proc.devRef .tc main_arg10)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg11 : after (s5 (F := Ideal)) W (Proc.devRef .tc main_arg11) = W (Proc.devRef .tc main_arg11) :=
  after_of_forall_not_mem (b := (Proc.devRef .tc main_arg11)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s5_keep_main_arg12 : after (s5 (F := Ideal)) W (Proc.devRef .tc main_arg12) = W (Proc.devRef .tc main_arg12) :=
  after_of_forall_not_mem (b := (Proc.devRef .tc main_arg12)) _ _ (List.forall_iff_forall_mem.mp (by
    simp only [s5, List.Forall, nullary_writes, unary_writes, binary_writes, ternary_writes, reshape_writes, Finset.mem_singleton]
    repeat' apply And.intro
    all_goals exact devRef_ne_of_ne (by decide)))

theorem s6_keep_main_arg2 : after (s6 (F := Ideal)) W (Proc.devRef .tc main_arg2) = W (Proc.devRef .tc main_arg2) :=
  after_of_forall_not_mem (b := (Proc.devRef .tc main_arg2)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s6_keep_main_arg3 : after (s6 (F := Ideal)) W (Proc.devRef .tc main_arg3) = W (Proc.devRef .tc main_arg3) :=
  after_of_forall_not_mem (b := (Proc.devRef .tc main_arg3)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s6_keep_main_arg9 : after (s6 (F := Ideal)) W (Proc.devRef .tc main_arg9) = W (Proc.devRef .tc main_arg9) :=
  after_of_forall_not_mem (b := (Proc.devRef .tc main_arg9)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s6_keep_main_arg10 : after (s6 (F := Ideal)) W (Proc.devRef .tc main_arg10) = W (Proc.devRef .tc main_arg10) :=
  after_of_forall_not_mem (b := (Proc.devRef .tc main_arg10)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s6_keep_main_arg11 : after (s6 (F := Ideal)) W (Proc.devRef .tc main_arg11) = W (Proc.devRef .tc main_arg11) :=
  after_of_forall_not_mem (b := (Proc.devRef .tc main_arg11)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s6_keep_main_arg12 : after (s6 (F := Ideal)) W (Proc.devRef .tc main_arg12) = W (Proc.devRef .tc main_arg12) :=
  after_of_forall_not_mem (b := (Proc.devRef .tc main_arg12)) _ _ (List.forall_iff_forall_mem.mp (by
    simp only [s6, List.Forall, nullary_writes, unary_writes, binary_writes, ternary_writes, reshape_writes, Finset.mem_singleton]
    repeat' apply And.intro
    all_goals exact devRef_ne_of_ne (by decide)))

theorem s7_keep_main_arg9 : after (s7 (F := Ideal)) W (Proc.devRef .tc main_arg9) = W (Proc.devRef .tc main_arg9) :=
  after_of_forall_not_mem (b := (Proc.devRef .tc main_arg9)) _ _ (List.forall_iff_forall_mem.mp (by
    simp only [s7, List.Forall, nullary_writes, unary_writes, binary_writes, ternary_writes, reshape_writes, Finset.mem_singleton]
    repeat' apply And.intro
    all_goals exact devRef_ne_of_ne (by decide)))

theorem s7_keep_main_arg10 : after (s7 (F := Ideal)) W (Proc.devRef .tc main_arg10) = W (Proc.devRef .tc main_arg10) :=
  after_of_forall_not_mem (b := (Proc.devRef .tc main_arg10)) _ _ (List.forall_iff_forall_mem.mp (by
    simp only [s7, List.Forall, nullary_writes, unary_writes, binary_writes, ternary_writes, reshape_writes, Finset.mem_singleton]
    repeat' apply And.intro
    all_goals exact devRef_ne_of_ne (by decide)))

theorem s7_keep_main_arg11 : after (s7 (F := Ideal)) W (Proc.devRef .tc main_arg11) = W (Proc.devRef .tc main_arg11) :=
  after_of_forall_not_mem (b := (Proc.devRef .tc main_arg11)) _ _ (List.forall_iff_forall_mem.mp (by
    simp only [s7, List.Forall, nullary_writes, unary_writes, binary_writes, ternary_writes, reshape_writes, Finset.mem_singleton]
    repeat' apply And.intro
    all_goals exact devRef_ne_of_ne (by decide)))

theorem s7_keep_main_arg12 : after (s7 (F := Ideal)) W (Proc.devRef .tc main_arg12) = W (Proc.devRef .tc main_arg12) :=
  after_of_forall_not_mem (b := (Proc.devRef .tc main_arg12)) _ _ (List.forall_iff_forall_mem.mp (by
    simp only [s7, List.Forall, nullary_writes, unary_writes, binary_writes, ternary_writes, reshape_writes, Finset.mem_singleton]
    repeat' apply And.intro
    all_goals exact devRef_ne_of_ne (by decide)))

/-! ## The memory after each stretch, from the launch memory -/

variable (m : (ℓ : Loc nD τ sig) → Buf (Elt Ideal) ℓ) (ρ : Dev nD → PrngReg) (c : Dev nD)

abbrev U0 : Valuation τ sig (Elt Ideal) := launchContents m c
abbrev U1 : Valuation τ sig (Elt Ideal) := after (s1 (F := Ideal)) (U0 m c)
abbrev U2 : Valuation τ sig (Elt Ideal) := after (s2 (F := Ideal)) (U1 m c)
abbrev U3 : Valuation τ sig (Elt Ideal) := after (s3 (F := Ideal)) (U2 m c)
abbrev U4 : Valuation τ sig (Elt Ideal) := after (s4 (F := Ideal)) (U3 m c)
abbrev U5 : Valuation τ sig (Elt Ideal) := after (s5 (F := Ideal)) (U4 m c)
abbrev U6 : Valuation τ sig (Elt Ideal) := after (s6 (F := Ideal)) (U5 m c)
abbrev U7 : Valuation τ sig (Elt Ideal) := after (s7 (F := Ideal)) (U6 m c)
abbrev U8 : Valuation τ sig (Elt Ideal) := after (s8 (F := Ideal)) (U7 m c)

/-- The memory after the whole line is the memory after the last stretch. -/
theorem after_ops : after (ops (F := Ideal)) (launchContents m c) = U8 m c := by
  rw [ops_split]
  simp only [Stretches.after_append]

def R13 : FVec Ideal S100000x15 .f32 := hostLin (m ((c.tc : Thread nD τ).loc main_arg0)) (w0Of (m ((c.tc : Thread nD τ).loc main_arg4)))
def R25 : FVec Ideal S100000x15 .f32 := aggOf (R13 m c) (srcOf (m ((c.tc : Thread nD τ).loc main_arg1))) (tgtOf (m ((c.tc : Thread nD τ).loc main_arg1))) (degOf (tgtOf (m ((c.tc : Thread nD τ).loc main_arg1))))
def R63 : FVec Ideal S100000x15 .f32 := hostGru (R25 m c) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))
def R66 : FVec Ideal S100000x15 .f32 := hostLin (R63 m c) (w1Of (m ((c.tc : Thread nD τ).loc main_arg4)))
def R78 : FVec Ideal S100000x15 .f32 := aggOf (R66 m c) (srcOf (m ((c.tc : Thread nD τ).loc main_arg1))) (tgtOf (m ((c.tc : Thread nD τ).loc main_arg1))) (degOf (tgtOf (m ((c.tc : Thread nD τ).loc main_arg1))))
def R116 : FVec Ideal S100000x15 .f32 := hostGru (R78 m c) (R63 m c) (m ((c.tc : Thread nD τ).loc main_arg5)) (m ((c.tc : Thread nD τ).loc main_arg6)) (m ((c.tc : Thread nD τ).loc main_arg7)) (m ((c.tc : Thread nD τ).loc main_arg8))
def R130 : FVec Ideal S256x35 .f32 := featOf (reluOf (R116 m c)) (m ((c.tc : Thread nD τ).loc main_arg2)) (m ((c.tc : Thread nD τ).loc main_arg3))
def R142 : FVec Ideal S256x6 .f32 := hostHead (R130 m c) (m ((c.tc : Thread nD τ).loc main_arg9)) (m ((c.tc : Thread nD τ).loc main_arg10)) (m ((c.tc : Thread nD τ).loc main_arg11)) (m ((c.tc : Thread nD τ).loc main_arg12))

/-- With each host stage equal to its whole-array function, the last stage's value is the network of the arguments. -/
theorem R142_eq : R142 m c = Cert.KernelIdeal.Chain.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold R142 R130 R116 R78 R66 R63 R25 R13
  rw [hostHead_eq, hostGru_eq, hostGru_eq, hostLin_eq, hostLin_eq]
  rfl

theorem u0_main_arg0 : U0 m c (Proc.devRef .tc main_arg0) = (m ((c.tc : Thread nD τ).loc main_arg0)) := rfl
theorem u0_main_arg1 : U0 m c (Proc.devRef .tc main_arg1) = (m ((c.tc : Thread nD τ).loc main_arg1)) := rfl
theorem u0_main_arg2 : U0 m c (Proc.devRef .tc main_arg2) = (m ((c.tc : Thread nD τ).loc main_arg2)) := rfl
theorem u0_main_arg3 : U0 m c (Proc.devRef .tc main_arg3) = (m ((c.tc : Thread nD τ).loc main_arg3)) := rfl
theorem u0_main_arg4 : U0 m c (Proc.devRef .tc main_arg4) = (m ((c.tc : Thread nD τ).loc main_arg4)) := rfl
theorem u0_main_arg5 : U0 m c (Proc.devRef .tc main_arg5) = (m ((c.tc : Thread nD τ).loc main_arg5)) := rfl
theorem u0_main_arg6 : U0 m c (Proc.devRef .tc main_arg6) = (m ((c.tc : Thread nD τ).loc main_arg6)) := rfl
theorem u0_main_arg7 : U0 m c (Proc.devRef .tc main_arg7) = (m ((c.tc : Thread nD τ).loc main_arg7)) := rfl
theorem u0_main_arg8 : U0 m c (Proc.devRef .tc main_arg8) = (m ((c.tc : Thread nD τ).loc main_arg8)) := rfl
theorem u0_main_arg9 : U0 m c (Proc.devRef .tc main_arg9) = (m ((c.tc : Thread nD τ).loc main_arg9)) := rfl
theorem u0_main_arg10 : U0 m c (Proc.devRef .tc main_arg10) = (m ((c.tc : Thread nD τ).loc main_arg10)) := rfl
theorem u0_main_arg11 : U0 m c (Proc.devRef .tc main_arg11) = (m ((c.tc : Thread nD τ).loc main_arg11)) := rfl
theorem u0_main_arg12 : U0 m c (Proc.devRef .tc main_arg12) = (m ((c.tc : Thread nD τ).loc main_arg12)) := rfl

theorem u1_main_v13 : U1 m c (Proc.devRef .tc main_v13) = (R13 m c) :=
  (s1_main_v13 (U0 m c)).trans (by rw [u0_main_arg0 m c, u0_main_arg4 m c] <;> rfl)
theorem u1_main_v1 : U1 m c (Proc.devRef .tc main_v1) = (srcOf (m ((c.tc : Thread nD τ).loc main_arg1))) :=
  (s1_main_v1 (U0 m c)).trans (by rw [u0_main_arg1 m c] <;> rfl)
theorem u1_main_v3 : U1 m c (Proc.devRef .tc main_v3) = (tgtOf (m ((c.tc : Thread nD τ).loc main_arg1))) :=
  (s1_main_v3 (U0 m c)).trans (by rw [u0_main_arg1 m c] <;> rfl)
theorem u1_main_v10 : U1 m c (Proc.devRef .tc main_v10) = (degOf (tgtOf (m ((c.tc : Thread nD τ).loc main_arg1)))) :=
  (s1_main_v10 (U0 m c)).trans (by rw [u0_main_arg1 m c] <;> rfl)
theorem u1_main_arg0 : U1 m c (Proc.devRef .tc main_arg0) = (m ((c.tc : Thread nD τ).loc main_arg0)) :=
  (s1_keep_main_arg0 (U0 m c)).trans (u0_main_arg0 m c)
theorem u1_main_arg4 : U1 m c (Proc.devRef .tc main_arg4) = (m ((c.tc : Thread nD τ).loc main_arg4)) :=
  (s1_keep_main_arg4 (U0 m c)).trans (u0_main_arg4 m c)
theorem u1_main_arg5 : U1 m c (Proc.devRef .tc main_arg5) = (m ((c.tc : Thread nD τ).loc main_arg5)) :=
  (s1_keep_main_arg5 (U0 m c)).trans (u0_main_arg5 m c)
theorem u1_main_arg6 : U1 m c (Proc.devRef .tc main_arg6) = (m ((c.tc : Thread nD τ).loc main_arg6)) :=
  (s1_keep_main_arg6 (U0 m c)).trans (u0_main_arg6 m c)
theorem u1_main_arg7 : U1 m c (Proc.devRef .tc main_arg7) = (m ((c.tc : Thread nD τ).loc main_arg7)) :=
  (s1_keep_main_arg7 (U0 m c)).trans (u0_main_arg7 m c)
theorem u1_main_arg8 : U1 m c (Proc.devRef .tc main_arg8) = (m ((c.tc : Thread nD τ).loc main_arg8)) :=
  (s1_keep_main_arg8 (U0 m c)).trans (u0_main_arg8 m c)
theorem u1_main_arg2 : U1 m c (Proc.devRef .tc main_arg2) = (m ((c.tc : Thread nD τ).loc main_arg2)) :=
  (s1_keep_main_arg2 (U0 m c)).trans (u0_main_arg2 m c)
theorem u1_main_arg3 : U1 m c (Proc.devRef .tc main_arg3) = (m ((c.tc : Thread nD τ).loc main_arg3)) :=
  (s1_keep_main_arg3 (U0 m c)).trans (u0_main_arg3 m c)
theorem u1_main_arg9 : U1 m c (Proc.devRef .tc main_arg9) = (m ((c.tc : Thread nD τ).loc main_arg9)) :=
  (s1_keep_main_arg9 (U0 m c)).trans (u0_main_arg9 m c)
theorem u1_main_arg10 : U1 m c (Proc.devRef .tc main_arg10) = (m ((c.tc : Thread nD τ).loc main_arg10)) :=
  (s1_keep_main_arg10 (U0 m c)).trans (u0_main_arg10 m c)
theorem u1_main_arg11 : U1 m c (Proc.devRef .tc main_arg11) = (m ((c.tc : Thread nD τ).loc main_arg11)) :=
  (s1_keep_main_arg11 (U0 m c)).trans (u0_main_arg11 m c)
theorem u1_main_arg12 : U1 m c (Proc.devRef .tc main_arg12) = (m ((c.tc : Thread nD τ).loc main_arg12)) :=
  (s1_keep_main_arg12 (U0 m c)).trans (u0_main_arg12 m c)

theorem u2_main_v25 : U2 m c (Proc.devRef .tc main_v25) = (R25 m c) :=
  (s2_main_v25 (U1 m c)).trans (by rw [u1_main_v13 m c, u1_main_v1 m c, u1_main_v3 m c, u1_main_v10 m c] <;> rfl)
theorem u2_main_v1 : U2 m c (Proc.devRef .tc main_v1) = (srcOf (m ((c.tc : Thread nD τ).loc main_arg1))) :=
  (s2_keep_main_v1 (U1 m c)).trans (u1_main_v1 m c)
theorem u2_main_v3 : U2 m c (Proc.devRef .tc main_v3) = (tgtOf (m ((c.tc : Thread nD τ).loc main_arg1))) :=
  (s2_keep_main_v3 (U1 m c)).trans (u1_main_v3 m c)
theorem u2_main_v10 : U2 m c (Proc.devRef .tc main_v10) = (degOf (tgtOf (m ((c.tc : Thread nD τ).loc main_arg1)))) :=
  (s2_keep_main_v10 (U1 m c)).trans (u1_main_v10 m c)
theorem u2_main_arg0 : U2 m c (Proc.devRef .tc main_arg0) = (m ((c.tc : Thread nD τ).loc main_arg0)) :=
  (s2_keep_main_arg0 (U1 m c)).trans (u1_main_arg0 m c)
theorem u2_main_arg4 : U2 m c (Proc.devRef .tc main_arg4) = (m ((c.tc : Thread nD τ).loc main_arg4)) :=
  (s2_keep_main_arg4 (U1 m c)).trans (u1_main_arg4 m c)
theorem u2_main_arg5 : U2 m c (Proc.devRef .tc main_arg5) = (m ((c.tc : Thread nD τ).loc main_arg5)) :=
  (s2_keep_main_arg5 (U1 m c)).trans (u1_main_arg5 m c)
theorem u2_main_arg6 : U2 m c (Proc.devRef .tc main_arg6) = (m ((c.tc : Thread nD τ).loc main_arg6)) :=
  (s2_keep_main_arg6 (U1 m c)).trans (u1_main_arg6 m c)
theorem u2_main_arg7 : U2 m c (Proc.devRef .tc main_arg7) = (m ((c.tc : Thread nD τ).loc main_arg7)) :=
  (s2_keep_main_arg7 (U1 m c)).trans (u1_main_arg7 m c)
theorem u2_main_arg8 : U2 m c (Proc.devRef .tc main_arg8) = (m ((c.tc : Thread nD τ).loc main_arg8)) :=
  (s2_keep_main_arg8 (U1 m c)).trans (u1_main_arg8 m c)
theorem u2_main_arg2 : U2 m c (Proc.devRef .tc main_arg2) = (m ((c.tc : Thread nD τ).loc main_arg2)) :=
  (s2_keep_main_arg2 (U1 m c)).trans (u1_main_arg2 m c)
theorem u2_main_arg3 : U2 m c (Proc.devRef .tc main_arg3) = (m ((c.tc : Thread nD τ).loc main_arg3)) :=
  (s2_keep_main_arg3 (U1 m c)).trans (u1_main_arg3 m c)
theorem u2_main_arg9 : U2 m c (Proc.devRef .tc main_arg9) = (m ((c.tc : Thread nD τ).loc main_arg9)) :=
  (s2_keep_main_arg9 (U1 m c)).trans (u1_main_arg9 m c)
theorem u2_main_arg10 : U2 m c (Proc.devRef .tc main_arg10) = (m ((c.tc : Thread nD τ).loc main_arg10)) :=
  (s2_keep_main_arg10 (U1 m c)).trans (u1_main_arg10 m c)
theorem u2_main_arg11 : U2 m c (Proc.devRef .tc main_arg11) = (m ((c.tc : Thread nD τ).loc main_arg11)) :=
  (s2_keep_main_arg11 (U1 m c)).trans (u1_main_arg11 m c)
theorem u2_main_arg12 : U2 m c (Proc.devRef .tc main_arg12) = (m ((c.tc : Thread nD τ).loc main_arg12)) :=
  (s2_keep_main_arg12 (U1 m c)).trans (u1_main_arg12 m c)

theorem u3_main_v63 : U3 m c (Proc.devRef .tc main_v63) = (R63 m c) :=
  (s3_main_v63 (U2 m c)).trans (by rw [u2_main_v25 m c, u2_main_arg0 m c, u2_main_arg5 m c, u2_main_arg6 m c, u2_main_arg7 m c, u2_main_arg8 m c] <;> rfl)
theorem u3_main_v1 : U3 m c (Proc.devRef .tc main_v1) = (srcOf (m ((c.tc : Thread nD τ).loc main_arg1))) :=
  (s3_keep_main_v1 (U2 m c)).trans (u2_main_v1 m c)
theorem u3_main_v3 : U3 m c (Proc.devRef .tc main_v3) = (tgtOf (m ((c.tc : Thread nD τ).loc main_arg1))) :=
  (s3_keep_main_v3 (U2 m c)).trans (u2_main_v3 m c)
theorem u3_main_v10 : U3 m c (Proc.devRef .tc main_v10) = (degOf (tgtOf (m ((c.tc : Thread nD τ).loc main_arg1)))) :=
  (s3_keep_main_v10 (U2 m c)).trans (u2_main_v10 m c)
theorem u3_main_arg4 : U3 m c (Proc.devRef .tc main_arg4) = (m ((c.tc : Thread nD τ).loc main_arg4)) :=
  (s3_keep_main_arg4 (U2 m c)).trans (u2_main_arg4 m c)
theorem u3_main_arg5 : U3 m c (Proc.devRef .tc main_arg5) = (m ((c.tc : Thread nD τ).loc main_arg5)) :=
  (s3_keep_main_arg5 (U2 m c)).trans (u2_main_arg5 m c)
theorem u3_main_arg6 : U3 m c (Proc.devRef .tc main_arg6) = (m ((c.tc : Thread nD τ).loc main_arg6)) :=
  (s3_keep_main_arg6 (U2 m c)).trans (u2_main_arg6 m c)
theorem u3_main_arg7 : U3 m c (Proc.devRef .tc main_arg7) = (m ((c.tc : Thread nD τ).loc main_arg7)) :=
  (s3_keep_main_arg7 (U2 m c)).trans (u2_main_arg7 m c)
theorem u3_main_arg8 : U3 m c (Proc.devRef .tc main_arg8) = (m ((c.tc : Thread nD τ).loc main_arg8)) :=
  (s3_keep_main_arg8 (U2 m c)).trans (u2_main_arg8 m c)
theorem u3_main_arg2 : U3 m c (Proc.devRef .tc main_arg2) = (m ((c.tc : Thread nD τ).loc main_arg2)) :=
  (s3_keep_main_arg2 (U2 m c)).trans (u2_main_arg2 m c)
theorem u3_main_arg3 : U3 m c (Proc.devRef .tc main_arg3) = (m ((c.tc : Thread nD τ).loc main_arg3)) :=
  (s3_keep_main_arg3 (U2 m c)).trans (u2_main_arg3 m c)
theorem u3_main_arg9 : U3 m c (Proc.devRef .tc main_arg9) = (m ((c.tc : Thread nD τ).loc main_arg9)) :=
  (s3_keep_main_arg9 (U2 m c)).trans (u2_main_arg9 m c)
theorem u3_main_arg10 : U3 m c (Proc.devRef .tc main_arg10) = (m ((c.tc : Thread nD τ).loc main_arg10)) :=
  (s3_keep_main_arg10 (U2 m c)).trans (u2_main_arg10 m c)
theorem u3_main_arg11 : U3 m c (Proc.devRef .tc main_arg11) = (m ((c.tc : Thread nD τ).loc main_arg11)) :=
  (s3_keep_main_arg11 (U2 m c)).trans (u2_main_arg11 m c)
theorem u3_main_arg12 : U3 m c (Proc.devRef .tc main_arg12) = (m ((c.tc : Thread nD τ).loc main_arg12)) :=
  (s3_keep_main_arg12 (U2 m c)).trans (u2_main_arg12 m c)

theorem u4_main_v66 : U4 m c (Proc.devRef .tc main_v66) = (R66 m c) :=
  (s4_main_v66 (U3 m c)).trans (by rw [u3_main_v63 m c, u3_main_arg4 m c] <;> rfl)
theorem u4_main_v63 : U4 m c (Proc.devRef .tc main_v63) = (R63 m c) :=
  (s4_keep_main_v63 (U3 m c)).trans (u3_main_v63 m c)
theorem u4_main_v1 : U4 m c (Proc.devRef .tc main_v1) = (srcOf (m ((c.tc : Thread nD τ).loc main_arg1))) :=
  (s4_keep_main_v1 (U3 m c)).trans (u3_main_v1 m c)
theorem u4_main_v3 : U4 m c (Proc.devRef .tc main_v3) = (tgtOf (m ((c.tc : Thread nD τ).loc main_arg1))) :=
  (s4_keep_main_v3 (U3 m c)).trans (u3_main_v3 m c)
theorem u4_main_v10 : U4 m c (Proc.devRef .tc main_v10) = (degOf (tgtOf (m ((c.tc : Thread nD τ).loc main_arg1)))) :=
  (s4_keep_main_v10 (U3 m c)).trans (u3_main_v10 m c)
theorem u4_main_arg5 : U4 m c (Proc.devRef .tc main_arg5) = (m ((c.tc : Thread nD τ).loc main_arg5)) :=
  (s4_keep_main_arg5 (U3 m c)).trans (u3_main_arg5 m c)
theorem u4_main_arg6 : U4 m c (Proc.devRef .tc main_arg6) = (m ((c.tc : Thread nD τ).loc main_arg6)) :=
  (s4_keep_main_arg6 (U3 m c)).trans (u3_main_arg6 m c)
theorem u4_main_arg7 : U4 m c (Proc.devRef .tc main_arg7) = (m ((c.tc : Thread nD τ).loc main_arg7)) :=
  (s4_keep_main_arg7 (U3 m c)).trans (u3_main_arg7 m c)
theorem u4_main_arg8 : U4 m c (Proc.devRef .tc main_arg8) = (m ((c.tc : Thread nD τ).loc main_arg8)) :=
  (s4_keep_main_arg8 (U3 m c)).trans (u3_main_arg8 m c)
theorem u4_main_arg2 : U4 m c (Proc.devRef .tc main_arg2) = (m ((c.tc : Thread nD τ).loc main_arg2)) :=
  (s4_keep_main_arg2 (U3 m c)).trans (u3_main_arg2 m c)
theorem u4_main_arg3 : U4 m c (Proc.devRef .tc main_arg3) = (m ((c.tc : Thread nD τ).loc main_arg3)) :=
  (s4_keep_main_arg3 (U3 m c)).trans (u3_main_arg3 m c)
theorem u4_main_arg9 : U4 m c (Proc.devRef .tc main_arg9) = (m ((c.tc : Thread nD τ).loc main_arg9)) :=
  (s4_keep_main_arg9 (U3 m c)).trans (u3_main_arg9 m c)
theorem u4_main_arg10 : U4 m c (Proc.devRef .tc main_arg10) = (m ((c.tc : Thread nD τ).loc main_arg10)) :=
  (s4_keep_main_arg10 (U3 m c)).trans (u3_main_arg10 m c)
theorem u4_main_arg11 : U4 m c (Proc.devRef .tc main_arg11) = (m ((c.tc : Thread nD τ).loc main_arg11)) :=
  (s4_keep_main_arg11 (U3 m c)).trans (u3_main_arg11 m c)
theorem u4_main_arg12 : U4 m c (Proc.devRef .tc main_arg12) = (m ((c.tc : Thread nD τ).loc main_arg12)) :=
  (s4_keep_main_arg12 (U3 m c)).trans (u3_main_arg12 m c)

theorem u5_main_v78 : U5 m c (Proc.devRef .tc main_v78) = (R78 m c) :=
  (s5_main_v78 (U4 m c)).trans (by rw [u4_main_v66 m c, u4_main_v1 m c, u4_main_v3 m c, u4_main_v10 m c] <;> rfl)
theorem u5_main_v63 : U5 m c (Proc.devRef .tc main_v63) = (R63 m c) :=
  (s5_keep_main_v63 (U4 m c)).trans (u4_main_v63 m c)
theorem u5_main_arg5 : U5 m c (Proc.devRef .tc main_arg5) = (m ((c.tc : Thread nD τ).loc main_arg5)) :=
  (s5_keep_main_arg5 (U4 m c)).trans (u4_main_arg5 m c)
theorem u5_main_arg6 : U5 m c (Proc.devRef .tc main_arg6) = (m ((c.tc : Thread nD τ).loc main_arg6)) :=
  (s5_keep_main_arg6 (U4 m c)).trans (u4_main_arg6 m c)
theorem u5_main_arg7 : U5 m c (Proc.devRef .tc main_arg7) = (m ((c.tc : Thread nD τ).loc main_arg7)) :=
  (s5_keep_main_arg7 (U4 m c)).trans (u4_main_arg7 m c)
theorem u5_main_arg8 : U5 m c (Proc.devRef .tc main_arg8) = (m ((c.tc : Thread nD τ).loc main_arg8)) :=
  (s5_keep_main_arg8 (U4 m c)).trans (u4_main_arg8 m c)
theorem u5_main_arg2 : U5 m c (Proc.devRef .tc main_arg2) = (m ((c.tc : Thread nD τ).loc main_arg2)) :=
  (s5_keep_main_arg2 (U4 m c)).trans (u4_main_arg2 m c)
theorem u5_main_arg3 : U5 m c (Proc.devRef .tc main_arg3) = (m ((c.tc : Thread nD τ).loc main_arg3)) :=
  (s5_keep_main_arg3 (U4 m c)).trans (u4_main_arg3 m c)
theorem u5_main_arg9 : U5 m c (Proc.devRef .tc main_arg9) = (m ((c.tc : Thread nD τ).loc main_arg9)) :=
  (s5_keep_main_arg9 (U4 m c)).trans (u4_main_arg9 m c)
theorem u5_main_arg10 : U5 m c (Proc.devRef .tc main_arg10) = (m ((c.tc : Thread nD τ).loc main_arg10)) :=
  (s5_keep_main_arg10 (U4 m c)).trans (u4_main_arg10 m c)
theorem u5_main_arg11 : U5 m c (Proc.devRef .tc main_arg11) = (m ((c.tc : Thread nD τ).loc main_arg11)) :=
  (s5_keep_main_arg11 (U4 m c)).trans (u4_main_arg11 m c)
theorem u5_main_arg12 : U5 m c (Proc.devRef .tc main_arg12) = (m ((c.tc : Thread nD τ).loc main_arg12)) :=
  (s5_keep_main_arg12 (U4 m c)).trans (u4_main_arg12 m c)

theorem u6_main_v116 : U6 m c (Proc.devRef .tc main_v116) = (R116 m c) :=
  (s6_main_v116 (U5 m c)).trans (by rw [u5_main_v78 m c, u5_main_v63 m c, u5_main_arg5 m c, u5_main_arg6 m c, u5_main_arg7 m c, u5_main_arg8 m c] <;> rfl)
theorem u6_main_arg2 : U6 m c (Proc.devRef .tc main_arg2) = (m ((c.tc : Thread nD τ).loc main_arg2)) :=
  (s6_keep_main_arg2 (U5 m c)).trans (u5_main_arg2 m c)
theorem u6_main_arg3 : U6 m c (Proc.devRef .tc main_arg3) = (m ((c.tc : Thread nD τ).loc main_arg3)) :=
  (s6_keep_main_arg3 (U5 m c)).trans (u5_main_arg3 m c)
theorem u6_main_arg9 : U6 m c (Proc.devRef .tc main_arg9) = (m ((c.tc : Thread nD τ).loc main_arg9)) :=
  (s6_keep_main_arg9 (U5 m c)).trans (u5_main_arg9 m c)
theorem u6_main_arg10 : U6 m c (Proc.devRef .tc main_arg10) = (m ((c.tc : Thread nD τ).loc main_arg10)) :=
  (s6_keep_main_arg10 (U5 m c)).trans (u5_main_arg10 m c)
theorem u6_main_arg11 : U6 m c (Proc.devRef .tc main_arg11) = (m ((c.tc : Thread nD τ).loc main_arg11)) :=
  (s6_keep_main_arg11 (U5 m c)).trans (u5_main_arg11 m c)
theorem u6_main_arg12 : U6 m c (Proc.devRef .tc main_arg12) = (m ((c.tc : Thread nD τ).loc main_arg12)) :=
  (s6_keep_main_arg12 (U5 m c)).trans (u5_main_arg12 m c)

theorem u7_main_v130 : U7 m c (Proc.devRef .tc main_v130) = (R130 m c) :=
  (s7_main_v130 (U6 m c)).trans (by rw [u6_main_v116 m c, u6_main_arg2 m c, u6_main_arg3 m c] <;> rfl)
theorem u7_main_arg9 : U7 m c (Proc.devRef .tc main_arg9) = (m ((c.tc : Thread nD τ).loc main_arg9)) :=
  (s7_keep_main_arg9 (U6 m c)).trans (u6_main_arg9 m c)
theorem u7_main_arg10 : U7 m c (Proc.devRef .tc main_arg10) = (m ((c.tc : Thread nD τ).loc main_arg10)) :=
  (s7_keep_main_arg10 (U6 m c)).trans (u6_main_arg10 m c)
theorem u7_main_arg11 : U7 m c (Proc.devRef .tc main_arg11) = (m ((c.tc : Thread nD τ).loc main_arg11)) :=
  (s7_keep_main_arg11 (U6 m c)).trans (u6_main_arg11 m c)
theorem u7_main_arg12 : U7 m c (Proc.devRef .tc main_arg12) = (m ((c.tc : Thread nD τ).loc main_arg12)) :=
  (s7_keep_main_arg12 (U6 m c)).trans (u6_main_arg12 m c)

theorem u8_main_v142 : U8 m c (Proc.devRef .tc main_v142) = (R142 m c) :=
  (s8_main_v142 (U7 m c)).trans (by rw [u7_main_v130 m c, u7_main_arg9 m c, u7_main_arg10 m c, u7_main_arg11 m c, u7_main_arg12 m c] <;> rfl)

/-- The result buffer after the whole line: the network of the launch contents of the arguments. -/
theorem result_eq : after (ops (F := Ideal)) (launchContents m c) (Proc.devRef .tc main_v142)
    = Cert.KernelIdeal.Chain.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops]
  exact (u8_main_v142 m c).trans (R142_eq m c)

/-! ## No operation writes an argument -/

set_option maxHeartbeats 4000000 in
theorem arg0_kept : after (ops (F := Ideal)) (launchContents m c) (Proc.devRef .tc main_arg0) = (m ((c.tc : Thread nD τ).loc main_arg0)) :=
  after_of_forall_not_mem (b := (Proc.devRef .tc main_arg0)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg1_kept : after (ops (F := Ideal)) (launchContents m c) (Proc.devRef .tc main_arg1) = (m ((c.tc : Thread nD τ).loc main_arg1)) :=
  after_of_forall_not_mem (b := (Proc.devRef .tc main_arg1)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg2_kept : after (ops (F := Ideal)) (launchContents m c) (Proc.devRef .tc main_arg2) = (m ((c.tc : Thread nD τ).loc main_arg2)) :=
  after_of_forall_not_mem (b := (Proc.devRef .tc main_arg2)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg3_kept : after (ops (F := Ideal)) (launchContents m c) (Proc.devRef .tc main_arg3) = (m ((c.tc : Thread nD τ).loc main_arg3)) :=
  after_of_forall_not_mem (b := (Proc.devRef .tc main_arg3)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg4_kept : after (ops (F := Ideal)) (launchContents m c) (Proc.devRef .tc main_arg4) = (m ((c.tc : Thread nD τ).loc main_arg4)) :=
  after_of_forall_not_mem (b := (Proc.devRef .tc main_arg4)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg5_kept : after (ops (F := Ideal)) (launchContents m c) (Proc.devRef .tc main_arg5) = (m ((c.tc : Thread nD τ).loc main_arg5)) :=
  after_of_forall_not_mem (b := (Proc.devRef .tc main_arg5)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg6_kept : after (ops (F := Ideal)) (launchContents m c) (Proc.devRef .tc main_arg6) = (m ((c.tc : Thread nD τ).loc main_arg6)) :=
  after_of_forall_not_mem (b := (Proc.devRef .tc main_arg6)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg7_kept : after (ops (F := Ideal)) (launchContents m c) (Proc.devRef .tc main_arg7) = (m ((c.tc : Thread nD τ).loc main_arg7)) :=
  after_of_forall_not_mem (b := (Proc.devRef .tc main_arg7)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg8_kept : after (ops (F := Ideal)) (launchContents m c) (Proc.devRef .tc main_arg8) = (m ((c.tc : Thread nD τ).loc main_arg8)) :=
  after_of_forall_not_mem (b := (Proc.devRef .tc main_arg8)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg9_kept : after (ops (F := Ideal)) (launchContents m c) (Proc.devRef .tc main_arg9) = (m ((c.tc : Thread nD τ).loc main_arg9)) :=
  after_of_forall_not_mem (b := (Proc.devRef .tc main_arg9)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg10_kept : after (ops (F := Ideal)) (launchContents m c) (Proc.devRef .tc main_arg10) = (m ((c.tc : Thread nD τ).loc main_arg10)) :=
  after_of_forall_not_mem (b := (Proc.devRef .tc main_arg10)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg11_kept : after (ops (F := Ideal)) (launchContents m c) (Proc.devRef .tc main_arg11) = (m ((c.tc : Thread nD τ).loc main_arg11)) :=
  after_of_forall_not_mem (b := (Proc.devRef .tc main_arg11)) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxHeartbeats 4000000 in
theorem arg12_kept : after (ops (F := Ideal)) (launchContents m c) (Proc.devRef .tc main_arg12) = (m ((c.tc : Thread nD τ).loc main_arg12)) :=
  after_of_forall_not_mem (b := (Proc.devRef .tc main_arg12)) _ _ (List.forall_iff_forall_mem.mp (by
    simp only [ops, List.Forall, nullary_writes, unary_writes, binary_writes, ternary_writes, reshape_writes, Finset.mem_singleton]
    repeat' apply And.intro
    all_goals exact devRef_ne_of_ne (by decide)))

/-! ## The run -/

/-- Every weakly fair execution of the reference ends with its result at the network of the arguments and the
    arguments as launched. -/
theorem run : θ_run defs (onTc (τ := τ) (main (F := Ideal))) ⟨m, fun _ => 0, ρ⟩ fun r => ∀ c : Dev nD,
      r.2.mem ((c.tc : Thread nD τ).loc main_v142)
        = Cert.KernelIdeal.Chain.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12)) :=
  (θ_run defs _ _).mono (fun _ h c => ⟨(h c main_v142).trans (result_eq m c),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c),
      (h c main_arg8).trans (arg8_kept m c),
      (h c main_arg9).trans (arg9_kept m c),
      (h c main_arg10).trans (arg10_kept m c),
      (h c main_arg11).trans (arg11_kept m c),
      (h c main_arg12).trans (arg12_kept m c)⟩)
    (run_seq scopedRefs_eq scopedSems_eq defs main (fun _ => ops) main_eq (fun _ => ops_sub) m ρ)

end Cert.ReferenceIdeal.HandRun

end
-- ==== Proof.lean ====
/-
  The certificate: a two-layer gated graph network with mean aggregation, a per-graph mean pool joined with text
  features, and a two-layer classifier head with log-softmax, as five pallas_calls among host gather / scatter
  operations, against its plain jnp reference.

  Both programs are the same function of their thirteen arguments on the extended reals. The host operations around the
  calls (the edge index vectors, the clamped in-degree, gather of message rows, scatter-add into target rows, the
  division by the degree, the rectifier, the per-graph mean, the join) are the reference's own operations on the same
  operands, so they are carried as they stand. Each call's output array is one whole-array function of its operand
  arrays: the product of every node's row with a layer's 15 × 15 weight; the recurrent cell of every node's message
  row and state row; the head of every graph's feature row. The reference computes the same three functions in the
  host's spelling: a dot_general (against a transposed weight where the kernel contracts the last axis of both), the
  biases spread in two steps where the kernel broadcasts a one-row view, the logistic function spelt
  1 / (1 + exp (−x)), and jax.nn.log_softmax's operations. No step needs more than the definitions of the operations
  and the reindexing of finite sums, so the precondition is not used. The idealized kernel is the kernel's own text read over the extended reals: no
  operation of it was rewritten, and the claim that it preserves the kernel is the trivial one.
-/
import proofs.«164312_j77764677862200_1_alg».proof.Defs
import proofs.«164312_j77764677862200_1_alg».proof.Proof.Gen.Kernel
import proofs.«164312_j77764677862200_1_alg».proof.Proof.Gen.Kernel.Skeleton
import proofs.«164312_j77764677862200_1_alg».proof.Proof.Gen.Kernel.Launch
import proofs.«164312_j77764677862200_1_alg».proof.Proof.Gen.Kernel.Points
import proofs.«164312_j77764677862200_1_alg».proof.Proof.Gen.Kernel.Frame
import proofs.«164312_j77764677862200_1_alg».proof.Proof.Gen.KernelIdeal
import proofs.«164312_j77764677862200_1_alg».proof.Proof.Gen.KernelIdeal.Skeleton
import proofs.«164312_j77764677862200_1_alg».proof.Proof.Gen.KernelIdeal.Launch
import proofs.«164312_j77764677862200_1_alg».proof.Proof.Gen.KernelIdeal.Points
import proofs.«164312_j77764677862200_1_alg».proof.Proof.Gen.KernelIdeal.Frame
import proofs.«164312_j77764677862200_1_alg».proof.Proof.Gen.ReferenceIdeal
import proofs.«164312_j77764677862200_1_alg».proof.Proof.Gen.Pre_finite_inputs
import proofs.«164312_j77764677862200_1_alg».proof.Proof.RunValue
import proofs.«164312_j77764677862200_1_alg».proof.Proof.Chain
import proofs.«164312_j77764677862200_1_alg».proof.Proof.RefChain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- Both idealized programs end with the network of the arguments in their result buffer. -/
theorem algebraic : Cert.algebraic_KernelIdeal_ReferenceIdeal := by
  intro m ρ m' ρ' _ hagree
  refine ⟨fun c => Cert.KernelIdeal.Chain.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Chain.result_eq m ρ c), (h c).2⟩)
      (Cert.KernelIdeal.RunValue.run m ρ)
  · refine (θ_run Cert.ReferenceIdeal.defs _ _).mono (fun _ h c => ⟨(h c).1.trans ?_, (h c).2⟩)
      (Cert.ReferenceIdeal.HandRun.run m' ρ')
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
